-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S16x1x512x512 : Shape := ⟨4, ![16, 1, 512, 512]⟩
abbrev S_ : Shape := ⟨0, ![]⟩
abbrev S16x1x514x514 : Shape := ⟨4, ![16, 1, 514, 514]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  slices_S16x8x512x512_S16x1x512x512_0_0_0_0 : S16x8x512x512.Slices ![0, 0, 0, 0] S16x1x512x512
  pads_S16x1x512x512_S16x1x514x514_000_000_110_110 : S16x1x512x512.Pads (![0, 0, 1, 1] : Fin 4 → Nat) ![0, 0, 1, 1] ![0, 0, 0, 0] S16x1x514x514
  slices_S16x1x514x514_S16x1x512x512_0_0_2_2 : S16x1x514x514.Slices ![0, 0, 2, 2] S16x1x512x512
  slices_S16x8x512x512_S16x1x512x512_0_1_0_0 : S16x8x512x512.Slices ![0, 1, 0, 0] S16x1x512x512
  slices_S16x1x514x514_S16x1x512x512_0_0_2_1 : S16x1x514x514.Slices ![0, 0, 2, 1] S16x1x512x512
  slices_S16x8x512x512_S16x1x512x512_0_2_0_0 : S16x8x512x512.Slices ![0, 2, 0, 0] S16x1x512x512
  slices_S16x1x514x514_S16x1x512x512_0_0_2_0 : S16x1x514x514.Slices ![0, 0, 2, 0] S16x1x512x512
  slices_S16x8x512x512_S16x1x512x512_0_3_0_0 : S16x8x512x512.Slices ![0, 3, 0, 0] S16x1x512x512
  slices_S16x1x514x514_S16x1x512x512_0_0_1_2 : S16x1x514x514.Slices ![0, 0, 1, 2] S16x1x512x512
  slices_S16x8x512x512_S16x1x512x512_0_4_0_0 : S16x8x512x512.Slices ![0, 4, 0, 0] S16x1x512x512
  slices_S16x1x514x514_S16x1x512x512_0_0_1_0 : S16x1x514x514.Slices ![0, 0, 1, 0] S16x1x512x512
  slices_S16x8x512x512_S16x1x512x512_0_5_0_0 : S16x8x512x512.Slices ![0, 5, 0, 0] S16x1x512x512
  slices_S16x1x514x514_S16x1x512x512_0_0_0_2 : S16x1x514x514.Slices ![0, 0, 0, 2] S16x1x512x512
  slices_S16x8x512x512_S16x1x512x512_0_6_0_0 : S16x8x512x512.Slices ![0, 6, 0, 0] S16x1x512x512
  slices_S16x1x514x514_S16x1x512x512_0_0_0_1 : S16x1x514x514.Slices ![0, 0, 0, 1] S16x1x512x512
  slices_S16x8x512x512_S16x1x512x512_0_7_0_0 : S16x8x512x512.Slices ![0, 7, 0, 0] S16x1x512x512
  slices_S16x1x514x514_S16x1x512x512_0_0_0_0 : S16x1x514x514.Slices ![0, 0, 0, 0] S16x1x512x512

variable [Facts]

def fn_part2 {F : FTy → Type} [FloatOps F] (main_arg0 : FVec F S16x8x512x512 .f32) (main_v8 : IVec S_ 1) (main_v12 : FVec F S16x1x512x512 .f32) (main_v16 : FVec F S16x1x512x512 .f32) (main_v20 : FVec F S16x1x512x512 .f32) (main_v24 : FVec F S16x1x512x512 .f32) (main_v28 : FVec F S16x1x512x512 .f32) (main_v32 : FVec F S16x1x512x512 .f32) (main_v36 : FVec F S16x1x512x512 .f32) : IVec S_ 1 :=
  let main_v37 : FVec F S16x1x512x512 .f32 := (extractStridedSlice S16x1x512x512 ![0, 7, 0, 0] · slices_S16x8x512x512_S16x1x512x512_0_7_0_0) main_arg0
  let main_cst_9 : FVec F S_ .f32 := constant S_ .f32 0x00000000#32
  let main_v38 : FVec F S16x1x514x514 .f32 := (fun x v => pad S16x1x514x514 ![0, 0, 1, 1] ![0, 0, 1, 1] ![0, 0, 0, 0] x v pads_S16x1x512x512_S16x1x514x514_000_000_110_110 h_S_) main_v37 main_cst_9
  let main_v39 : FVec F S16x1x512x512 .f32 := (extractStridedSlice S16x1x512x512 ![0, 0, 0, 0] · slices_S16x1x514x514_S16x1x512x512_0_0_0_0) main_v38
  let main_v40 : FVec F S16x1x512x512 .f32 := Host.absf main_v39
  let main_v41 : FVec F S16x1x512x512 .f32 := addf main_v12 main_v16
  let main_v42 : FVec F S16x1x512x512 .f32 := addf main_v41 main_v20
  let main_v43 : FVec F S16x1x512x512 .f32 := addf main_v42 main_v24
  let main_v44 : FVec F S16x1x512x512 .f32 := addf main_v43 main_v28
  let main_v45 : FVec F S16x1x512x512 .f32 := addf main_v44 main_v32
  let main_v46 : FVec F S16x1x512x512 .f32 := addf main_v45 main_v36
  let main_v47 : FVec F S16x1x512x512 .f32 := addf main_v46 main_v40
  let main_cst_10 : FVec F S_ .f32 := constant S_ .f32 0x00000000#32
  let main_v48 : FVec F S16x1x512x512 .f32 := broadcastInDim S16x1x512x512 ![] bcast_S_S16x1x512x512 main_cst_10
  let main_v49 : IVec S16x1x512x512 1 := cmpf .ogt main_v47 main_v48
  let main_c_11 : IVec S_ 1 := constantI S_ 1 1#1
  let main_v50 : IVec S_ 1 := (fun x v => Host.reduce IntOp.andi x v reducesTo_S16x1x512x512_S_d0_1_2_3 h_S_) main_v49 main_c_11
  let main_v51 : IVec S_ 1 := andi main_v8 main_v50
  main_v51

def fn_part1 {F : FTy → Type} [FloatOps F] (main_arg0 : FVec F S16x8x512x512 .f32) (main_v8 : IVec S_ 1) (main_v12 : FVec F S16x1x512x512 .f32) (main_v16 : FVec F S16x1x512x512 .f32) (main_v17 : FVec F S16x1x512x512 .f32) : IVec S_ 1 :=
  let main_cst_4 : FVec F S_ .f32 := constant S_ .f32 0x00000000#32
  let main_v18 : FVec F S16x1x514x514 .f32 := (fun x v => pad S16x1x514x514 ![0, 0, 1, 1] ![0, 0, 1, 1] ![0, 0, 0, 0] x v pads_S16x1x512x512_S16x1x514x514_000_000_110_110 h_S_) main_v17 main_cst_4
  let main_v19 : FVec F S16x1x512x512 .f32 := (extractStridedSlice S16x1x512x512 ![0, 0, 2, 0] · slices_S16x1x514x514_S16x1x512x512_0_0_2_0) main_v18
  let main_v20 : FVec F S16x1x512x512 .f32 := Host.absf main_v19
  let main_v21 : FVec F S16x1x512x512 .f32 := (extractStridedSlice S16x1x512x512 ![0, 3, 0, 0] · slices_S16x8x512x512_S16x1x512x512_0_3_0_0) main_arg0
  let main_cst_5 : FVec F S_ .f32 := constant S_ .f32 0x00000000#32
  let main_v22 : FVec F S16x1x514x514 .f32 := (fun x v => pad S16x1x514x514 ![0, 0, 1, 1] ![0, 0, 1, 1] ![0, 0, 0, 0] x v pads_S16x1x512x512_S16x1x514x514_000_000_110_110 h_S_) main_v21 main_cst_5
  let main_v23 : FVec F S16x1x512x512 .f32 := (extractStridedSlice S16x1x512x512 ![0, 0, 1, 2] · slices_S16x1x514x514_S16x1x512x512_0_0_1_2) main_v22
  let main_v24 : FVec F S16x1x512x512 .f32 := Host.absf main_v23
  let main_v25 : FVec F S16x1x512x512 .f32 := (extractStridedSlice S16x1x512x512 ![0, 4, 0, 0] · slices_S16x8x512x512_S16x1x512x512_0_4_0_0) main_arg0
  let main_cst_6 : FVec F S_ .f32 := constant S_ .f32 0x00000000#32
  let main_v26 : FVec F S16x1x514x514 .f32 := (fun x v => pad S16x1x514x514 ![0, 0, 1, 1] ![0, 0, 1, 1] ![0, 0, 0, 0] x v pads_S16x1x512x512_S16x1x514x514_000_000_110_110 h_S_) main_v25 main_cst_6
  let main_v27 : FVec F S16x1x512x512 .f32 := (extractStridedSlice S16x1x512x512 ![0, 0, 1, 0] · slices_S16x1x514x514_S16x1x512x512_0_0_1_0) main_v26
  let main_v28 : FVec F S16x1x512x512 .f32 := Host.absf main_v27
  let main_v29 : FVec F S16x1x512x512 .f32 := (extractStridedSlice S16x1x512x512 ![0, 5, 0, 0] · slices_S16x8x512x512_S16x1x512x512_0_5_0_0) main_arg0
  let main_cst_7 : FVec F S_ .f32 := constant S_ .f32 0x00000000#32
  let main_v30 : FVec F S16x1x514x514 .f32 := (fun x v => pad S16x1x514x514 ![0, 0, 1, 1] ![0, 0, 1, 1] ![0, 0, 0, 0] x v pads_S16x1x512x512_S16x1x514x514_000_000_110_110 h_S_) main_v29 main_cst_7
  let main_v31 : FVec F S16x1x512x512 .f32 := (extractStridedSlice S16x1x512x512 ![0, 0, 0, 2] · slices_S16x1x514x514_S16x1x512x512_0_0_0_2) main_v30
  let main_v32 : FVec F S16x1x512x512 .f32 := Host.absf main_v31
  let main_v33 : FVec F S16x1x512x512 .f32 := (extractStridedSlice S16x1x512x512 ![0, 6, 0, 0] · slices_S16x8x512x512_S16x1x512x512_0_6_0_0) main_arg0
  let main_cst_8 : FVec F S_ .f32 := constant S_ .f32 0x00000000#32
  let main_v34 : FVec F S16x1x514x514 .f32 := (fun x v => pad S16x1x514x514 ![0, 0, 1, 1] ![0, 0, 1, 1] ![0, 0, 0, 0] x v pads_S16x1x512x512_S16x1x514x514_000_000_110_110 h_S_) main_v33 main_cst_8
  let main_v35 : FVec F S16x1x512x512 .f32 := (extractStridedSlice S16x1x512x512 ![0, 0, 0, 1] · slices_S16x1x514x514_S16x1x512x512_0_0_0_1) main_v34
  let main_v36 : FVec F S16x1x512x512 .f32 := Host.absf main_v35
  fn_part2 (F := F) main_arg0 main_v8 main_v12 main_v16 main_v20 main_v24 main_v28 main_v32 main_v36

def fn {F : FTy → Type} [FloatOps F] (main_arg0 : FVec F S16x8x512x512 .f32) (main_arg1 : FVec F S16x1x512x512 .f32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  let main_v9 : FVec F S16x1x512x512 .f32 := (extractStridedSlice S16x1x512x512 ![0, 0, 0, 0] · slices_S16x8x512x512_S16x1x512x512_0_0_0_0) main_arg0
  let main_cst_2 : FVec F S_ .f32 := constant S_ .f32 0x00000000#32
  let main_v10 : FVec F S16x1x514x514 .f32 := (fun x v => pad S16x1x514x514 ![0, 0, 1, 1] ![0, 0, 1, 1] ![0, 0, 0, 0] x v pads_S16x1x512x512_S16x1x514x514_000_000_110_110 h_S_) main_v9 main_cst_2
  let main_v11 : FVec F S16x1x512x512 .f32 := (extractStridedSlice S16x1x512x512 ![0, 0, 2, 2] · slices_S16x1x514x514_S16x1x512x512_0_0_2_2) main_v10
  let main_v12 : FVec F S16x1x512x512 .f32 := Host.absf main_v11
  let main_v13 : FVec F S16x1x512x512 .f32 := (extractStridedSlice S16x1x512x512 ![0, 1, 0, 0] · slices_S16x8x512x512_S16x1x512x512_0_1_0_0) main_arg0
  let main_cst_3 : FVec F S_ .f32 := constant S_ .f32 0x00000000#32
  let main_v14 : FVec F S16x1x514x514 .f32 := (fun x v => pad S16x1x514x514 ![0, 0, 1, 1] ![0, 0, 1, 1] ![0, 0, 0, 0] x v pads_S16x1x512x512_S16x1x514x514_000_000_110_110 h_S_) main_v13 main_cst_3
  let main_v15 : FVec F S16x1x512x512 .f32 := (extractStridedSlice S16x1x512x512 ![0, 0, 2, 1] · slices_S16x1x514x514_S16x1x512x512_0_0_2_1) main_v14
  let main_v16 : FVec F S16x1x512x512 .f32 := Host.absf main_v15
  let main_v17 : FVec F S16x1x512x512 .f32 := (extractStridedSlice S16x1x512x512 ![0, 2, 0, 0] · slices_S16x8x512x512_S16x1x512x512_0_2_0_0) main_arg0
  fn_part1 (F := F) main_arg0 main_v8 main_v12 main_v16 main_v17
-- ==== Kernel.lean ====
abbrev S16x8x512x512 : Shape := ⟨4, ![16, 8, 512, 512]⟩
abbrev S16x1x512x512 : Shape := ⟨4, ![16, 1, 512, 512]⟩
abbrev S1x8x512x512 : Shape := ⟨4, ![1, 8, 512, 512]⟩
abbrev S1x1x512x512 : Shape := ⟨4, ![1, 1, 512, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 3
  | .vmem => 9
  | .smem => 0
  | _ => 0

abbrev bufTy : (tb : Table) → Fin (tcTables nBuf tb) → BufTy
  | .hbm, ⟨0, _⟩ => ⟨S16x8x512x512, .f32⟩
  | .hbm, ⟨1, _⟩ => ⟨S16x1x512x512, .f32⟩
  | .hbm, ⟨2, _⟩ => ⟨S16x1x512x512, .f32⟩
  | .local _ .vmem, ⟨0, _⟩ => ⟨S1x8x512x512, .f32⟩
  | .local _ .vmem, ⟨1, _⟩ => ⟨S1x8x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S8x512x512, .f32⟩
  | .local _ .vmem, ⟨7, _⟩ => ⟨S512x512, .f32⟩
  | .local _ .vmem, ⟨8, _⟩ => ⟨S512x512, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  iota_S512x512_d0_w32 : S512x512.Iotas .tc 32 [0]
  iota_S512x512_d1_w32 : S512x512.Iotas .tc 32 [1]
  natLt_1_32 : 1 < 32
  inb_S1x8x512x512_S1x1x512x512_0_0_0_0 : ∀ a, (![0, 0, 0, 0] : Fin 4 → Nat) a + S1x1x512x512.size a ≤ S1x8x512x512.size a
  h_S1x1x512x512 : 0 < S1x1x512x512.numel
  shapeCasts_S1x1x512x512_S512x512 : S1x1x512x512.ShapeCasts S512x512
  rotates_S512x512_d0 : S512x512.Rotates 0 none
  rotates_S512x512_d1 : S512x512.Rotates 1 none
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  shapeCasts_S512x512_S1x512x512 : S512x512.ShapeCasts S1x512x512
  inb_S1x8x512x512_S1x1x512x512_0_1_0_0 : ∀ a, (![0, 1, 0, 0] : Fin 4 → Nat) a + S1x1x512x512.size a ≤ S1x8x512x512.size a
  inb_S8x512x512_S1x512x512_1_0_0 : ∀ a, (![1, 0, 0] : Fin 3 → Nat) a + S1x512x512.size a ≤ S8x512x512.size a
  inb_S1x8x512x512_S1x1x512x512_0_2_0_0 : ∀ a, (![0, 2, 0, 0] : Fin 4 → Nat) a + S1x1x512x512.size a ≤ S1x8x512x512.size a
  inb_S8x512x512_S1x512x512_2_0_0 : ∀ a, (![2, 0, 0] : Fin 3 → Nat) a + S1x512x512.size a ≤ S8x512x512.size a
  inb_S1x8x512x512_S1x1x512x512_0_3_0_0 : ∀ a, (![0, 3, 0, 0] : Fin 4 → Nat) a + S1x1x512x512.size a ≤ S1x8x512x512.size a
  inb_S8x512x512_S1x512x512_3_0_0 : ∀ a, (![3, 0, 0] : Fin 3 → Nat) a + S1x512x512.size a ≤ S8x512x512.size a
  inb_S1x8x512x512_S1x1x512x512_0_4_0_0 : ∀ a, (![0, 4, 0, 0] : Fin 4 → Nat) a + S1x1x512x512.size a ≤ S1x8x512x512.size a
  inb_S8x512x512_S1x512x512_4_0_0 : ∀ a, (![4, 0, 0] : Fin 3 → Nat) a + S1x512x512.size a ≤ S8x512x512.size a
  inb_S1x8x512x512_S1x1x512x512_0_5_0_0 : ∀ a, (![0, 5, 0, 0] : Fin 4 → Nat) a + S1x1x512x512.size a ≤ S1x8x512x512.size a
  inb_S8x512x512_S1x512x512_5_0_0 : ∀ a, (![5, 0, 0] : Fin 3 → Nat) a + S1x512x512.size a ≤ S8x512x512.size a
  inb_S1x8x512x512_S1x1x512x512_0_6_0_0 : ∀ a, (![0, 6, 0, 0] : Fin 4 → Nat) a + S1x1x512x512.size a ≤ S1x8x512x512.size a
  inb_S8x512x512_S1x512x512_6_0_0 : ∀ a, (![6, 0, 0] : Fin 3 → Nat) a + S1x512x512.size a ≤ S8x512x512.size a
  inb_S1x8x512x512_S1x1x512x512_0_7_0_0 : ∀ a, (![0, 7, 0, 0] : Fin 4 → Nat) a + S1x1x512x512.size a ≤ S1x8x512x512.size a
  inb_S8x512x512_S1x512x512_7_0_0 : ∀ a, (![7, 0, 0] : Fin 3 → Nat) a + S1x512x512.size a ≤ S8x512x512.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1x512x512_S1x1x512x512_0_0_0_0 : ∀ a, (![0, 0, 0, 0] : Fin 4 → Nat) a + S1x1x512x512.size a ≤ S1x1x512x512.size a
  shapeCasts_S512x512_S1x1x512x512 : S512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x512.size a ≤ S16x8x512x512.size a
  hwx0_0 : ∀ i : grid0.Coords, EltTy.bits .f32 = 32 ∨ (Rect.block (s := S16x8x512x512) S1x8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x1x512x512.size a
  hwx0_1 : ∀ i : grid0.Coords, EltTy.bits .f32 = 32 ∨ (Rect.block (s := S16x1x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S16x1x512x512.size a
  hwx0_2 : ∀ i : grid0.Coords, EltTy.bits .f32 = 32 ∨ (Rect.block (s := S16x1x512x512) S1x1x512x512.size (cc0_transform_2 i) (hinb0_2 i)).WholeWords (EltTy.packing .f32)

variable [Facts₀]

abbrev win0_0 : Pipeline.Window sig grid0 :=
  Pipeline.Window.ofSpec (Memref.whole main_arg0) S1x8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8x512x512 : Shape := ⟨4, ![16, 8, 512, 512]⟩
abbrev S16x1x512x512 : Shape := ⟨4, ![16, 1, 512, 512]⟩
abbrev S16x512x512 : Shape := ⟨3, ![16, 512, 512]⟩
abbrev S_ : Shape := ⟨0, ![]⟩
abbrev S16x514x514 : Shape := ⟨3, ![16, 514, 514]⟩
abbrev S16x1x514x514 : Shape := ⟨4, ![16, 1, 514, 514]⟩
abbrev S16x1x1x512x512 : Shape := ⟨5, ![16, 1, 1, 512, 512]⟩
abbrev S16x8x1x512x512 : Shape := ⟨5, ![16, 8, 1, 512, 512]⟩

abbrev nBuf : Space → Nat
  | .hbm => 271
  | .vmem => 0
  | .smem => 0
  | _ => 0

abbrev hbmTy0_0 (i : Nat) : BufTy := match i % 128 with
  | 0 => ⟨S16x8x512x512, .f32⟩
  | 1 => ⟨S16x1x512x512, .f32⟩
  | 2 => ⟨S16x1x512x512, .f32⟩
  | 3 => ⟨S16x512x512, .f32⟩
  | 4 => ⟨S_, .i32⟩
  | 5 => ⟨S_, .f32⟩
  | 6 => ⟨S16x514x514, .f32⟩
  | 7 => ⟨S16x512x512, .f32⟩
  | 8 => ⟨S16x1x512x512, .f32⟩
  | 9 => ⟨S16x512x512, .f32⟩
  | 10 => ⟨S_, .i32⟩
  | 11 => ⟨S_, .f32⟩
  | 12 => ⟨S16x514x514, .f32⟩
  | 13 => ⟨S16x512x512, .f32⟩
  | 14 => ⟨S16x1x512x512, .f32⟩
  | 15 => ⟨S16x512x512, .f32⟩
  | 16 => ⟨S_, .i32⟩
  | 17 => ⟨S_, .f32⟩
  | 18 => ⟨S16x514x514, .f32⟩
  | 19 => ⟨S16x512x512, .f32⟩
  | 20 => ⟨S16x1x512x512, .f32⟩
  | 21 => ⟨S16x512x512, .f32⟩
  | 22 => ⟨S_, .i32⟩
  | 23 => ⟨S_, .f32⟩
  | 24 => ⟨S16x514x514, .f32⟩
  | 25 => ⟨S16x512x512, .f32⟩
  | 26 => ⟨S16x1x512x512, .f32⟩
  | 27 => ⟨S16x512x512, .f32⟩
  | 28 => ⟨S_, .i32⟩
  | 29 => ⟨S_, .f32⟩
  | 30 => ⟨S16x514x514, .f32⟩
  | 31 => ⟨S16x512x512, .f32⟩
  | 32 => ⟨S16x1x512x512, .f32⟩
  | 33 => ⟨S16x512x512, .f32⟩
  | 34 => ⟨S_, .i32⟩
  | 35 => ⟨S_, .f32⟩
  | 36 => ⟨S16x514x514, .f32⟩
  | 37 => ⟨S16x512x512, .f32⟩
  | 38 => ⟨S16x1x512x512, .f32⟩
  | 39 => ⟨S16x512x512, .f32⟩
  | 40 => ⟨S_, .i32⟩
  | 41 => ⟨S_, .f32⟩
  | 42 => ⟨S16x514x514, .f32⟩
  | 43 => ⟨S16x512x512, .f32⟩
  | 44 => ⟨S16x1x512x512, .f32⟩
  | 45 => ⟨S16x512x512, .f32⟩
  | 46 => ⟨S_, .i32⟩
  | 47 => ⟨S_, .f32⟩
  | 48 => ⟨S16x514x514, .f32⟩
  | 49 => ⟨S16x512x512, .f32⟩
  | 50 => ⟨S16x1x512x512, .f32⟩
  | 51 => ⟨S16x1x512x512, .f32⟩
  | 52 => ⟨S16x1x512x512, .f32⟩
  | 53 => ⟨S16x1x512x512, .f32⟩
  | 54 => ⟨S16x1x512x512, .f32⟩
  | 55 => ⟨S16x1x512x512, .f32⟩
  | 56 => ⟨S16x1x512x512, .f32⟩
  | 57 => ⟨S16x1x512x512, .f32⟩
  | 58 => ⟨S16x8x512x512, .f32⟩
  | 59 => ⟨S16x8x512x512, .f32⟩
  | 60 => ⟨S_, .f32⟩
  | 61 => ⟨S16x512x512, .f32⟩
  | 62 => ⟨S16x1x512x512, .f32⟩
  | 63 => ⟨S16x8x512x512, .f32⟩
  | 64 => ⟨S16x8x512x512, .f32⟩
  | 65 => ⟨S_, .f32⟩
  | 66 => ⟨S16x512x512, .f32⟩
  | 67 => ⟨S_, .i32⟩
  | 68 => ⟨S_, .f32⟩
  | 69 => ⟨S16x1x514x514, .f32⟩
  | 70 => ⟨S16x1x512x512, .f32⟩
  | 71 => ⟨S_, .i32⟩
  | 72 => ⟨S_, .f32⟩
  | 73 => ⟨S16x1x514x514, .f32⟩
  | 74 => ⟨S16x1x512x512, .f32⟩
  | 75 => ⟨S_, .i32⟩
  | 76 => ⟨S_, .f32⟩
  | 77 => ⟨S16x1x514x514, .f32⟩
  | 78 => ⟨S16x1x512x512, .f32⟩
  | 79 => ⟨S_, .i32⟩
  | 80 => ⟨S_, .f32⟩
  | 81 => ⟨S16x1x514x514, .f32⟩
  | 82 => ⟨S16x1x512x512, .f32⟩
  | 83 => ⟨S_, .i32⟩
  | 84 => ⟨S_, .f32⟩
  | 85 => ⟨S16x1x514x514, .f32⟩
  | 86 => ⟨S16x1x512x512, .f32⟩
  | 87 => ⟨S_, .i32⟩
  | 88 => ⟨S_, .f32⟩
  | 89 => ⟨S16x1x514x514, .f32⟩
  | 90 => ⟨S16x1x512x512, .f32⟩
  | 91 => ⟨S_, .i32⟩
  | 92 => ⟨S_, .f32⟩
  | 93 => ⟨S16x1x514x514, .f32⟩
  | 94 => ⟨S16x1x512x512, .f32⟩
  | 95 => ⟨S_, .i32⟩
  | 96 => ⟨S_, .f32⟩
  | 97 => ⟨S16x1x514x514, .f32⟩
  | 98 => ⟨S16x1x512x512, .f32⟩
  | 99 => ⟨S16x1x1x512x512, .f32⟩
  | 100 => ⟨S16x1x1x512x512, .f32⟩
  | 101 => ⟨S16x1x1x512x512, .f32⟩
  | 102 => ⟨S16x1x1x512x512, .f32⟩
  | 103 => ⟨S16x1x1x512x512, .f32⟩
  | 104 => ⟨S16x1x1x512x512, .f32⟩
  | 105 => ⟨S16x1x1x512x512, .f32⟩
  | 106 => ⟨S16x1x1x512x512, .f32⟩
  | 107 => ⟨S16x8x1x512x512, .f32⟩
  | 108 => ⟨S16x8x1x512x512, .f32⟩
  | 109 => ⟨S16x8x1x512x512, .f32⟩
  | 110 => ⟨S_, .f32⟩
  | 111 => ⟨S16x1x512x512, .f32⟩
  | 112 => ⟨S_, .f32⟩
  | 113 => ⟨S16x512x512, .f32⟩
  | 114 => ⟨S16x512x512, .f32⟩
  | 115 => ⟨S16x1x512x512, .f32⟩
  | 116 => ⟨S16x1x512x512, .f32⟩
  | 117 => ⟨S16x1x512x512, .f32⟩
  | 118 => ⟨S_, .i32⟩
  | 119 => ⟨S_, .f32⟩
  | 120 => ⟨S16x1x514x514, .f32⟩
  | 121 => ⟨S16x1x512x512, .f32⟩
  | 122 => ⟨S_, .i32⟩
  | 123 => ⟨S_, .f32⟩
  | 124 => ⟨S16x1x514x514, .f32⟩
  | 125 => ⟨S16x1x512x512, .f32⟩
  | 126 => ⟨S_, .i32⟩
  | 127 => ⟨S_, .f32⟩
  | _ => ⟨S16x8x512x512, .f32⟩

abbrev hbmTy0_1 (i : Nat) : BufTy := match i % 128 with
  | 0 => ⟨S16x1x514x514, .f32⟩
  | 1 => ⟨S16x1x512x512, .f32⟩
  | 2 => ⟨S_, .i32⟩
  | 3 => ⟨S_, .f32⟩
  | 4 => ⟨S16x1x514x514, .f32⟩
  | 5 => ⟨S16x1x512x512, .f32⟩
  | 6 => ⟨S_, .i32⟩
  | 7 => ⟨S_, .f32⟩
  | 8 => ⟨S16x1x514x514, .f32⟩
  | 9 => ⟨S16x1x512x512, .f32⟩
  | 10 => ⟨S_, .i32⟩
  | 11 => ⟨S_, .f32⟩
  | 12 => ⟨S16x1x514x514, .f32⟩
  | 13 => ⟨S16x1x512x512, .f32⟩
  | 14 => ⟨S_, .i32⟩
  | 15 => ⟨S_, .f32⟩
  | 16 => ⟨S16x1x514x514, .f32⟩
  | 17 => ⟨S16x1x512x512, .f32⟩
  | 18 => ⟨S_, .i32⟩
  | 19 => ⟨S_, .f32⟩
  | 20 => ⟨S16x1x514x514, .f32⟩
  | 21 => ⟨S16x1x512x512, .f32⟩
  | 22 => ⟨S16x1x1x512x512, .f32⟩
  | 23 => ⟨S16x1x1x512x512, .f32⟩
  | 24 => ⟨S16x1x1x512x512, .f32⟩
  | 25 => ⟨S16x1x1x512x512, .f32⟩
  | 26 => ⟨S16x1x1x512x512, .f32⟩
  | 27 => ⟨S16x1x1x512x512, .f32⟩
  | 28 => ⟨S16x1x1x512x512, .f32⟩
  | 29 => ⟨S16x1x1x512x512, .f32⟩
  | 30 => ⟨S16x8x1x512x512, .f32⟩
  | 31 => ⟨S16x8x1x512x512, .f32⟩
  | 32 => ⟨S16x8x1x512x512, .f32⟩
  | 33 => ⟨S_, .f32⟩
  | 34 => ⟨S16x1x512x512, .f32⟩
  | 35 => ⟨S_, .f32⟩
  | 36 => ⟨S16x512x512, .f32⟩
  | 37 => ⟨S16x512x512, .f32⟩
  | 38 => ⟨S16x1x512x512, .f32⟩
  | 39 => ⟨S16x1x512x512, .f32⟩
  | 40 => ⟨S16x1x512x512, .f32⟩
  | 41 => ⟨S_, .i32⟩
  | 42 => ⟨S_, .f32⟩
  | 43 => ⟨S16x1x514x514, .f32⟩
  | 44 => ⟨S16x1x512x512, .f32⟩
  | 45 => ⟨S_, .i32⟩
  | 46 => ⟨S_, .f32⟩
  | 47 => ⟨S16x1x514x514, .f32⟩
  | 48 => ⟨S16x1x512x512, .f32⟩
  | 49 => ⟨S_, .i32⟩
  | 50 => ⟨S_, .f32⟩
  | 51 => ⟨S16x1x514x514, .f32⟩
  | 52 => ⟨S16x1x512x512, .f32⟩
  | 53 => ⟨S_, .i32⟩
  | 54 => ⟨S_, .f32⟩
  | 55 => ⟨S16x1x514x514, .f32⟩
  | 56 => ⟨S16x1x512x512, .f32⟩
  | 57 => ⟨S_, .i32⟩
  | 58 => ⟨S_, .f32⟩
  | 59 => ⟨S16x1x514x514, .f32⟩
  | 60 => ⟨S16x1x512x512, .f32⟩
  | 61 => ⟨S_, .i32⟩
  | 62 => ⟨S_, .f32⟩
  | 63 => ⟨S16x1x514x514, .f32⟩
  | 64 => ⟨S16x1x512x512, .f32⟩
  | 65 => ⟨S_, .i32⟩
  | 66 => ⟨S_, .f32⟩
  | 67 => ⟨S16x1x514x514, .f32⟩
  | 68 => ⟨S16x1x512x512, .f32⟩
  | 69 => ⟨S_, .i32⟩
  | 70 => ⟨S_, .f32⟩
  | 71 => ⟨S16x1x514x514, .f32⟩
  | 72 => ⟨S16x1x512x512, .f32⟩
  | 73 => ⟨S16x1x1x512x512, .f32⟩
  | 74 => ⟨S16x1x1x512x512, .f32⟩
  | 75 => ⟨S16x1x1x512x512, .f32⟩
  | 76 => ⟨S16x1x1x512x512, .f32⟩
  | 77 => ⟨S16x1x1x512x512, .f32⟩
  | 78 => ⟨S16x1x1x512x512, .f32⟩
  | 79 => ⟨S16x1x1x512x512, .f32⟩
  | 80 => ⟨S16x1x1x512x512, .f32⟩
  | 81 => ⟨S16x8x1x512x512, .f32⟩
  | 82 => ⟨S16x8x1x512x512, .f32⟩
  | 83 => ⟨S16x8x1x512x512, .f32⟩
  | 84 => ⟨S_, .f32⟩
  | 85 => ⟨S16x1x512x512, .f32⟩
  | 86 => ⟨S_, .f32⟩
  | 87 => ⟨S16x512x512, .f32⟩
  | 88 => ⟨S16x512x512, .f32⟩
  | 89 => ⟨S16x1x512x512, .f32⟩
  | 90 => ⟨S16x1x512x512, .f32⟩
  | 91 => ⟨S16x1x512x512, .f32⟩
  | 92 => ⟨S_, .i32⟩
  | 93 => ⟨S_, .f32⟩
  | 94 => ⟨S16x1x514x514, .f32⟩
  | 95 => ⟨S16x1x512x512, .f32⟩
  | 96 => ⟨S_, .i32⟩
  | 97 => ⟨S_, .f32⟩
  | 98 => ⟨S16x1x514x514, .f32⟩
  | 99 => ⟨S16x1x512x512, .f32⟩
  | 100 => ⟨S_, .i32⟩
  | 101 => ⟨S_, .f32⟩
  | 102 => ⟨S16x1x514x514, .f32⟩
  | 103 => ⟨S16x1x512x512, .f32⟩
  | 104 => ⟨S_, .i32⟩
  | 105 => ⟨S_, .f32⟩
  | 106 => ⟨S16x1x514x514, .f32⟩
  | 107 => ⟨S16x1x512x512, .f32⟩
  | 108 => ⟨S_, .i32⟩
  | 109 => ⟨S_, .f32⟩
  | 110 => ⟨S16x1x514x514, .f32⟩
  | 111 => ⟨S16x1x512x512, .f32⟩
  | 112 => ⟨S_, .i32⟩
  | 113 => ⟨S_, .f32⟩
  | 114 => ⟨S16x1x514x514, .f32⟩
  | 115 => ⟨S16x1x512x512, .f32⟩
  | 116 => ⟨S_, .i32⟩
  | 117 => ⟨S_, .f32⟩
  | 118 => ⟨S16x1x514x514, .f32⟩
  | 119 => ⟨S16x1x512x512, .f32⟩
  | 120 => ⟨S_, .i32⟩
  | 121 => ⟨S_, .f32⟩
  | 122 => ⟨S16x1x514x514, .f32⟩
  | 123 => ⟨S16x1x512x512, .f32⟩
  | 124 => ⟨S16x1x1x512x512, .f32⟩
  | 125 => ⟨S16x1x1x512x512, .f32⟩
  | 126 => ⟨S16x1x1x512x512, .f32⟩
  | 127 => ⟨S16x1x1x512x512, .f32⟩
  | _ => ⟨S16x8x512x512, .f32⟩

abbrev hbmTy0_2 (i : Nat) : BufTy := match i % 128 with
  | 0 => ⟨S16x1x1x512x512, .f32⟩
  | 1 => ⟨S16x1x1x512x512, .f32⟩
  | 2 => ⟨S16x1x1x512x512, .f32⟩
  | 3 => ⟨S16x1x1x512x512, .f32⟩
  | 4 => ⟨S16x8x1x512x512, .f32⟩
  | 5 => ⟨S16x8x1x512x512, .f32⟩
  | 6 => ⟨S16x8x1x512x512, .f32⟩
  | 7 => ⟨S_, .f32⟩
  | 8 => ⟨S16x1x512x512, .f32⟩
  | 9 => ⟨S_, .f32⟩
  | 10 => ⟨S16x512x512, .f32⟩
  | 11 => ⟨S16x512x512, .f32⟩
  | 12 => ⟨S16x1x512x512, .f32⟩
  | 13 => ⟨S16x1x512x512, .f32⟩
  | 14 => ⟨S16x1x512x512, .f32⟩
  | _ => ⟨S16x8x512x512, .f32⟩

abbrev hbmTy (i : Nat) : BufTy := match i / 128 with
  | 0 => hbmTy0_0 i
  | 1 => hbmTy0_1 i
  | 2 => hbmTy0_2 i
  | _ => ⟨S16x8x512x512, .f32⟩

abbrev bufTy : (tb : Table) → Fin (tcTables nBuf tb) → BufTy
  | .hbm, ⟨i, _⟩ => hbmTy i
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_call3_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_call4_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_call5_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_call6_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call7_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_c_8 : Ref sig .tc := ⟨.hbm, 67, rfl⟩
abbrev main_call8_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_call9_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_call10_v0 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_call11_v0 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_call12_v0 : Ref sig .tc := ⟨.hbm, 84, rfl⟩
abbrev main_v55 : Ref sig .tc := ⟨.hbm, 85, rfl⟩
abbrev main_v56 : Ref sig .tc := ⟨.hbm, 86, rfl⟩
abbrev main_c_13 : Ref sig .tc := ⟨.hbm, 87, rfl⟩
abbrev main_call13_v0 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_call14_v0 : Ref sig .tc := ⟨.hbm, 92, rfl⟩
abbrev main_v59 : Ref sig .tc := ⟨.hbm, 93, rfl⟩
abbrev main_v60 : Ref sig .tc := ⟨.hbm, 94, rfl⟩
abbrev main_c_15 : Ref sig .tc := ⟨.hbm, 95, rfl⟩
abbrev main_call15_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_cst_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_18 : Ref sig .tc := ⟨.hbm, 118, rfl⟩
abbrev main_call16_v0 : Ref sig .tc := ⟨.hbm, 119, rfl⟩
abbrev main_v80 : Ref sig .tc := ⟨.hbm, 120, rfl⟩
abbrev main_v81 : Ref sig .tc := ⟨.hbm, 121, rfl⟩
abbrev main_c_19 : Ref sig .tc := ⟨.hbm, 122, rfl⟩
abbrev main_call17_v0 : Ref sig .tc := ⟨.hbm, 123, rfl⟩
abbrev main_v82 : Ref sig .tc := ⟨.hbm, 124, rfl⟩
abbrev main_v83 : Ref sig .tc := ⟨.hbm, 125, rfl⟩
abbrev main_c_20 : Ref sig .tc := ⟨.hbm, 126, rfl⟩
abbrev main_call18_v0 : Ref sig .tc := ⟨.hbm, 127, rfl⟩
abbrev main_v84 : Ref sig .tc := ⟨.hbm, 128, rfl⟩
abbrev main_v85 : Ref sig .tc := ⟨.hbm, 129, rfl⟩
abbrev main_c_21 : Ref sig .tc := ⟨.hbm, 130, rfl⟩
abbrev main_call19_v0 : Ref sig .tc := ⟨.hbm, 131, rfl⟩
abbrev main_v86 : Ref sig .tc := ⟨.hbm, 132, rfl⟩
abbrev main_v87 : Ref sig .tc := ⟨.hbm, 133, rfl⟩
abbrev main_c_22 : Ref sig .tc := ⟨.hbm, 134, rfl⟩
abbrev main_call20_v0 : Ref sig .tc := ⟨.hbm, 135, rfl⟩
abbrev main_v88 : Ref sig .tc := ⟨.hbm, 136, rfl⟩
abbrev main_v89 : Ref sig .tc := ⟨.hbm, 137, rfl⟩
abbrev main_c_23 : Ref sig .tc := ⟨.hbm, 138, rfl⟩
abbrev main_call21_v0 : Ref sig .tc := ⟨.hbm, 139, rfl⟩
abbrev main_v90 : Ref sig .tc := ⟨.hbm, 140, rfl⟩
abbrev main_v91 : Ref sig .tc := ⟨.hbm, 141, rfl⟩
abbrev main_c_24 : Ref sig .tc := ⟨.hbm, 142, rfl⟩
abbrev main_call22_v0 : Ref sig .tc := ⟨.hbm, 143, rfl⟩
abbrev main_v92 : Ref sig .tc := ⟨.hbm, 144, rfl⟩
abbrev main_v93 : Ref sig .tc := ⟨.hbm, 145, rfl⟩
abbrev main_c_25 : Ref sig .tc := ⟨.hbm, 146, rfl⟩
abbrev main_call23_v0 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_26 : Ref sig .tc := ⟨.hbm, 161, rfl⟩
abbrev main_v107 : Ref sig .tc := ⟨.hbm, 162, rfl⟩
abbrev main_cst_27 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_28 : Ref sig .tc := ⟨.hbm, 169, rfl⟩
abbrev main_call24_v0 : Ref sig .tc := ⟨.hbm, 170, rfl⟩
abbrev main_v113 : Ref sig .tc := ⟨.hbm, 171, rfl⟩
abbrev main_v114 : Ref sig .tc := ⟨.hbm, 172, rfl⟩
abbrev main_c_29 : Ref sig .tc := ⟨.hbm, 173, rfl⟩
abbrev main_call25_v0 : Ref sig .tc := ⟨.hbm, 174, rfl⟩
abbrev main_v115 : Ref sig .tc := ⟨.hbm, 175, rfl⟩
abbrev main_v116 : Ref sig .tc := ⟨.hbm, 176, rfl⟩
abbrev main_c_30 : Ref sig .tc := ⟨.hbm, 177, rfl⟩
abbrev main_call26_v0 : Ref sig .tc := ⟨.hbm, 178, rfl⟩
abbrev main_v117 : Ref sig .tc := ⟨.hbm, 179, rfl⟩
abbrev main_v118 : Ref sig .tc := ⟨.hbm, 180, rfl⟩
abbrev main_c_31 : Ref sig .tc := ⟨.hbm, 181, rfl⟩
abbrev main_call27_v0 : Ref sig .tc := ⟨.hbm, 182, rfl⟩
abbrev main_v119 : Ref sig .tc := ⟨.hbm, 183, rfl⟩
abbrev main_v120 : Ref sig .tc := ⟨.hbm, 184, rfl⟩
abbrev main_c_32 : Ref sig .tc := ⟨.hbm, 185, rfl⟩
abbrev main_call28_v0 : Ref sig .tc := ⟨.hbm, 186, rfl⟩
abbrev main_v121 : Ref sig .tc := ⟨.hbm, 187, rfl⟩
abbrev main_v122 : Ref sig .tc := ⟨.hbm, 188, rfl⟩
abbrev main_c_33 : Ref sig .tc := ⟨.hbm, 189, rfl⟩
abbrev main_call29_v0 : Ref sig .tc := ⟨.hbm, 190, rfl⟩
abbrev main_v123 : Ref sig .tc := ⟨.hbm, 191, rfl⟩
abbrev main_v124 : Ref sig .tc := ⟨.hbm, 192, rfl⟩
abbrev main_c_34 : Ref sig .tc := ⟨.hbm, 193, rfl⟩
abbrev main_call30_v0 : Ref sig .tc := ⟨.hbm, 194, rfl⟩
abbrev main_v125 : Ref sig .tc := ⟨.hbm, 195, rfl⟩
abbrev main_v126 : Ref sig .tc := ⟨.hbm, 196, rfl⟩
abbrev main_c_35 : Ref sig .tc := ⟨.hbm, 197, rfl⟩
abbrev main_call31_v0 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_cst_36 : Ref sig .tc := ⟨.hbm, 212, rfl⟩
abbrev main_v140 : Ref sig .tc := ⟨.hbm, 213, rfl⟩
abbrev main_cst_37 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_c_38 : Ref sig .tc := ⟨.hbm, 220, rfl⟩
abbrev main_call32_v0 : Ref sig .tc := ⟨.hbm, 221, rfl⟩
abbrev main_v146 : Ref sig .tc := ⟨.hbm, 222, rfl⟩
abbrev main_v147 : Ref sig .tc := ⟨.hbm, 223, rfl⟩
abbrev main_c_39 : Ref sig .tc := ⟨.hbm, 224, rfl⟩
abbrev main_call33_v0 : Ref sig .tc := ⟨.hbm, 225, rfl⟩
abbrev main_v148 : Ref sig .tc := ⟨.hbm, 226, rfl⟩
abbrev main_v149 : Ref sig .tc := ⟨.hbm, 227, rfl⟩
abbrev main_c_40 : Ref sig .tc := ⟨.hbm, 228, rfl⟩
abbrev main_call34_v0 : Ref sig .tc := ⟨.hbm, 229, rfl⟩
abbrev main_v150 : Ref sig .tc := ⟨.hbm, 230, rfl⟩
abbrev main_v151 : Ref sig .tc := ⟨.hbm, 231, rfl⟩
abbrev main_c_41 : Ref sig .tc := ⟨.hbm, 232, rfl⟩
abbrev main_call35_v0 : Ref sig .tc := ⟨.hbm, 233, rfl⟩
abbrev main_v152 : Ref sig .tc := ⟨.hbm, 234, rfl⟩
abbrev main_v153 : Ref sig .tc := ⟨.hbm, 235, rfl⟩
abbrev main_c_42 : Ref sig .tc := ⟨.hbm, 236, rfl⟩
abbrev main_call36_v0 : Ref sig .tc := ⟨.hbm, 237, rfl⟩
abbrev main_v154 : Ref sig .tc := ⟨.hbm, 238, rfl⟩
abbrev main_v155 : Ref sig .tc := ⟨.hbm, 239, rfl⟩
abbrev main_c_43 : Ref sig .tc := ⟨.hbm, 240, rfl⟩
abbrev main_call37_v0 : Ref sig .tc := ⟨.hbm, 241, rfl⟩
abbrev main_v156 : Ref sig .tc := ⟨.hbm, 242, rfl⟩
abbrev main_v157 : Ref sig .tc := ⟨.hbm, 243, rfl⟩
abbrev main_c_44 : Ref sig .tc := ⟨.hbm, 244, rfl⟩
abbrev main_call38_v0 : Ref sig .tc := ⟨.hbm, 245, rfl⟩
abbrev main_v158 : Ref sig .tc := ⟨.hbm, 246, rfl⟩
abbrev main_v159 : Ref sig .tc := ⟨.hbm, 247, rfl⟩
abbrev main_c_45 : Ref sig .tc := ⟨.hbm, 248, rfl⟩
abbrev main_call39_v0 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_cst_46 : Ref sig .tc := ⟨.hbm, 263, rfl⟩
abbrev main_v173 : Ref sig .tc := ⟨.hbm, 264, rfl⟩
abbrev main_cst_47 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩

abbrev nD : Nat := 1
abbrev τ : Topo := Topo.v7x

variable {F : FTy → Type} [FloatOps F]

class Facts₀ : Prop where
  slices_S16x8x512x512_S16x1x512x512_0_0_0_0 : S16x8x512x512.Slices ![0, 0, 0, 0] S16x1x512x512
  shapeCasts_S16x1x512x512_S16x512x512 : S16x1x512x512.ShapeCasts S16x512x512
  pads_S16x512x512_S16x514x514_000_110_110 : S16x512x512.Pads (![0, 1, 1] : Fin 3 → Nat) ![0, 1, 1] ![0, 0, 0] S16x514x514
  h_S_ : 0 < S_.numel
  slices_S16x514x514_S16x512x512_0_2_2 : S16x514x514.Slices ![0, 2, 2] S16x512x512
  slices_S16x8x512x512_S16x1x512x512_0_1_0_0 : S16x8x512x512.Slices ![0, 1, 0, 0] S16x1x512x512
  slices_S16x514x514_S16x512x512_0_2_1 : S16x514x514.Slices ![0, 2, 1] S16x512x512
  slices_S16x8x512x512_S16x1x512x512_0_2_0_0 : S16x8x512x512.Slices ![0, 2, 0, 0] S16x1x512x512
  slices_S16x514x514_S16x512x512_0_2_0 : S16x514x514.Slices ![0, 2, 0] S16x512x512
  slices_S16x8x512x512_S16x1x512x512_0_3_0_0 : S16x8x512x512.Slices ![0, 3, 0, 0] S16x1x512x512
  slices_S16x514x514_S16x512x512_0_1_2 : S16x514x514.Slices ![0, 1, 2] S16x512x512
  slices_S16x8x512x512_S16x1x512x512_0_4_0_0 : S16x8x512x512.Slices ![0, 4, 0, 0] S16x1x512x512
  slices_S16x514x514_S16x512x512_0_1_0 : S16x514x514.Slices ![0, 1, 0] S16x512x512
  slices_S16x8x512x512_S16x1x512x512_0_5_0_0 : S16x8x512x512.Slices ![0, 5, 0, 0] S16x1x512x512
  slices_S16x514x514_S16x512x512_0_0_2 : S16x514x514.Slices ![0, 0, 2] S16x512x512
  slices_S16x8x512x512_S16x1x512x512_0_6_0_0 : S16x8x512x512.Slices ![0, 6, 0, 0] S16x1x512x512
  slices_S16x514x514_S16x512x512_0_0_1 : S16x514x514.Slices ![0, 0, 1] S16x512x512
  slices_S16x8x512x512_S16x1x512x512_0_7_0_0 : S16x8x512x512.Slices ![0, 7, 0, 0] S16x1x512x512
  slices_S16x514x514_S16x512x512_0_0_0 : S16x514x514.Slices ![0, 0, 0] S16x512x512
  bcast_S16x512x512_S16x1x512x512_0_2_3 : S16x512x512.BroadcastsInDim S16x1x512x512 (![0, 2, 3] : Fin 3 → Fin S16x1x512x512.rank)
  concatenates_S16x1x512x512_S16x1x512x512_S16x1x512x512_S16x1x512x512_S16x1x512x512_S16x1x512x512_S16x1x512x512_S16x1x512x512_S16x8x512x512_d1 : Shape.Concatenates [S16x1x512x512, S16x1x512x512, S16x1x512x512, S16x1x512x512, S16x1x512x512, S16x1x512x512, S16x1x512x512, S16x1x512x512] S16x8x512x512 1
  reducesTo_S16x8x512x512_S16x512x512_d1 : S16x8x512x512.ReducesTo [1] S16x512x512
  bcast_S16x1x512x512_S16x8x512x512_0_1_2_3 : S16x1x512x512.BroadcastsInDim S16x8x512x512 (![0, 1, 2, 3] : Fin 4 → Fin S16x8x512x512.rank)
  pads_S16x1x512x512_S16x1x514x514_000_000_110_110 : S16x1x512x512.Pads (![0, 0, 1, 1] : Fin 4 → Nat) ![0, 0, 1, 1] ![0, 0, 0, 0] S16x1x514x514
  slices_S16x1x514x514_S16x1x512x512_0_0_2_2 : S16x1x514x514.Slices ![0, 0, 2, 2] S16x1x512x512
  slices_S16x1x514x514_S16x1x512x512_0_0_2_1 : S16x1x514x514.Slices ![0, 0, 2, 1] S16x1x512x512
  slices_S16x1x514x514_S16x1x512x512_0_0_2_0 : S16x1x514x514.Slices ![0, 0, 2, 0] S16x1x512x512
  slices_S16x1x514x514_S16x1x512x512_0_0_1_2 : S16x1x514x514.Slices ![0, 0, 1, 2] S16x1x512x512
  slices_S16x1x514x514_S16x1x512x512_0_0_1_0 : S16x1x514x514.Slices ![0, 0, 1, 0] S16x1x512x512
  slices_S16x1x514x514_S16x1x512x512_0_0_0_2 : S16x1x514x514.Slices ![0, 0, 0, 2] S16x1x512x512
  slices_S16x1x514x514_S16x1x512x512_0_0_0_1 : S16x1x514x514.Slices ![0, 0, 0, 1] S16x1x512x512
  slices_S16x1x514x514_S16x1x512x512_0_0_0_0 : S16x1x514x514.Slices ![0, 0, 0, 0] S16x1x512x512
  bcast_S16x1x512x512_S16x1x1x512x512_0_2_3_4 : S16x1x512x512.BroadcastsInDim S16x1x1x512x512 (![0, 2, 3, 4] : Fin 4 → Fin S16x1x1x512x512.rank)
  concatenates_S16x1x1x512x512_S16x1x1x512x512_S16x1x1x512x512_S16x1x1x512x512_S16x1x1x512x512_S16x1x1x512x512_S16x1x1x512x512_S16x1x1x512x512_S16x8x1x512x512_d1 : Shape.Concatenates [S16x1x1x512x512, S16x1x1x512x512, S16x1x1x512x512, S16x1x1x512x512, S16x1x1x512x512, S16x1x1x512x512, S16x1x1x512x512, S16x1x1x512x512] S16x8x1x512x512 1
  bcast_S16x8x512x512_S16x8x1x512x512_0_1_3_4 : S16x8x512x512.BroadcastsInDim S16x8x1x512x512 (![0, 1, 3, 4] : Fin 4 → Fin S16x8x1x512x512.rank)
  reducesTo_S16x8x1x512x512_S16x1x512x512_d1 : S16x8x1x512x512.ReducesTo [1] S16x1x512x512
  bcast_S_S16x512x512 : S_.BroadcastsInDim S16x512x512 (![] : Fin 0 → Fin S16x512x512.rank)

variable [Facts₀]

class Facts : Prop extends Facts₀ where

variable [Facts]
-- ==== Proof.Stencil.lean ====
/-
  The mathematics of the 8-neighbour affinity propagation, on one 512 × 512 image of extended reals.

  Neighbour `k` of pixel `(i, j)` is `(i + oa k - 1, j + ob k - 1)` with `oa k, ob k ∈ {0, 1, 2}`; a neighbour outside the
  image contributes `0` (`zshift`). The gates are the shifted guidance planes divided by the sum of their absolute values
  (`aw`), and one propagation step is `(1 - Σ gates) · raw + Σ_k gate_k · (cur shifted to neighbour k)`; the result is four steps
  from `raw`.

  Two facts about a rotation of the image (indices wrapping around) against the zero-padded shift: masked by the border
  indicator the rotation IS the shift (`rot_mul_msk`), and a gate that already carries the border indicator as a factor may
  multiply the bare rotation instead of the shift (`gate_mul_rot`): at the border both products are `0`, as `0 · x = 0` for every
  extended real `x`. The division `g / a` is `g · (1 / a)` for every divisor `a ≠ 0` (`mul_one_div`).
-/
import Idealize.ShloMosaic.PureOps.Ideal

noncomputable section

namespace Cert.Stencil

open Idealize.ShloMosaic

abbrev Img := Fin 512 → Fin 512 → EReal

/-- Row (or column) offsets of the eight neighbours, as positions `0, 1, 2` of the 3-wide stencil (`1` the pixel's own). -/
def oa : Fin 8 → Nat := ![2, 2, 2, 1, 1, 0, 0, 0]
def ob : Fin 8 → Nat := ![2, 1, 0, 2, 0, 2, 1, 0]

/-- Coordinate `i + o - 1` lies in the image. -/
def Inside (o : Nat) (i : Fin 512) : Prop := 1 ≤ i.val + o ∧ i.val + o < 513

instance (o : Nat) (i : Fin 512) : Decidable (Inside o i) := by unfold Inside; infer_instance

/-- The zero-padded shift: the image at the neighbour, `0` outside. -/
def zshift (X : Img) (p q : Nat) : Img := fun i j =>
  if h : Inside p i ∧ Inside q j then X ⟨i.val + p - 1, by have := h.1.2; omega⟩ ⟨j.val + q - 1, by have := h.2.2; omega⟩ else 0

/-- The wrapped coordinate `(i + o - 1) mod 512`. -/
def wrap (o : Nat) (i : Fin 512) : Fin 512 := ⟨(i.val + 511 + o) % 512, Nat.mod_lt _ (by decide)⟩

/-- The border indicator of offset `o`. -/
def msk (o : Nat) (i : Fin 512) : EReal := if Inside o i then 1 else 0

theorem wrap_of_inside {o : Nat} (ho : o ≤ 2) {i : Fin 512} (h : Inside o i) :
    wrap o i = ⟨i.val + o - 1, by have := h.2; omega⟩ := by
  apply Fin.ext
  show (i.val + 511 + o) % 512 = i.val + o - 1
  have h1 := h.1; have h2 := h.2
  omega

theorem wrap_one (i : Fin 512) : wrap 1 i = i := by
  apply Fin.ext
  show (i.val + 511 + 1) % 512 = i.val
  have := i.isLt
  omega

theorem inside_one (i : Fin 512) : Inside 1 i := ⟨by omega, by have := i.isLt; omega⟩

theorem msk_one (i : Fin 512) : msk 1 i = 1 := if_pos (inside_one i)

/-- The rotation masked by the border indicators is the zero-padded shift. -/
theorem rot_mul_msk (X : Img) {p q : Nat} (hp : p ≤ 2) (hq : q ≤ 2) (i j : Fin 512) :
    X (wrap p i) (wrap q j) * (msk p i * msk q j) = zshift X p q i j := by
  unfold zshift msk
  by_cases h1 : Inside p i
  · by_cases h2 : Inside q j
    · rw [dif_pos ⟨h1, h2⟩, if_pos h1, if_pos h2, mul_one, mul_one, wrap_of_inside hp h1, wrap_of_inside hq h2]
    · rw [dif_neg (fun h => h2 h.2), if_neg h2, mul_zero, mul_zero]
  · rw [dif_neg (fun h => h1 h.1), if_neg h1, zero_mul, mul_zero]

theorem rot_mul_msk_row (X : Img) {p : Nat} (hp : p ≤ 2) (i j : Fin 512) :
    X (wrap p i) j * msk p i = zshift X p 1 i j := by
  have := rot_mul_msk X hp (by decide : 1 ≤ 2) i j
  rwa [wrap_one, msk_one, mul_one] at this

theorem rot_mul_msk_col (X : Img) {q : Nat} (hq : q ≤ 2) (i j : Fin 512) :
    X i (wrap q j) * msk q j = zshift X 1 q i j := by
  have := rot_mul_msk X (by decide : 1 ≤ 2) hq i j
  rwa [wrap_one, msk_one, one_mul] at this

/-- Outside the image the zero-padded shift is `0`; inside, it is the rotation. -/
theorem zshift_eq_ite (X : Img) {p q : Nat} (hp : p ≤ 2) (hq : q ≤ 2) (i j : Fin 512) :
    zshift X p q i j = if Inside p i ∧ Inside q j then X (wrap p i) (wrap q j) else 0 := by
  unfold zshift
  by_cases h : Inside p i ∧ Inside q j
  · rw [dif_pos h, if_pos h, wrap_of_inside hp h.1, wrap_of_inside hq h.2]
  · rw [dif_neg h, if_neg h]

/-- A gate built from a zero-padded shift — `zshift G p q · c` — times the bare rotation of `Y` is the same gate times the
    zero-padded shift of `Y`: where they differ the gate is `0`. -/
theorem gate_mul_rot (G Y : Img) (c : EReal) {p q : Nat} (hp : p ≤ 2) (hq : q ≤ 2) (i j : Fin 512) :
    zshift G p q i j * c * Y (wrap p i) (wrap q j) = zshift G p q i j * c * zshift Y p q i j := by
  rw [zshift_eq_ite G hp hq, zshift_eq_ite Y hp hq]
  by_cases h : Inside p i ∧ Inside q j
  · rw [if_pos h, if_pos h]
  · rw [if_neg h, if_neg h, zero_mul, zero_mul, zero_mul]

/-- Dividing by a nonzero `a` is multiplying by `1 / a`. -/
theorem mul_one_div (g a : EReal) (ha : a ≠ 0) : g * Ideal.div 1 a = Ideal.div g a := by
  unfold Ideal.div
  rw [if_neg ha, if_neg ha, one_mul]

/-- `|x|` on the extended reals. -/
def eabs (x : EReal) : EReal := max x (-x)

/-- Gate planes before normalisation: guidance plane `k` shifted to neighbour `k`. -/
def sh (G : Fin 8 → Img) (k : Fin 8) : Img := zshift (G k) (oa k) (ob k)

/-- The normaliser: the sum of the absolute values of the eight shifted planes. -/
def aw (G : Fin 8 → Img) : Img := fun i j => ∑ k : Fin 8, eabs (sh G k i j)

/-- The normalised gates. -/
def gw (G : Fin 8 → Img) (k : Fin 8) : Img := fun i j => Ideal.div (sh G k i j) (aw G i j)

/-- The sum of the gates. -/
def gs (G : Fin 8 → Img) : Img := fun i j => ∑ k : Fin 8, gw G k i j

/-- One propagation step; `one` is the program's constant 1.0, left as it is spelt. -/
def step (one : EReal) (G : Fin 8 → Img) (raw cur : Img) : Img := fun i j =>
  (one - gs G i j) * raw i j + ∑ k : Fin 8, gw G k i j * zshift cur (oa k) (ob k) i j

/-- Four steps from `raw`. -/
def result (one : EReal) (G : Fin 8 → Img) (raw : Img) : Img :=
  step one G raw (step one G raw (step one G raw (step one G raw raw)))

theorem oa_le (k : Fin 8) : oa k ≤ 2 := by revert k; decide
theorem ob_le (k : Fin 8) : ob k ≤ 2 := by revert k; decide

end Cert.Stencil

end
-- ==== Proof.PadShift.lean ====
/-
  The layout operations of the two programs read at an index, in the vocabulary of `Stencil`:
  the host's zero `pad` by one on the two image axes followed by a `slice` at offsets `(p, q)` is the zero-padded shift
  (rank 4, `[16, 1, 512, 512]`, and rank 3, `[16, 512, 512]`); the vector unit's rotation of a `[512, 512]` tile by
  511 (by 1) along an axis reads the wrapped coordinate `i + 1` (`i - 1`); and a comparison of an axis's iota with 511
  (with 0), widened and converted, is that axis's border indicator.
-/
import Idealize.ShloMosaic.Lib.KernelVsHost
import Idealize.ShloMosaic.Lib.ValueIdx
import Idealize.ShloMosaic.Lib.Pipeline.Value
import Idealize.ShloMosaic.Lib.WordArith
import Idealize.ShloMosaic.Lib.Affine
import proofs.«136062_j39565238731218_2_alg».proof.Proof.Stencil

noncomputable section

namespace Cert.PadShift

open Idealize.ShloMosaic Idealize.ShloMosaic.ValueIdx Cert.Stencil

abbrev I4 : Shape := ⟨4, ![16, 1, 512, 512]⟩
abbrev P4 : Shape := ⟨4, ![16, 1, 514, 514]⟩
abbrev I3 : Shape := ⟨3, ![16, 512, 512]⟩
abbrev P3 : Shape := ⟨3, ![16, 514, 514]⟩
abbrev T2 : Shape := ⟨2, ![512, 512]⟩

variable {α : Type}

/-- Rank 4: `slice[(0,0,p,q)] (pad by one)` at `(b, 0, i, j)` is the operand at the neighbour, the padding value outside. -/
theorem pad_slice4 (x : I4.Idx → α) {u : Shape} (v : u.Idx → α)
    (hp : I4.Pads (![0, 0, 1, 1] : Fin 4 → Nat) ![0, 0, 1, 1] ![0, 0, 0, 0] P4) (hu : 0 < u.numel)
    (p q : Nat) (hs : P4.Slices ![0, 0, p, q] I4) (b : Fin 16) (i j : Fin 512) :
    extractStridedSlice I4 ![0, 0, p, q] (pad P4 ![0, 0, 1, 1] ![0, 0, 1, 1] ![0, 0, 0, 0] x v hp hu) hs (ix4 b 0 i j)
      = if h : Inside p i ∧ Inside q j then
          x (ix4 b 0 ⟨i.val + p - 1, by have := h.1.2; omega⟩ ⟨j.val + q - 1, by have := h.2.2; omega⟩)
        else v (Shape.Idx.first hu) := by
  have hi := i.isLt
  have hj := j.isLt
  have hp2 : p + 512 ≤ 514 := hs.2 (2 : Fin 4)
  have hq2 : q + 512 ≤ 514 := hs.2 (3 : Fin 4)
  refine (extractStridedSlice_apply _ _ hs (ix4 b 0 i j)
    (ix4 b (0 : Fin 1) (⟨p + i.val, by omega⟩ : Fin 514) (⟨q + j.val, by omega⟩ : Fin 514)) (by
      intro a
      match a with
      | ⟨0, _⟩ => show b.val = 0 + b.val; omega
      | ⟨1, _⟩ => show (0 : Nat) = 0 + 0; rfl
      | ⟨2, _⟩ => rfl
      | ⟨3, _⟩ => rfl)).trans ?_
  by_cases h : Inside p i ∧ Inside q j
  · rw [dif_pos h]
    have h1 := h.1.1; have h2 := h.2.1
    exact pad_apply_of_inside _ _ _ x v hp hu _ _ (by
      intro a
      match a with
      | ⟨0, _⟩ => show b.val = 0 + b.val * (0 + 1); omega
      | ⟨1, _⟩ => show (0 : Nat) = 0 + 0 * (0 + 1); rfl
      | ⟨2, _⟩ => show p + i.val = 1 + (i.val + p - 1) * (0 + 1); omega
      | ⟨3, _⟩ => show q + j.val = 1 + (j.val + q - 1) * (0 + 1); omega)
  · rw [dif_neg h]
    by_cases h1 : Inside p i
    · have h2 : ¬ Inside q j := fun h2 => h ⟨h1, h2⟩
      exact pad_apply_of_not_inside _ _ _ x v hp hu _ (3 : Fin 4) (by
        intro hin
        have e1 : 1 ≤ q + j.val := hin.1
        have e2 : (q + j.val - 1) / (0 + 1) < 512 := hin.2.2
        rw [Nat.zero_add, Nat.div_one] at e2
        exact h2 ⟨by omega, by omega⟩)
    · exact pad_apply_of_not_inside _ _ _ x v hp hu _ (2 : Fin 4) (by
        intro hin
        have e1 : 1 ≤ p + i.val := hin.1
        have e2 : (p + i.val - 1) / (0 + 1) < 512 := hin.2.2
        rw [Nat.zero_add, Nat.div_one] at e2
        exact h1 ⟨by omega, by omega⟩)

/-- Rank 3: the same for `[16, 512, 512]` padded to `[16, 514, 514]`. -/
theorem pad_slice3 (x : I3.Idx → α) {u : Shape} (v : u.Idx → α)
    (hp : I3.Pads (![0, 1, 1] : Fin 3 → Nat) ![0, 1, 1] ![0, 0, 0] P3) (hu : 0 < u.numel)
    (p q : Nat) (hs : P3.Slices ![0, p, q] I3) (b : Fin 16) (i j : Fin 512) :
    extractStridedSlice I3 ![0, p, q] (pad P3 ![0, 1, 1] ![0, 1, 1] ![0, 0, 0] x v hp hu) hs (ix3 b i j)
      = if h : Inside p i ∧ Inside q j then
          x (ix3 b ⟨i.val + p - 1, by have := h.1.2; omega⟩ ⟨j.val + q - 1, by have := h.2.2; omega⟩)
        else v (Shape.Idx.first hu) := by
  have hi := i.isLt
  have hj := j.isLt
  have hp2 : p + 512 ≤ 514 := hs.2 (1 : Fin 3)
  have hq2 : q + 512 ≤ 514 := hs.2 (2 : Fin 3)
  refine (extractStridedSlice_apply _ _ hs (ix3 b i j)
    (ix3 b (⟨p + i.val, by omega⟩ : Fin 514) (⟨q + j.val, by omega⟩ : Fin 514)) (by
      intro a
      match a with
      | ⟨0, _⟩ => show b.val = 0 + b.val; omega
      | ⟨1, _⟩ => rfl
      | ⟨2, _⟩ => rfl)).trans ?_
  by_cases h : Inside p i ∧ Inside q j
  · rw [dif_pos h]
    have h1 := h.1.1; have h2 := h.2.1
    exact pad_apply_of_inside _ _ _ x v hp hu _ _ (by
      intro a
      match a with
      | ⟨0, _⟩ => show b.val = 0 + b.val * (0 + 1); omega
      | ⟨1, _⟩ => show p + i.val = 1 + (i.val + p - 1) * (0 + 1); omega
      | ⟨2, _⟩ => show q + j.val = 1 + (j.val + q - 1) * (0 + 1); omega)
  · rw [dif_neg h]
    by_cases h1 : Inside p i
    · have h2 : ¬ Inside q j := fun h2 => h ⟨h1, h2⟩
      exact pad_apply_of_not_inside _ _ _ x v hp hu _ (2 : Fin 3) (by
        intro hin
        have e1 : 1 ≤ q + j.val := hin.1
        have e2 : (q + j.val - 1) / (0 + 1) < 512 := hin.2.2
        rw [Nat.zero_add, Nat.div_one] at e2
        exact h2 ⟨by omega, by omega⟩)
    · exact pad_apply_of_not_inside _ _ _ x v hp hu _ (1 : Fin 3) (by
        intro hin
        have e1 : 1 ≤ p + i.val := hin.1
        have e2 : (p + i.val - 1) / (0 + 1) < 512 := hin.2.2
        rw [Nat.zero_add, Nat.div_one] at e2
        exact h1 ⟨by omega, by omega⟩)

/-- With zero for the padding value the rank-4 pad-and-slice is the zero-padded shift of image `b`. -/
theorem pad_slice4_zshift (x : I4.Idx → EReal) {u : Shape} (v : u.Idx → EReal)
    (hp : I4.Pads (![0, 0, 1, 1] : Fin 4 → Nat) ![0, 0, 1, 1] ![0, 0, 0, 0] P4) (hu : 0 < u.numel)
    (hv : v (Shape.Idx.first hu) = 0)
    (p q : Nat) (hs : P4.Slices ![0, 0, p, q] I4) (b : Fin 16) (i j : Fin 512) :
    extractStridedSlice I4 ![0, 0, p, q] (pad P4 ![0, 0, 1, 1] ![0, 0, 1, 1] ![0, 0, 0, 0] x v hp hu) hs (ix4 b 0 i j)
      = zshift (fun i j => x (ix4 b 0 i j)) p q i j := by
  rw [pad_slice4]
  unfold zshift
  by_cases h : Inside p i ∧ Inside q j
  · rw [dif_pos h, dif_pos h]
  · rw [dif_neg h, dif_neg h, hv]

/-- The same at rank 3. -/
theorem pad_slice3_zshift (x : I3.Idx → EReal) {u : Shape} (v : u.Idx → EReal)
    (hp : I3.Pads (![0, 1, 1] : Fin 3 → Nat) ![0, 1, 1] ![0, 0, 0] P3) (hu : 0 < u.numel)
    (hv : v (Shape.Idx.first hu) = 0)
    (p q : Nat) (hs : P3.Slices ![0, p, q] I3) (b : Fin 16) (i j : Fin 512) :
    extractStridedSlice I3 ![0, p, q] (pad P3 ![0, 1, 1] ![0, 1, 1] ![0, 0, 0] x v hp hu) hs (ix3 b i j)
      = zshift (fun i j => x (ix3 b i j)) p q i j := by
  rw [pad_slice3]
  unfold zshift
  by_cases h : Inside p i ∧ Inside q j
  · rw [dif_pos h, dif_pos h]
  · rw [dif_neg h, dif_neg h, hv]

/-- A rotation of the tile along the rows by `s` reads row `(i + 512 - s) mod 512`: `wrap o i` when `s + o = 513 ∨ s + o = 1`. -/
theorem rot0_apply (sb : BitVec 32) (o : Nat) (hso : (512 - sb.toNat % 512) % 512 = (511 + o) % 512)
    (x : T2.Idx → α) (h : T2.Rotates 0 none) (i j : Fin 512) :
    dynamicRotate 0 sb none x h (ix2 i j) = x (ix2 (wrap o i) j) := by
  have hi := i.isLt
  refine dynamicRotate_apply (0 : Fin 2) sb x h (ix2 i j) (ix2 (wrap o i) j) (by
    intro b
    match b with
    | ⟨0, _⟩ =>
      show (i.val + 511 + o) % 512 = (i.val + 512 - sb.toNat % 512) % 512
      have := Nat.mod_lt sb.toNat (by decide : 0 < 512)
      omega
    | ⟨1, _⟩ => rfl)

/-- A rotation of the tile along the columns. -/
theorem rot1_apply (sb : BitVec 32) (o : Nat) (hso : (512 - sb.toNat % 512) % 512 = (511 + o) % 512)
    (x : T2.Idx → α) (h : T2.Rotates 1 none) (i j : Fin 512) :
    dynamicRotate 1 sb none x h (ix2 i j) = x (ix2 i (wrap o j)) := by
  have hj := j.isLt
  refine dynamicRotate_apply (1 : Fin 2) sb x h (ix2 i j) (ix2 i (wrap o j)) (by
    intro b
    match b with
    | ⟨0, _⟩ => rfl
    | ⟨1, _⟩ =>
      show (j.val + 511 + o) % 512 = (j.val + 512 - sb.toNat % 512) % 512
      have := Nat.mod_lt sb.toNat (by decide : 0 < 512)
      omega)

/-- A condition bit widened to a word and converted: `1` or `0`. -/
theorem sitofp_bit (c : BitVec 1) (P : Prop) [Decidable P] (hc : c = 1#1 ↔ P) :
    (((c.setWidth 32).toInt : ℝ) : EReal) = if P then 1 else 0 := by
  rw [toInt_setWidth_bit]
  by_cases hP : P
  · rw [if_pos hP, hc.2 hP]; norm_num
  · rw [if_neg hP, eq_zero_of_ne_one (fun h => hP (hc.1 h))]; norm_num

/-- `iota < 511` along an axis, widened and converted, is the border indicator of the neighbour one step ahead;
    `iota > 0` that of the neighbour one step behind. -/
theorem mask_word_slt (n : Nat) (hn : n < 512) :
    ((((IntOp.cmpi .slt (BitVec.ofNat 32 n) 511#32).setWidth 32).toInt : ℝ) : EReal) = if (1 ≤ n + 2 ∧ n + 2 < 513) then 1 else 0 := by
  refine sitofp_bit _ _ ?_
  rw [IntOp.cmpi_slt, WordArith.toInt_ofNat_small n (by omega)]
  show (n : ℤ) < (511#32 : BitVec 32).toInt ↔ _
  have e : (511#32 : BitVec 32).toInt = 511 := by decide
  rw [e]
  omega

theorem mask_word_sgt (n : Nat) (hn : n < 512) :
    ((((IntOp.cmpi .sgt (BitVec.ofNat 32 n) 0#32).setWidth 32).toInt : ℝ) : EReal) = if (1 ≤ n + 0 ∧ n + 0 < 513) then 1 else 0 := by
  refine sitofp_bit _ _ ?_
  rw [IntOp.cmpi_sgt, WordArith.toInt_ofNat_small n (by omega)]
  have e : (0#32 : BitVec 32).toInt = 0 := by decide
  rw [e]
  omega

theorem mask_slt0 (hio : T2.Iotas .tc 32 [0]) (hw : 1 < 32) (i j : Fin 512) :
    (sitofp .f32 (extui 32 (cmpi .slt (iota .tc T2 32 [0] hio) (broadcast T2 511#32)) hw) : FVec Ideal T2 .f32) (ix2 i j)
      = msk 2 i := by
  show ((((IntOp.cmpi .slt (iota .tc T2 32 [0] hio (ix2 i j)) 511#32).setWidth 32).toInt : ℝ) : EReal) = _
  rw [iota_single_apply]
  exact mask_word_slt i.val i.isLt

theorem mask_slt1 (hio : T2.Iotas .tc 32 [1]) (hw : 1 < 32) (i j : Fin 512) :
    (sitofp .f32 (extui 32 (cmpi .slt (iota .tc T2 32 [1] hio) (broadcast T2 511#32)) hw) : FVec Ideal T2 .f32) (ix2 i j)
      = msk 2 j := by
  show ((((IntOp.cmpi .slt (iota .tc T2 32 [1] hio (ix2 i j)) 511#32).setWidth 32).toInt : ℝ) : EReal) = _
  rw [iota_single_apply]
  exact mask_word_slt j.val j.isLt

theorem mask_sgt0 (hio : T2.Iotas .tc 32 [0]) (hw : 1 < 32) (i j : Fin 512) :
    (sitofp .f32 (extui 32 (cmpi .sgt (iota .tc T2 32 [0] hio) (broadcast T2 0#32)) hw) : FVec Ideal T2 .f32) (ix2 i j)
      = msk 0 i := by
  show ((((IntOp.cmpi .sgt (iota .tc T2 32 [0] hio (ix2 i j)) 0#32).setWidth 32).toInt : ℝ) : EReal) = _
  rw [iota_single_apply]
  exact mask_word_sgt i.val i.isLt

theorem mask_sgt1 (hio : T2.Iotas .tc 32 [1]) (hw : 1 < 32) (i j : Fin 512) :
    (sitofp .f32 (extui 32 (cmpi .sgt (iota .tc T2 32 [1] hio) (broadcast T2 0#32)) hw) : FVec Ideal T2 .f32) (ix2 i j)
      = msk 0 j := by
  show ((((IntOp.cmpi .sgt (iota .tc T2 32 [1] hio (ix2 i j)) 0#32).setWidth 32).toInt : ℝ) : EReal) = _
  rw [iota_single_apply]
  exact mask_word_sgt j.val j.isLt

end Cert.PadShift

end
-- ==== Proof.KLayout.lean ====
/-
  The kernel's views of one image read at an index: a `[512, 512]` tile seen as `[1, 512, 512]` or `[1, 1, 512, 512]` (and back)
  has entry `(i, j)` at `(0, i, j)` / `(0, 0, i, j)`; plane `k` loaded from the staged `[1, 8, 512, 512]` block reads `(0, k, i, j)`.
-/
import Idealize.ShloMosaic.Lib.ValueIdx
import Idealize.ShloMosaic.Lib.Pipeline.Value
import Idealize.ShloMosaic.Lib.Pipeline.FrameBody

noncomputable section

namespace Cert.KLayout

open Idealize.ShloMosaic Idealize.ShloMosaic.ValueIdx

abbrev T2 : Shape := ⟨2, ![512, 512]⟩
abbrev K3 : Shape := ⟨3, ![1, 512, 512]⟩
abbrev K4 : Shape := ⟨4, ![1, 1, 512, 512]⟩
abbrev G4 : Shape := ⟨4, ![1, 8, 512, 512]⟩

variable {α : Type}

theorem cast_3to2 (v : K3.Idx → α) (h : K3.ShapeCasts T2) (i j : Fin 512) :
    shapeCast T2 v h (ix2 i j) = v (ix3 0 i j) :=
  shapeCast_apply v h (ix2 i j) (ix3 0 i j) (by
    rw [Shape.rowMajor_val_three, Shape.rowMajor_val_two]
    show ((0 : Nat) * 512 + i.val) * 512 + j.val = i.val * 512 + j.val
    omega)

theorem cast_2to3 (v : T2.Idx → α) (h : T2.ShapeCasts K3) (i j : Fin 512) :
    shapeCast K3 v h (ix3 0 i j) = v (ix2 i j) :=
  shapeCast_apply v h (ix3 0 i j) (ix2 i j) (by
    rw [Shape.rowMajor_val_three, Shape.rowMajor_val_two]
    show i.val * 512 + j.val = ((0 : Nat) * 512 + i.val) * 512 + j.val
    omega)

theorem cast_4to2 (v : K4.Idx → α) (h : K4.ShapeCasts T2) (i j : Fin 512) :
    shapeCast T2 v h (ix2 i j) = v (ix4 0 0 i j) :=
  shapeCast_apply v h (ix2 i j) (ix4 0 0 i j) (by
    rw [Shape.rowMajor_val_four, Shape.rowMajor_val_two]
    show (((0 : Nat) * 1 + 0) * 512 + i.val) * 512 + j.val = i.val * 512 + j.val
    omega)

theorem cast_2to4 (v : T2.Idx → α) (h : T2.ShapeCasts K4) (i j : Fin 512) :
    shapeCast K4 v h (ix4 0 0 i j) = v (ix2 i j) :=
  shapeCast_apply v h (ix4 0 0 i j) (ix2 i j) (by
    rw [Shape.rowMajor_val_four, Shape.rowMajor_val_two]
    show i.val * 512 + j.val = (((0 : Nat) * 1 + 0) * 512 + i.val) * 512 + j.val
    omega)

/-- Plane `k` of the staged guidance block, loaded as `[1, 1, 512, 512]`. -/
theorem ld_plane {Val : EltTy → Type} {e : EltTy} (X : G4.Idx → Val e) (k : Nat) (hk : k < 8)
    (inb : ∀ a, (![0, k, 0, 0] : Fin 4 → Nat) a + K4.size a ≤ G4.size a) (i j : Fin 512) :
    View.ld X (Rect.unit ![0, k, 0, 0] K4.size inb) (ix4 0 0 i j) = X (ix4 0 ⟨k, hk⟩ i j) := by
  show X _ = X _
  refine congrArg X (funext fun a => Fin.ext ?_)
  match a with
  | ⟨0, _⟩ => rfl
  | ⟨1, _⟩ => show k + 1 * 0 = k; omega
  | ⟨2, _⟩ => show 0 + 1 * i.val = i.val; omega
  | ⟨3, _⟩ => show 0 + 1 * j.val = j.val; omega

end Cert.KLayout

end
-- ==== Proof.KStencil.lean ====
/-
  The kernel's spelling of the propagation, pixel by pixel, against `Stencil`'s.

  The kernel multiplies each shifted guidance plane by ONE reciprocal `1 / a` of the normaliser `a` instead of dividing by it,
  adds its eight terms one after the other from `0`, and in the propagation multiplies each gate by the ROTATED current
  image, not by the zero-padded shift. Where the normaliser is nonzero and the constant `one` is `1` these are the gates, their sum
  and the step of `Stencil`: `g · (1 / a) = g / a`; a sum of eight terms in order is the sum over `Fin 8`; and a gate that is a
  zero-padded shift times a factor annihilates what the rotation wraps around (`gate_mul_rot`).
-/
import proofs.«136062_j39565238731218_2_alg».proof.Proof.Stencil

noncomputable section

namespace Cert.Stencil

open Idealize.ShloMosaic

/-- Eight terms added in order from `0`. -/
theorem sum8_from_zero (f : Fin 8 → EReal) :
    0 + f 0 + f 1 + f 2 + f 3 + f 4 + f 5 + f 6 + f 7 = ∑ k : Fin 8, f k := by
  rw [Fin.sum_univ_eight, zero_add]

/-- Eight terms added in order. -/
theorem sum8 (f : Fin 8 → EReal) :
    f 0 + f 1 + f 2 + f 3 + f 4 + f 5 + f 6 + f 7 = ∑ k : Fin 8, f k := by
  rw [Fin.sum_univ_eight]

/-- The kernel's gate: the shifted plane times the reciprocal of the normaliser. -/
def gwK (one : EReal) (G : Fin 8 → Img) (k : Fin 8) : Img := fun i j => sh G k i j * Ideal.div one (aw G i j)

theorem gwK_eq {one : EReal} (h1 : one = 1) (G : Fin 8 → Img) (k : Fin 8) (i j : Fin 512) (ha : aw G i j ≠ 0) :
    gwK one G k i j = gw G k i j := by
  subst h1
  exact mul_one_div _ _ ha

/-- A kernel gate times the rotated image is the gate times the zero-padded shift. -/
theorem gwK_mul_rot {one : EReal} (h1 : one = 1) (G : Fin 8 → Img) (Y : Img) (k : Fin 8) (i j : Fin 512) (ha : aw G i j ≠ 0) :
    gwK one G k i j * Y (wrap (oa k) i) (wrap (ob k) j) = gw G k i j * zshift Y (oa k) (ob k) i j := by
  rw [← gwK_eq h1 G k i j ha]
  exact gate_mul_rot (G k) Y _ (oa_le k) (ob_le k) i j

/-- The kernel's step at a pixel: its eight products in order, rotations for shifts. -/
def kstep (one : EReal) (G : Fin 8 → Img) (raw cur : Img) : Img := fun i j =>
  (one - gs G i j) * raw i j +
    (gwK one G 0 i j * cur (wrap 2 i) (wrap 2 j) + gwK one G 1 i j * cur (wrap 2 i) j
      + gwK one G 2 i j * cur (wrap 2 i) (wrap 0 j) + gwK one G 3 i j * cur i (wrap 2 j)
      + gwK one G 4 i j * cur i (wrap 0 j) + gwK one G 5 i j * cur (wrap 0 i) (wrap 2 j)
      + gwK one G 6 i j * cur (wrap 0 i) j + gwK one G 7 i j * cur (wrap 0 i) (wrap 0 j))

theorem kstep_eq {one : EReal} (h1 : one = 1) (G : Fin 8 → Img) (raw cur : Img) (ha : ∀ i j, aw G i j ≠ 0) :
    kstep one G raw cur = step one G raw cur := by
  funext i j
  have e0 : gwK one G 0 i j * cur (wrap 2 i) (wrap 2 j) = gw G 0 i j * zshift cur 2 2 i j := by
    have h : gwK one G 0 i j * cur (wrap 2 i) (wrap 2 j) = gw G 0 i j * zshift cur 2 2 i j :=
      gwK_mul_rot h1 G cur 0 i j (ha i j)
    exact h
  have e1 : gwK one G 1 i j * cur (wrap 2 i) j = gw G 1 i j * zshift cur 2 1 i j := by
    have h : gwK one G 1 i j * cur (wrap 2 i) (wrap 1 j) = gw G 1 i j * zshift cur 2 1 i j :=
      gwK_mul_rot h1 G cur 1 i j (ha i j)
    rwa [wrap_one] at h
  have e2 : gwK one G 2 i j * cur (wrap 2 i) (wrap 0 j) = gw G 2 i j * zshift cur 2 0 i j := by
    have h : gwK one G 2 i j * cur (wrap 2 i) (wrap 0 j) = gw G 2 i j * zshift cur 2 0 i j :=
      gwK_mul_rot h1 G cur 2 i j (ha i j)
    exact h
  have e3 : gwK one G 3 i j * cur i (wrap 2 j) = gw G 3 i j * zshift cur 1 2 i j := by
    have h : gwK one G 3 i j * cur (wrap 1 i) (wrap 2 j) = gw G 3 i j * zshift cur 1 2 i j :=
      gwK_mul_rot h1 G cur 3 i j (ha i j)
    rwa [wrap_one] at h
  have e4 : gwK one G 4 i j * cur i (wrap 0 j) = gw G 4 i j * zshift cur 1 0 i j := by
    have h : gwK one G 4 i j * cur (wrap 1 i) (wrap 0 j) = gw G 4 i j * zshift cur 1 0 i j :=
      gwK_mul_rot h1 G cur 4 i j (ha i j)
    rwa [wrap_one] at h
  have e5 : gwK one G 5 i j * cur (wrap 0 i) (wrap 2 j) = gw G 5 i j * zshift cur 0 2 i j := by
    have h : gwK one G 5 i j * cur (wrap 0 i) (wrap 2 j) = gw G 5 i j * zshift cur 0 2 i j :=
      gwK_mul_rot h1 G cur 5 i j (ha i j)
    exact h
  have e6 : gwK one G 6 i j * cur (wrap 0 i) j = gw G 6 i j * zshift cur 0 1 i j := by
    have h : gwK one G 6 i j * cur (wrap 0 i) (wrap 1 j) = gw G 6 i j * zshift cur 0 1 i j :=
      gwK_mul_rot h1 G cur 6 i j (ha i j)
    rwa [wrap_one] at h
  have e7 : gwK one G 7 i j * cur (wrap 0 i) (wrap 0 j) = gw G 7 i j * zshift cur 0 0 i j := by
    have h : gwK one G 7 i j * cur (wrap 0 i) (wrap 0 j) = gw G 7 i j * zshift cur 0 0 i j :=
      gwK_mul_rot h1 G cur 7 i j (ha i j)
    exact h
  show _ + _ = _ + ∑ k : Fin 8, gw G k i j * zshift cur (oa k) (ob k) i j
  rw [Fin.sum_univ_eight]
  show _ = _ + (gw G 0 i j * zshift cur 2 2 i j + gw G 1 i j * zshift cur 2 1 i j + gw G 2 i j * zshift cur 2 0 i j
    + gw G 3 i j * zshift cur 1 2 i j + gw G 4 i j * zshift cur 1 0 i j + gw G 5 i j * zshift cur 0 2 i j
    + gw G 6 i j * zshift cur 0 1 i j + gw G 7 i j * zshift cur 0 0 i j)
  rw [e0, e1, e2, e3, e4, e5, e6, e7]

/-- The kernel's four steps. -/
def kresult (one : EReal) (G : Fin 8 → Img) (raw : Img) : Img :=
  kstep one G raw (kstep one G raw (kstep one G raw (kstep one G raw raw)))

theorem kresult_eq {one : EReal} (h1 : one = 1) (G : Fin 8 → Img) (raw : Img) (ha : ∀ i j, aw G i j ≠ 0) :
    kresult one G raw = result one G raw := by
  unfold kresult result
  rw [kstep_eq h1 G raw _ ha, kstep_eq h1 G raw _ ha, kstep_eq h1 G raw _ ha, kstep_eq h1 G raw _ ha]

end Cert.Stencil

end
-- ==== Proof.KVec.lean ====
/-
  The kernel's vector operations on `[512, 512]` tiles of extended reals, read at a pixel: the rotations by 511 and by 1 along an
  axis read the wrapped neighbour; a guidance plane rotated and multiplied by the border indicators is the zero-padded
  shift (`gdiag`, `grow`, `gcol`).
-/
import Idealize.ShloMosaic.Lib.IdealHost
import proofs.«136062_j39565238731218_2_alg».proof.Proof.PadShift
import proofs.«136062_j39565238731218_2_alg».proof.Proof.KLayout
import proofs.«136062_j39565238731218_2_alg».proof.Proof.KStencil

noncomputable section

namespace Cert.KVec

open Idealize.ShloMosaic Idealize.ShloMosaic.ValueIdx Cert.Stencil Cert.PadShift Cert.KLayout

abbrev T2v := FVec Ideal (⟨2, ![512, 512]⟩ : Shape) .f32
abbrev K3v := FVec Ideal (⟨3, ![1, 512, 512]⟩ : Shape) .f32
abbrev K4v := FVec Ideal (⟨4, ![1, 1, 512, 512]⟩ : Shape) .f32

theorem rot0_511 (x : T2v) (h : KLayout.T2.Rotates 0 none) (i j : Fin 512) :
    dynamicRotate 0 511#32 none x h (ix2 i j) = x (ix2 (wrap 2 i) j) :=
  rot0_apply 511#32 2 (by decide) x h i j

theorem rot0_1 (x : T2v) (h : KLayout.T2.Rotates 0 none) (i j : Fin 512) :
    dynamicRotate 0 1#32 none x h (ix2 i j) = x (ix2 (wrap 0 i) j) :=
  rot0_apply 1#32 0 (by decide) x h i j

theorem rot1_511 (x : T2v) (h : KLayout.T2.Rotates 1 none) (i j : Fin 512) :
    dynamicRotate 1 511#32 none x h (ix2 i j) = x (ix2 i (wrap 2 j)) :=
  rot1_apply 511#32 2 (by decide) x h i j

theorem rot1_1 (x : T2v) (h : KLayout.T2.Rotates 1 none) (i j : Fin 512) :
    dynamicRotate 1 1#32 none x h (ix2 i j) = x (ix2 i (wrap 0 j)) :=
  rot1_apply 1#32 0 (by decide) x h i j

theorem absf_ix (a : T2v) (y : KLayout.T2.Idx) : absf a y = eabs (a y) := rfl

theorem zero_lit : (Scalar.ofBits (F := Ideal) .f32 0x00000000#32 : EReal) = 0 := Ideal.ofBits_zero_f32

/-- A plane rotated along both axes and multiplied by the product of the two border indicators. -/
theorem gdiag (X : Img) (v : K4v) (hv : ∀ i j, v (ix4 0 0 i j) = X i j) (hc : KLayout.K4.ShapeCasts KLayout.T2)
    (s0 s1 : BitVec 32) (p q : Nat) (hp : p ≤ 2) (hq : q ≤ 2)
    (hs0 : (512 - s0.toNat % 512) % 512 = (511 + p) % 512) (hs1 : (512 - s1.toNat % 512) % 512 = (511 + q) % 512)
    (hr0 : KLayout.T2.Rotates 0 none) (hr1 : KLayout.T2.Rotates 1 none)
    (m0 m1 : T2v) (hm0 : ∀ i j, m0 (ix2 i j) = msk p i) (hm1 : ∀ i j, m1 (ix2 i j) = msk q j) (i j : Fin 512) :
    mulf (dynamicRotate 1 s1 none (dynamicRotate 0 s0 none (shapeCast KLayout.T2 v hc) hr0) hr1) (mulf m0 m1) (ix2 i j)
      = zshift X p q i j := by
  rw [mulf_apply, mulf_apply, rot1_apply s1 q hs1, rot0_apply s0 p hs0, cast_4to2, hv, hm0, hm1]
  exact rot_mul_msk X hp hq i j

/-- A plane rotated along the rows and multiplied by the row indicator. -/
theorem grow (X : Img) (v : K4v) (hv : ∀ i j, v (ix4 0 0 i j) = X i j) (hc : KLayout.K4.ShapeCasts KLayout.T2)
    (s0 : BitVec 32) (p : Nat) (hp : p ≤ 2) (hs0 : (512 - s0.toNat % 512) % 512 = (511 + p) % 512)
    (hr0 : KLayout.T2.Rotates 0 none) (m0 : T2v) (hm0 : ∀ i j, m0 (ix2 i j) = msk p i) (i j : Fin 512) :
    mulf (dynamicRotate 0 s0 none (shapeCast KLayout.T2 v hc) hr0) m0 (ix2 i j) = zshift X p 1 i j := by
  rw [mulf_apply, rot0_apply s0 p hs0, cast_4to2, hv, hm0]
  exact rot_mul_msk_row X hp i j

/-- A plane rotated along the columns and multiplied by the column indicator. -/
theorem gcol (X : Img) (v : K4v) (hv : ∀ i j, v (ix4 0 0 i j) = X i j) (hc : KLayout.K4.ShapeCasts KLayout.T2)
    (s1 : BitVec 32) (q : Nat) (hq : q ≤ 2) (hs1 : (512 - s1.toNat % 512) % 512 = (511 + q) % 512)
    (hr1 : KLayout.T2.Rotates 1 none) (m1 : T2v) (hm1 : ∀ i j, m1 (ix2 i j) = msk q j) (i j : Fin 512) :
    mulf (dynamicRotate 1 s1 none (shapeCast KLayout.T2 v hc) hr1) m1 (ix2 i j) = zshift X 1 q i j := by
  rw [mulf_apply, rot1_apply s1 q hs1, cast_4to2, hv, hm1]
  exact rot_mul_msk_col X hq i j

end Cert.KVec

end
-- ==== Proof.KWords.lean ====
/-
  The kernel body's values read at a pixel of the staged block: the border indicators, the eight shifted guidance planes (pass 1),
  what the scratch holds when it is read back, the normaliser and its reciprocal, the gates (pass 2) and their sum — each as
  `Stencil`'s quantity of the staged guidance planes `Gx`.
-/
import proofs.«136062_j39565238731218_2_alg».proof.Proof.Gen.KernelIdeal.Frame
import proofs.«136062_j39565238731218_2_alg».proof.Proof.KVec

set_option maxRecDepth 16384

noncomputable section

namespace Cert.KernelIdeal.KWords

open Idealize.ShloMosaic Idealize.ShloMosaic.ValueIdx Idealize.ShloMosaic.TcCoe Idealize.ShloMosaic.Tactic
open Cert.KernelIdeal Cert.KernelIdeal.Gen Cert.Stencil Cert.PadShift Cert.KLayout Cert.KVec

variable (x0 : Vec Ideal S1x8x512x512 .f32) (x1 : Vec Ideal S1x1x512x512 .f32)

/-! ## The images the block holds -/

/-- The guidance planes of the staged block, and the staged input image. -/
def Gx : Fin 8 → Img := fun k i j => x0 (ix4 0 k i j)
def Rx : Img := fun i j => x1 (ix4 0 0 i j)

/-- The kernel's constant 1.0. -/
abbrev oneL : EReal := Ideal.ofBits .f32 0x3F800000#32

theorem oneL_eq : oneL = 1 := Ideal.ofBits_one_f32

theorem hz4 : (![0, 0, 0, 0] : Fin 4 → Nat) = fun _ => 0 := funext fun a => by fin_cases a <;> rfl

/-! ## The border indicators -/

theorem m2 (i j : Fin 512) : k0_pay2 (F := Ideal) (ix2 i j) = msk 2 i := mask_slt0 _ _ i j
theorem m3 (i j : Fin 512) : k0_pay3 (F := Ideal) (ix2 i j) = msk 0 i := mask_sgt0 _ _ i j
theorem m4 (i j : Fin 512) : k0_pay4 (F := Ideal) (ix2 i j) = msk 2 j := mask_slt1 _ _ i j
theorem m5 (i j : Fin 512) : k0_pay5 (F := Ideal) (ix2 i j) = msk 0 j := mask_sgt1 _ _ i j

variable (c : Dev nD) (arg1 : Memref sig .tc .vmem S1x8x512x512 .f32) (harg1 : arg1.IsWhole) (arg2 : Memref sig .tc .vmem S1x1x512x512 .f32) (harg2 : arg2.IsWhole) (arg3 : Memref sig .tc .vmem S1x1x512x512 .f32) (harg3 : arg3.IsWhole) (arg4 : Memref sig .tc .vmem S8x512x512 .f32) (harg4 : arg4.IsWhole) (arg5 : Memref sig .tc .vmem S512x512 .f32) (harg5 : arg5.IsWhole) (arg6 : Memref sig .tc .vmem S512x512 .f32) (harg6 : arg6.IsWhole)
include c arg1 harg1 arg2 harg2 arg3 harg3 arg4 harg4 arg5 harg5 arg6 harg6 x0 x1

/-- A load of plane `k` of the guidance block. -/
theorem ld0 (k : Nat) (hk : k < 8) (inb : ∀ a, (![0, k, 0, 0] : Fin 4 → Nat) a + S1x1x512x512.size a ≤ S1x8x512x512.size a) (i j : Fin 512) :
    View.readAt (Elt Ideal) arg1.view (Rect.unit (s := S1x8x512x512) ![0, k, 0, 0] S1x1x512x512.size inb).toLoadRect (harg1.unread x0) (ix4 0 0 i j)
      = Gx x0 ⟨k, hk⟩ i j := by
  rw [View.readAt_eq_ld, harg1.read_unread]
  exact ld_plane x0 k hk inb i j

/-- The load of the input image. -/
theorem ldx (i j : Fin 512) : (View.readAt (Elt Ideal) arg2.view (Rect.unit (s := S1x1x512x512) ![0, 0, 0, 0] S1x1x512x512.size inb_S1x1x512x512_S1x1x512x512_0_0_0_0).toLoadRect (harg2.unread x1)) (ix4 0 0 i j) = Rx x1 i j := by
  rw [View.readAt_eq_ld, harg2.read_unread, View.ld_unit_zero (S := S1x1x512x512) hz4]
  rfl

/-! ## Pass 1: the shifted planes -/

theorem g0 (i j : Fin 512) : (k0_pay6 (View.readAt (Elt Ideal) arg1.view (Rect.unit (s := S1x8x512x512) ![0, 0, 0, 0] S1x1x512x512.size inb_S1x8x512x512_S1x1x512x512_0_0_0_0).toLoadRect (harg1.unread x0))) (ix2 i j) = sh (Gx x0) 0 i j := by
  unfold k0_pay6
  exact gdiag (Gx x0 0) _ (fun i j => ld0 x0 x1 c arg1 harg1 arg2 harg2 arg3 harg3 arg4 harg4 arg5 harg5 arg6 harg6 0 (by decide) _ i j) _ 511#32 511#32 2 2 (by decide) (by decide) (by decide) (by decide) _ _ _ _ m2 m4 i j

theorem g1 (i j : Fin 512) : (k0_pay9 (View.readAt (Elt Ideal) arg1.view (Rect.unit (s := S1x8x512x512) ![0, 1, 0, 0] S1x1x512x512.size inb_S1x8x512x512_S1x1x512x512_0_1_0_0).toLoadRect (harg1.unread x0))) (ix2 i j) = sh (Gx x0) 1 i j := by
  unfold k0_pay9
  exact grow (Gx x0 1) _ (fun i j => ld0 x0 x1 c arg1 harg1 arg2 harg2 arg3 harg3 arg4 harg4 arg5 harg5 arg6 harg6 1 (by decide) _ i j) _ 511#32 2 (by decide) (by decide) _ _ m2 i j

theorem g2 (i j : Fin 512) : (k0_pay11 k0_pay2 k0_pay5 (View.readAt (Elt Ideal) arg1.view (Rect.unit (s := S1x8x512x512) ![0, 2, 0, 0] S1x1x512x512.size inb_S1x8x512x512_S1x1x512x512_0_2_0_0).toLoadRect (harg1.unread x0))) (ix2 i j) = sh (Gx x0) 2 i j := by
  unfold k0_pay11
  exact gdiag (Gx x0 2) _ (fun i j => ld0 x0 x1 c arg1 harg1 arg2 harg2 arg3 harg3 arg4 harg4 arg5 harg5 arg6 harg6 2 (by decide) _ i j) _ 511#32 1#32 2 0 (by decide) (by decide) (by decide) (by decide) _ _ _ _ m2 m5 i j

theorem g3 (i j : Fin 512) : (k0_pay13 k0_pay4 (View.readAt (Elt Ideal) arg1.view (Rect.unit (s := S1x8x512x512) ![0, 3, 0, 0] S1x1x512x512.size inb_S1x8x512x512_S1x1x512x512_0_3_0_0).toLoadRect (harg1.unread x0))) (ix2 i j) = sh (Gx x0) 3 i j := by
  unfold k0_pay13
  exact gcol (Gx x0 3) _ (fun i j => ld0 x0 x1 c arg1 harg1 arg2 harg2 arg3 harg3 arg4 harg4 arg5 harg5 arg6 harg6 3 (by decide) _ i j) _ 511#32 2 (by decide) (by decide) _ _ m4 i j

theorem g4 (i j : Fin 512) : (k0_pay16 k0_pay5 (View.readAt (Elt Ideal) arg1.view (Rect.unit (s := S1x8x512x512) ![0, 4, 0, 0] S1x1x512x512.size inb_S1x8x512x512_S1x1x512x512_0_4_0_0).toLoadRect (harg1.unread x0))) (ix2 i j) = sh (Gx x0) 4 i j := by
  unfold k0_pay16
  exact gcol (Gx x0 4) _ (fun i j => ld0 x0 x1 c arg1 harg1 arg2 harg2 arg3 harg3 arg4 harg4 arg5 harg5 arg6 harg6 4 (by decide) _ i j) _ 1#32 0 (by decide) (by decide) _ _ m5 i j

theorem g5 (i j : Fin 512) : (k0_pay19 k0_pay3 k0_pay4 (View.readAt (Elt Ideal) arg1.view (Rect.unit (s := S1x8x512x512) ![0, 5, 0, 0] S1x1x512x512.size inb_S1x8x512x512_S1x1x512x512_0_5_0_0).toLoadRect (harg1.unread x0))) (ix2 i j) = sh (Gx x0) 5 i j := by
  unfold k0_pay19
  exact gdiag (Gx x0 5) _ (fun i j => ld0 x0 x1 c arg1 harg1 arg2 harg2 arg3 harg3 arg4 harg4 arg5 harg5 arg6 harg6 5 (by decide) _ i j) _ 1#32 511#32 0 2 (by decide) (by decide) (by decide) (by decide) _ _ _ _ m3 m4 i j

theorem g6 (i j : Fin 512) : (k0_pay21 k0_pay3 (View.readAt (Elt Ideal) arg1.view (Rect.unit (s := S1x8x512x512) ![0, 6, 0, 0] S1x1x512x512.size inb_S1x8x512x512_S1x1x512x512_0_6_0_0).toLoadRect (harg1.unread x0))) (ix2 i j) = sh (Gx x0) 6 i j := by
  unfold k0_pay21
  exact grow (Gx x0 6) _ (fun i j => ld0 x0 x1 c arg1 harg1 arg2 harg2 arg3 harg3 arg4 harg4 arg5 harg5 arg6 harg6 6 (by decide) _ i j) _ 1#32 0 (by decide) (by decide) _ _ m3 i j

theorem g7 (i j : Fin 512) : (k0_pay24 k0_pay3 k0_pay5 (View.readAt (Elt Ideal) arg1.view (Rect.unit (s := S1x8x512x512) ![0, 7, 0, 0] S1x1x512x512.size inb_S1x8x512x512_S1x1x512x512_0_7_0_0).toLoadRect (harg1.unread x0))) (ix2 i j) = sh (Gx x0) 7 i j := by
  unfold k0_pay24
  exact gdiag (Gx x0 7) _ (fun i j => ld0 x0 x1 c arg1 harg1 arg2 harg2 arg3 harg3 arg4 harg4 arg5 harg5 arg6 harg6 7 (by decide) _ i j) _ 1#32 1#32 0 0 (by decide) (by decide) (by decide) (by decide) _ _ _ _ m3 m5 i j

theorem p0 (i j : Fin 512) : (k0_pay7 (View.readAt (Elt Ideal) arg1.view (Rect.unit (s := S1x8x512x512) ![0, 0, 0, 0] S1x1x512x512.size inb_S1x8x512x512_S1x1x512x512_0_0_0_0).toLoadRect (harg1.unread x0))) (ix3 0 i j) = sh (Gx x0) 0 i j := by
  unfold k0_pay7
  rw [cast_2to3]
  exact g0 x0 x1 c arg1 harg1 arg2 harg2 arg3 harg3 arg4 harg4 arg5 harg5 arg6 harg6 i j

theorem p1 (i j : Fin 512) : (k0_pay10 (kernelRun0_A.sl.r_1 (F := Ideal) c arg1 harg1 x0)) (ix3 0 i j) = sh (Gx x0) 1 i j := by
  unfold k0_pay10 kernelRun0_A.sl.r_1
  rw [cast_2to3]
  exact g1 x0 x1 c arg1 harg1 arg2 harg2 arg3 harg3 arg4 harg4 arg5 harg5 arg6 harg6 i j

theorem p2 (i j : Fin 512) : (k0_pay12 k0_pay2 k0_pay5 (View.readAt (Elt Ideal) arg1.view (Rect.unit (s := S1x8x512x512) ![0, 2, 0, 0] S1x1x512x512.size inb_S1x8x512x512_S1x1x512x512_0_2_0_0).toLoadRect (harg1.unread x0))) (ix3 0 i j) = sh (Gx x0) 2 i j := by
  unfold k0_pay12
  rw [cast_2to3]
  exact g2 x0 x1 c arg1 harg1 arg2 harg2 arg3 harg3 arg4 harg4 arg5 harg5 arg6 harg6 i j

theorem p3 (i j : Fin 512) : (k0_pay14 k0_pay4 (View.readAt (Elt Ideal) arg1.view (Rect.unit (s := S1x8x512x512) ![0, 3, 0, 0] S1x1x512x512.size inb_S1x8x512x512_S1x1x512x512_0_3_0_0).toLoadRect (harg1.unread x0))) (ix3 0 i j) = sh (Gx x0) 3 i j := by
  unfold k0_pay14
  rw [cast_2to3]
  exact g3 x0 x1 c arg1 harg1 arg2 harg2 arg3 harg3 arg4 harg4 arg5 harg5 arg6 harg6 i j

theorem p4 (i j : Fin 512) : (k0_pay17 k0_pay5 (View.readAt (Elt Ideal) arg1.view (Rect.unit (s := S1x8x512x512) ![0, 4, 0, 0] S1x1x512x512.size inb_S1x8x512x512_S1x1x512x512_0_4_0_0).toLoadRect (harg1.unread x0))) (ix3 0 i j) = sh (Gx x0) 4 i j := by
  unfold k0_pay17
  rw [cast_2to3]
  exact g4 x0 x1 c arg1 harg1 arg2 harg2 arg3 harg3 arg4 harg4 arg5 harg5 arg6 harg6 i j

theorem p5 (i j : Fin 512) : (k0_pay20 k0_pay3 k0_pay4 (View.readAt (Elt Ideal) arg1.view (Rect.unit (s := S1x8x512x512) ![0, 5, 0, 0] S1x1x512x512.size inb_S1x8x512x512_S1x1x512x512_0_5_0_0).toLoadRect (harg1.unread x0))) (ix3 0 i j) = sh (Gx x0) 5 i j := by
  unfold k0_pay20
  rw [cast_2to3]
  exact g5 x0 x1 c arg1 harg1 arg2 harg2 arg3 harg3 arg4 harg4 arg5 harg5 arg6 harg6 i j

theorem p6 (i j : Fin 512) : (k0_pay22 k0_pay3 (View.readAt (Elt Ideal) arg1.view (Rect.unit (s := S1x8x512x512) ![0, 6, 0, 0] S1x1x512x512.size inb_S1x8x512x512_S1x1x512x512_0_6_0_0).toLoadRect (harg1.unread x0))) (ix3 0 i j) = sh (Gx x0) 6 i j := by
  unfold k0_pay22
  rw [cast_2to3]
  exact g6 x0 x1 c arg1 harg1 arg2 harg2 arg3 harg3 arg4 harg4 arg5 harg5 arg6 harg6 i j

theorem p7 (i j : Fin 512) : (k0_pay25 k0_pay3 k0_pay5 (View.readAt (Elt Ideal) arg1.view (Rect.unit (s := S1x8x512x512) ![0, 7, 0, 0] S1x1x512x512.size inb_S1x8x512x512_S1x1x512x512_0_7_0_0).toLoadRect (harg1.unread x0))) (ix3 0 i j) = sh (Gx x0) 7 i j := by
  unfold k0_pay25
  rw [cast_2to3]
  exact g7 x0 x1 c arg1 harg1 arg2 harg2 arg3 harg3 arg4 harg4 arg5 harg5 arg6 harg6 i j

/-! ## Reading the scratch back -/

macro "plane_read" : tactic => `(tactic| (
  simp only [kernelRun0_A.sl.HS0_16, kernelRun0_A.sl.HS0_15, kernelRun0_A.sl.HS0_14, kernelRun0_A.sl.HS0_13, kernelRun0_A.sl.HS0_12,
    kernelRun0_A.sl.HS0_11, kernelRun0_A.sl.HS0_10, kernelRun0_A.sl.HS0_9, kernelRun0_A.sl.HS0_8]
  repeat (first
    | rw [View.readCov_cons_toLoadRect]
    | (rw [View.readCov_cons_of_disjoint]; rotate_left
       first
         | exact LoadRect.disjoint_of_separated _ _ 0 (Or.inr (Or.inr (Nat.le_of_ble_eq_true rfl)))
         | exact LoadRect.disjoint_of_separated _ _ 0 (Or.inl (Or.inr (Nat.le_of_ble_eq_true rfl)))))))

theorem v106_eq : (kernelRun0_A.sl.v106 (F := Ideal) c arg1 harg1 arg4 x0) = k0_pay7 (View.readAt (Elt Ideal) arg1.view (Rect.unit (s := S1x8x512x512) ![0, 0, 0, 0] S1x1x512x512.size inb_S1x8x512x512_S1x1x512x512_0_0_0_0).toLoadRect (harg1.unread x0)) := by
  unfold kernelRun0_A.sl.v106
  plane_read

theorem v106_ix (i j : Fin 512) : (kernelRun0_A.sl.v106 (F := Ideal) c arg1 harg1 arg4 x0) (ix3 0 i j) = sh (Gx x0) 0 i j := by
  rw [v106_eq x0 x1 c arg1 harg1 arg2 harg2 arg3 harg3 arg4 harg4 arg5 harg5 arg6 harg6]
  exact p0 x0 x1 c arg1 harg1 arg2 harg2 arg3 harg3 arg4 harg4 arg5 harg5 arg6 harg6 i j

theorem v113_eq : (kernelRun0_A.sl.v113 (F := Ideal) c arg1 harg1 arg4 arg5 x0) = k0_pay10 (kernelRun0_A.sl.r_1 (F := Ideal) c arg1 harg1 x0) := by
  unfold kernelRun0_A.sl.v113
  plane_read

theorem v113_ix (i j : Fin 512) : (kernelRun0_A.sl.v113 (F := Ideal) c arg1 harg1 arg4 arg5 x0) (ix3 0 i j) = sh (Gx x0) 1 i j := by
  rw [v113_eq x0 x1 c arg1 harg1 arg2 harg2 arg3 harg3 arg4 harg4 arg5 harg5 arg6 harg6]
  exact p1 x0 x1 c arg1 harg1 arg2 harg2 arg3 harg3 arg4 harg4 arg5 harg5 arg6 harg6 i j

theorem v120_eq : (kernelRun0_A.sl.v120 (F := Ideal) c arg1 harg1 arg4 arg5 x0) = k0_pay12 k0_pay2 k0_pay5 (View.readAt (Elt Ideal) arg1.view (Rect.unit (s := S1x8x512x512) ![0, 2, 0, 0] S1x1x512x512.size inb_S1x8x512x512_S1x1x512x512_0_2_0_0).toLoadRect (harg1.unread x0)) := by
  unfold kernelRun0_A.sl.v120
  plane_read

theorem v120_ix (i j : Fin 512) : (kernelRun0_A.sl.v120 (F := Ideal) c arg1 harg1 arg4 arg5 x0) (ix3 0 i j) = sh (Gx x0) 2 i j := by
  rw [v120_eq x0 x1 c arg1 harg1 arg2 harg2 arg3 harg3 arg4 harg4 arg5 harg5 arg6 harg6]
  exact p2 x0 x1 c arg1 harg1 arg2 harg2 arg3 harg3 arg4 harg4 arg5 harg5 arg6 harg6 i j

theorem v127_eq : (kernelRun0_A.sl.v127 (F := Ideal) c arg1 harg1 arg4 arg5 x0) = k0_pay14 k0_pay4 (View.readAt (Elt Ideal) arg1.view (Rect.unit (s := S1x8x512x512) ![0, 3, 0, 0] S1x1x512x512.size inb_S1x8x512x512_S1x1x512x512_0_3_0_0).toLoadRect (harg1.unread x0)) := by
  unfold kernelRun0_A.sl.v127
  plane_read

theorem v127_ix (i j : Fin 512) : (kernelRun0_A.sl.v127 (F := Ideal) c arg1 harg1 arg4 arg5 x0) (ix3 0 i j) = sh (Gx x0) 3 i j := by
  rw [v127_eq x0 x1 c arg1 harg1 arg2 harg2 arg3 harg3 arg4 harg4 arg5 harg5 arg6 harg6]
  exact p3 x0 x1 c arg1 harg1 arg2 harg2 arg3 harg3 arg4 harg4 arg5 harg5 arg6 harg6 i j

theorem v134_eq : (kernelRun0_A.sl.v134 (F := Ideal) c arg1 harg1 arg4 arg5 x0) = k0_pay17 k0_pay5 (View.readAt (Elt Ideal) arg1.view (Rect.unit (s := S1x8x512x512) ![0, 4, 0, 0] S1x1x512x512.size inb_S1x8x512x512_S1x1x512x512_0_4_0_0).toLoadRect (harg1.unread x0)) := by
  unfold kernelRun0_A.sl.v134
  plane_read

theorem v134_ix (i j : Fin 512) : (kernelRun0_A.sl.v134 (F := Ideal) c arg1 harg1 arg4 arg5 x0) (ix3 0 i j) = sh (Gx x0) 4 i j := by
  rw [v134_eq x0 x1 c arg1 harg1 arg2 harg2 arg3 harg3 arg4 harg4 arg5 harg5 arg6 harg6]
  exact p4 x0 x1 c arg1 harg1 arg2 harg2 arg3 harg3 arg4 harg4 arg5 harg5 arg6 harg6 i j

theorem v141_eq : (kernelRun0_A.sl.v141 (F := Ideal) c arg1 harg1 arg4 arg5 x0) = k0_pay20 k0_pay3 k0_pay4 (View.readAt (Elt Ideal) arg1.view (Rect.unit (s := S1x8x512x512) ![0, 5, 0, 0] S1x1x512x512.size inb_S1x8x512x512_S1x1x512x512_0_5_0_0).toLoadRect (harg1.unread x0)) := by
  unfold kernelRun0_A.sl.v141
  plane_read

theorem v141_ix (i j : Fin 512) : (kernelRun0_A.sl.v141 (F := Ideal) c arg1 harg1 arg4 arg5 x0) (ix3 0 i j) = sh (Gx x0) 5 i j := by
  rw [v141_eq x0 x1 c arg1 harg1 arg2 harg2 arg3 harg3 arg4 harg4 arg5 harg5 arg6 harg6]
  exact p5 x0 x1 c arg1 harg1 arg2 harg2 arg3 harg3 arg4 harg4 arg5 harg5 arg6 harg6 i j

theorem v148_eq : (kernelRun0_A.sl.v148 (F := Ideal) c arg1 harg1 arg4 arg5 x0) = k0_pay22 k0_pay3 (View.readAt (Elt Ideal) arg1.view (Rect.unit (s := S1x8x512x512) ![0, 6, 0, 0] S1x1x512x512.size inb_S1x8x512x512_S1x1x512x512_0_6_0_0).toLoadRect (harg1.unread x0)) := by
  unfold kernelRun0_A.sl.v148
  plane_read

theorem v148_ix (i j : Fin 512) : (kernelRun0_A.sl.v148 (F := Ideal) c arg1 harg1 arg4 arg5 x0) (ix3 0 i j) = sh (Gx x0) 6 i j := by
  rw [v148_eq x0 x1 c arg1 harg1 arg2 harg2 arg3 harg3 arg4 harg4 arg5 harg5 arg6 harg6]
  exact p6 x0 x1 c arg1 harg1 arg2 harg2 arg3 harg3 arg4 harg4 arg5 harg5 arg6 harg6 i j

theorem v155_eq : (kernelRun0_A.sl.v155 (F := Ideal) c arg1 harg1 arg4 arg5 x0) = k0_pay25 k0_pay3 k0_pay5 (View.readAt (Elt Ideal) arg1.view (Rect.unit (s := S1x8x512x512) ![0, 7, 0, 0] S1x1x512x512.size inb_S1x8x512x512_S1x1x512x512_0_7_0_0).toLoadRect (harg1.unread x0)) := by
  unfold kernelRun0_A.sl.v155
  plane_read

theorem v155_ix (i j : Fin 512) : (kernelRun0_A.sl.v155 (F := Ideal) c arg1 harg1 arg4 arg5 x0) (ix3 0 i j) = sh (Gx x0) 7 i j := by
  rw [v155_eq x0 x1 c arg1 harg1 arg2 harg2 arg3 harg3 arg4 harg4 arg5 harg5 arg6 harg6]
  exact p7 x0 x1 c arg1 harg1 arg2 harg2 arg3 harg3 arg4 harg4 arg5 harg5 arg6 harg6 i j

/-! ## The normaliser and its reciprocal -/

theorem v102_ix (i j : Fin 512) : (kernelRun0_A.sl.v102 (F := Ideal) c arg1 harg1 arg5 x0) (ix2 i j) = aw (Gx x0) i j := by
  unfold kernelRun0_A.sl.v102 kernelRun0_A.sl.HS1_1
  rw [View.readCov_cons_toLoadRect]
  unfold kernelRun0_A.sl.r_4 kernelRun0_A.sl.r_5 kernelRun0_A.sl.r_2 kernelRun0_A.sl.r_3 kernelRun0_A.sl.r kernelRun0_A.sl.r_1
    k0_pay27 k0_pay26 k0_pay23 k0_pay18 k0_pay15 k0_pay8
  simp only [shapeCast_self, addf_apply, absf_ix, broadcast_apply, zero_lit,
    g0 x0 x1 c arg1 harg1 arg2 harg2 arg3 harg3 arg4 harg4 arg5 harg5 arg6 harg6, g1 x0 x1 c arg1 harg1 arg2 harg2 arg3 harg3 arg4 harg4 arg5 harg5 arg6 harg6, g2 x0 x1 c arg1 harg1 arg2 harg2 arg3 harg3 arg4 harg4 arg5 harg5 arg6 harg6, g3 x0 x1 c arg1 harg1 arg2 harg2 arg3 harg3 arg4 harg4 arg5 harg5 arg6 harg6, g4 x0 x1 c arg1 harg1 arg2 harg2 arg3 harg3 arg4 harg4 arg5 harg5 arg6 harg6, g5 x0 x1 c arg1 harg1 arg2 harg2 arg3 harg3 arg4 harg4 arg5 harg5 arg6 harg6,
    g6 x0 x1 c arg1 harg1 arg2 harg2 arg3 harg3 arg4 harg4 arg5 harg5 arg6 harg6, g7 x0 x1 c arg1 harg1 arg2 harg2 arg3 harg3 arg4 harg4 arg5 harg5 arg6 harg6]
  exact sum8_from_zero (fun k => eabs (sh (Gx x0) k i j))

theorem inv_ix (i j : Fin 512) : k0_pay28 (kernelRun0_A.sl.v102 (F := Ideal) c arg1 harg1 arg5 x0) (ix2 i j) = Ideal.div oneL (aw (Gx x0) i j) := by
  unfold k0_pay28
  rw [divf_apply, broadcast_apply, v102_ix x0 x1 c arg1 harg1 arg2 harg2 arg3 harg3 arg4 harg4 arg5 harg5 arg6 harg6]
  rfl

theorem r6_ix (i j : Fin 512) : (kernelRun0_A.sl.r_6 (F := Ideal) c arg1 harg1 arg5 x0) (ix2 i j) = Ideal.div oneL (aw (Gx x0) i j) := by
  unfold kernelRun0_A.sl.r_6
  exact inv_ix x0 x1 c arg1 harg1 arg2 harg2 arg3 harg3 arg4 harg4 arg5 harg5 arg6 harg6 i j

/-! ## Pass 2: the gates -/

theorem w0 (i j : Fin 512) : (k0_pay29 (kernelRun0_A.sl.v102 (F := Ideal) c arg1 harg1 arg5 x0) (kernelRun0_A.sl.v106 (F := Ideal) c arg1 harg1 arg4 x0)) (ix2 i j) = gwK oneL (Gx x0) 0 i j := by
  unfold k0_pay29
  rw [mulf_apply, cast_3to2, v106_ix x0 x1 c arg1 harg1 arg2 harg2 arg3 harg3 arg4 harg4 arg5 harg5 arg6 harg6, inv_ix x0 x1 c arg1 harg1 arg2 harg2 arg3 harg3 arg4 harg4 arg5 harg5 arg6 harg6]
  rfl

theorem w1 (i j : Fin 512) : (k0_pay31 (kernelRun0_A.sl.v102 (F := Ideal) c arg1 harg1 arg5 x0) (kernelRun0_A.sl.v113 (F := Ideal) c arg1 harg1 arg4 arg5 x0)) (ix2 i j) = gwK oneL (Gx x0) 1 i j := by
  unfold k0_pay31
  rw [mulf_apply, cast_3to2, v113_ix x0 x1 c arg1 harg1 arg2 harg2 arg3 harg3 arg4 harg4 arg5 harg5 arg6 harg6, inv_ix x0 x1 c arg1 harg1 arg2 harg2 arg3 harg3 arg4 harg4 arg5 harg5 arg6 harg6]
  rfl

theorem w2 (i j : Fin 512) : (k0_pay33 (kernelRun0_A.sl.v102 (F := Ideal) c arg1 harg1 arg5 x0) (kernelRun0_A.sl.v120 (F := Ideal) c arg1 harg1 arg4 arg5 x0)) (ix2 i j) = gwK oneL (Gx x0) 2 i j := by
  unfold k0_pay33
  rw [mulf_apply, cast_3to2, v120_ix x0 x1 c arg1 harg1 arg2 harg2 arg3 harg3 arg4 harg4 arg5 harg5 arg6 harg6, inv_ix x0 x1 c arg1 harg1 arg2 harg2 arg3 harg3 arg4 harg4 arg5 harg5 arg6 harg6]
  rfl

theorem w3 (i j : Fin 512) : (k0_pay36 (kernelRun0_A.sl.r_6 (F := Ideal) c arg1 harg1 arg5 x0) (kernelRun0_A.sl.v127 (F := Ideal) c arg1 harg1 arg4 arg5 x0)) (ix2 i j) = gwK oneL (Gx x0) 3 i j := by
  unfold k0_pay36
  rw [mulf_apply, cast_3to2, v127_ix x0 x1 c arg1 harg1 arg2 harg2 arg3 harg3 arg4 harg4 arg5 harg5 arg6 harg6, r6_ix x0 x1 c arg1 harg1 arg2 harg2 arg3 harg3 arg4 harg4 arg5 harg5 arg6 harg6]
  rfl

theorem w4 (i j : Fin 512) : (k0_pay38 (kernelRun0_A.sl.r_6 (F := Ideal) c arg1 harg1 arg5 x0) (kernelRun0_A.sl.v134 (F := Ideal) c arg1 harg1 arg4 arg5 x0)) (ix2 i j) = gwK oneL (Gx x0) 4 i j := by
  unfold k0_pay38
  rw [mulf_apply, cast_3to2, v134_ix x0 x1 c arg1 harg1 arg2 harg2 arg3 harg3 arg4 harg4 arg5 harg5 arg6 harg6, r6_ix x0 x1 c arg1 harg1 arg2 harg2 arg3 harg3 arg4 harg4 arg5 harg5 arg6 harg6]
  rfl

theorem w5 (i j : Fin 512) : (k0_pay40 (kernelRun0_A.sl.r_6 (F := Ideal) c arg1 harg1 arg5 x0) (kernelRun0_A.sl.v141 (F := Ideal) c arg1 harg1 arg4 arg5 x0)) (ix2 i j) = gwK oneL (Gx x0) 5 i j := by
  unfold k0_pay40
  rw [mulf_apply, cast_3to2, v141_ix x0 x1 c arg1 harg1 arg2 harg2 arg3 harg3 arg4 harg4 arg5 harg5 arg6 harg6, r6_ix x0 x1 c arg1 harg1 arg2 harg2 arg3 harg3 arg4 harg4 arg5 harg5 arg6 harg6]
  rfl

theorem w6 (i j : Fin 512) : (k0_pay42 (kernelRun0_A.sl.r_6 (F := Ideal) c arg1 harg1 arg5 x0) (kernelRun0_A.sl.v148 (F := Ideal) c arg1 harg1 arg4 arg5 x0)) (ix2 i j) = gwK oneL (Gx x0) 6 i j := by
  unfold k0_pay42
  rw [mulf_apply, cast_3to2, v148_ix x0 x1 c arg1 harg1 arg2 harg2 arg3 harg3 arg4 harg4 arg5 harg5 arg6 harg6, r6_ix x0 x1 c arg1 harg1 arg2 harg2 arg3 harg3 arg4 harg4 arg5 harg5 arg6 harg6]
  rfl

theorem w7 (i j : Fin 512) : (k0_pay45 (kernelRun0_A.sl.r_6 (F := Ideal) c arg1 harg1 arg5 x0) (kernelRun0_A.sl.v155 (F := Ideal) c arg1 harg1 arg4 arg5 x0)) (ix2 i j) = gwK oneL (Gx x0) 7 i j := by
  unfold k0_pay45
  rw [mulf_apply, cast_3to2, v155_ix x0 x1 c arg1 harg1 arg2 harg2 arg3 harg3 arg4 harg4 arg5 harg5 arg6 harg6, r6_ix x0 x1 c arg1 harg1 arg2 harg2 arg3 harg3 arg4 harg4 arg5 harg5 arg6 harg6]
  rfl

theorem f0 (i j : Fin 512) : (k0_pay30 (kernelRun0_A.sl.v102 (F := Ideal) c arg1 harg1 arg5 x0) (kernelRun0_A.sl.v106 (F := Ideal) c arg1 harg1 arg4 x0)) (ix3 0 i j) = gwK oneL (Gx x0) 0 i j := by
  unfold k0_pay30
  rw [cast_2to3]
  exact w0 x0 x1 c arg1 harg1 arg2 harg2 arg3 harg3 arg4 harg4 arg5 harg5 arg6 harg6 i j

theorem f1 (i j : Fin 512) : (k0_pay32 (kernelRun0_A.sl.v102 (F := Ideal) c arg1 harg1 arg5 x0) (kernelRun0_A.sl.v113 (F := Ideal) c arg1 harg1 arg4 arg5 x0)) (ix3 0 i j) = gwK oneL (Gx x0) 1 i j := by
  unfold k0_pay32
  rw [cast_2to3]
  exact w1 x0 x1 c arg1 harg1 arg2 harg2 arg3 harg3 arg4 harg4 arg5 harg5 arg6 harg6 i j

theorem f2 (i j : Fin 512) : (k0_pay34 (kernelRun0_A.sl.v102 (F := Ideal) c arg1 harg1 arg5 x0) (kernelRun0_A.sl.v120 (F := Ideal) c arg1 harg1 arg4 arg5 x0)) (ix3 0 i j) = gwK oneL (Gx x0) 2 i j := by
  unfold k0_pay34
  rw [cast_2to3]
  exact w2 x0 x1 c arg1 harg1 arg2 harg2 arg3 harg3 arg4 harg4 arg5 harg5 arg6 harg6 i j

theorem f3 (i j : Fin 512) : (k0_pay37 (kernelRun0_A.sl.r_6 (F := Ideal) c arg1 harg1 arg5 x0) (kernelRun0_A.sl.v127 (F := Ideal) c arg1 harg1 arg4 arg5 x0)) (ix3 0 i j) = gwK oneL (Gx x0) 3 i j := by
  unfold k0_pay37
  rw [cast_2to3]
  exact w3 x0 x1 c arg1 harg1 arg2 harg2 arg3 harg3 arg4 harg4 arg5 harg5 arg6 harg6 i j

theorem f4 (i j : Fin 512) : (k0_pay39 (kernelRun0_A.sl.r_6 (F := Ideal) c arg1 harg1 arg5 x0) (kernelRun0_A.sl.v134 (F := Ideal) c arg1 harg1 arg4 arg5 x0)) (ix3 0 i j) = gwK oneL (Gx x0) 4 i j := by
  unfold k0_pay39
  rw [cast_2to3]
  exact w4 x0 x1 c arg1 harg1 arg2 harg2 arg3 harg3 arg4 harg4 arg5 harg5 arg6 harg6 i j

theorem f5 (i j : Fin 512) : (k0_pay41 (kernelRun0_A.sl.r_6 (F := Ideal) c arg1 harg1 arg5 x0) (kernelRun0_A.sl.v141 (F := Ideal) c arg1 harg1 arg4 arg5 x0)) (ix3 0 i j) = gwK oneL (Gx x0) 5 i j := by
  unfold k0_pay41
  rw [cast_2to3]
  exact w5 x0 x1 c arg1 harg1 arg2 harg2 arg3 harg3 arg4 harg4 arg5 harg5 arg6 harg6 i j

theorem f6 (i j : Fin 512) : (k0_pay43 (kernelRun0_A.sl.r_6 (F := Ideal) c arg1 harg1 arg5 x0) (kernelRun0_A.sl.v148 (F := Ideal) c arg1 harg1 arg4 arg5 x0)) (ix3 0 i j) = gwK oneL (Gx x0) 6 i j := by
  unfold k0_pay43
  rw [cast_2to3]
  exact w6 x0 x1 c arg1 harg1 arg2 harg2 arg3 harg3 arg4 harg4 arg5 harg5 arg6 harg6 i j

theorem f7 (i j : Fin 512) : (k0_pay46 (kernelRun0_A.sl.r_9 (F := Ideal) c arg1 harg1 arg4 arg5 x0)) (ix3 0 i j) = gwK oneL (Gx x0) 7 i j := by
  unfold k0_pay46 kernelRun0_A.sl.r_9
  rw [cast_2to3]
  exact w7 x0 x1 c arg1 harg1 arg2 harg2 arg3 harg3 arg4 harg4 arg5 harg5 arg6 harg6 i j

theorem v172_eq : (kernelRun0_A.sl.v172 (F := Ideal) c arg1 harg1 arg4 arg5 x0) = k0_pay30 (kernelRun0_A.sl.v102 (F := Ideal) c arg1 harg1 arg5 x0) (kernelRun0_A.sl.v106 (F := Ideal) c arg1 harg1 arg4 x0) := by
  unfold kernelRun0_A.sl.v172
  plane_read

theorem v172_ix (i j : Fin 512) : (kernelRun0_A.sl.v172 (F := Ideal) c arg1 harg1 arg4 arg5 x0) (ix3 0 i j) = gwK oneL (Gx x0) 0 i j := by
  rw [v172_eq x0 x1 c arg1 harg1 arg2 harg2 arg3 harg3 arg4 harg4 arg5 harg5 arg6 harg6]
  exact f0 x0 x1 c arg1 harg1 arg2 harg2 arg3 harg3 arg4 harg4 arg5 harg5 arg6 harg6 i j

theorem v176_eq : (kernelRun0_A.sl.v176 (F := Ideal) c arg1 harg1 arg4 arg5 x0) = k0_pay32 (kernelRun0_A.sl.v102 (F := Ideal) c arg1 harg1 arg5 x0) (kernelRun0_A.sl.v113 (F := Ideal) c arg1 harg1 arg4 arg5 x0) := by
  unfold kernelRun0_A.sl.v176
  plane_read

theorem v176_ix (i j : Fin 512) : (kernelRun0_A.sl.v176 (F := Ideal) c arg1 harg1 arg4 arg5 x0) (ix3 0 i j) = gwK oneL (Gx x0) 1 i j := by
  rw [v176_eq x0 x1 c arg1 harg1 arg2 harg2 arg3 harg3 arg4 harg4 arg5 harg5 arg6 harg6]
  exact f1 x0 x1 c arg1 harg1 arg2 harg2 arg3 harg3 arg4 harg4 arg5 harg5 arg6 harg6 i j

theorem v180_eq : (kernelRun0_A.sl.v180 (F := Ideal) c arg1 harg1 arg4 arg5 x0) = k0_pay34 (kernelRun0_A.sl.v102 (F := Ideal) c arg1 harg1 arg5 x0) (kernelRun0_A.sl.v120 (F := Ideal) c arg1 harg1 arg4 arg5 x0) := by
  unfold kernelRun0_A.sl.v180
  plane_read

theorem v180_ix (i j : Fin 512) : (kernelRun0_A.sl.v180 (F := Ideal) c arg1 harg1 arg4 arg5 x0) (ix3 0 i j) = gwK oneL (Gx x0) 2 i j := by
  rw [v180_eq x0 x1 c arg1 harg1 arg2 harg2 arg3 harg3 arg4 harg4 arg5 harg5 arg6 harg6]
  exact f2 x0 x1 c arg1 harg1 arg2 harg2 arg3 harg3 arg4 harg4 arg5 harg5 arg6 harg6 i j

theorem v185_eq : (kernelRun0_A.sl.v185 (F := Ideal) c arg1 harg1 arg4 arg5 x0) = k0_pay37 (kernelRun0_A.sl.r_6 (F := Ideal) c arg1 harg1 arg5 x0) (kernelRun0_A.sl.v127 (F := Ideal) c arg1 harg1 arg4 arg5 x0) := by
  unfold kernelRun0_A.sl.v185
  plane_read

theorem v185_ix (i j : Fin 512) : (kernelRun0_A.sl.v185 (F := Ideal) c arg1 harg1 arg4 arg5 x0) (ix3 0 i j) = gwK oneL (Gx x0) 3 i j := by
  rw [v185_eq x0 x1 c arg1 harg1 arg2 harg2 arg3 harg3 arg4 harg4 arg5 harg5 arg6 harg6]
  exact f3 x0 x1 c arg1 harg1 arg2 harg2 arg3 harg3 arg4 harg4 arg5 harg5 arg6 harg6 i j

theorem v190_eq : (kernelRun0_A.sl.v190 (F := Ideal) c arg1 harg1 arg4 arg5 x0) = k0_pay39 (kernelRun0_A.sl.r_6 (F := Ideal) c arg1 harg1 arg5 x0) (kernelRun0_A.sl.v134 (F := Ideal) c arg1 harg1 arg4 arg5 x0) := by
  unfold kernelRun0_A.sl.v190
  plane_read

theorem v190_ix (i j : Fin 512) : (kernelRun0_A.sl.v190 (F := Ideal) c arg1 harg1 arg4 arg5 x0) (ix3 0 i j) = gwK oneL (Gx x0) 4 i j := by
  rw [v190_eq x0 x1 c arg1 harg1 arg2 harg2 arg3 harg3 arg4 harg4 arg5 harg5 arg6 harg6]
  exact f4 x0 x1 c arg1 harg1 arg2 harg2 arg3 harg3 arg4 harg4 arg5 harg5 arg6 harg6 i j

theorem v195_eq : (kernelRun0_A.sl.v195 (F := Ideal) c arg1 harg1 arg4 arg5 x0) = k0_pay41 (kernelRun0_A.sl.r_6 (F := Ideal) c arg1 harg1 arg5 x0) (kernelRun0_A.sl.v141 (F := Ideal) c arg1 harg1 arg4 arg5 x0) := by
  unfold kernelRun0_A.sl.v195
  plane_read

theorem v195_ix (i j : Fin 512) : (kernelRun0_A.sl.v195 (F := Ideal) c arg1 harg1 arg4 arg5 x0) (ix3 0 i j) = gwK oneL (Gx x0) 5 i j := by
  rw [v195_eq x0 x1 c arg1 harg1 arg2 harg2 arg3 harg3 arg4 harg4 arg5 harg5 arg6 harg6]
  exact f5 x0 x1 c arg1 harg1 arg2 harg2 arg3 harg3 arg4 harg4 arg5 harg5 arg6 harg6 i j

theorem v200_eq : (kernelRun0_A.sl.v200 (F := Ideal) c arg1 harg1 arg4 arg5 x0) = k0_pay43 (kernelRun0_A.sl.r_6 (F := Ideal) c arg1 harg1 arg5 x0) (kernelRun0_A.sl.v148 (F := Ideal) c arg1 harg1 arg4 arg5 x0) := by
  unfold kernelRun0_A.sl.v200
  plane_read

theorem v200_ix (i j : Fin 512) : (kernelRun0_A.sl.v200 (F := Ideal) c arg1 harg1 arg4 arg5 x0) (ix3 0 i j) = gwK oneL (Gx x0) 6 i j := by
  rw [v200_eq x0 x1 c arg1 harg1 arg2 harg2 arg3 harg3 arg4 harg4 arg5 harg5 arg6 harg6]
  exact f6 x0 x1 c arg1 harg1 arg2 harg2 arg3 harg3 arg4 harg4 arg5 harg5 arg6 harg6 i j

theorem v204_eq : (kernelRun0_A.sl.v204 (F := Ideal) c arg1 harg1 arg4 arg5 x0) = k0_pay46 (kernelRun0_A.sl.r_9 (F := Ideal) c arg1 harg1 arg4 arg5 x0) := by
  unfold kernelRun0_A.sl.v204
  plane_read

theorem v204_ix (i j : Fin 512) : (kernelRun0_A.sl.v204 (F := Ideal) c arg1 harg1 arg4 arg5 x0) (ix3 0 i j) = gwK oneL (Gx x0) 7 i j := by
  rw [v204_eq x0 x1 c arg1 harg1 arg2 harg2 arg3 harg3 arg4 harg4 arg5 harg5 arg6 harg6]
  exact f7 x0 x1 c arg1 harg1 arg2 harg2 arg3 harg3 arg4 harg4 arg5 harg5 arg6 harg6 i j

theorem v323_ix (i j : Fin 512) : (kernelRun0_A.sl.v323 (F := Ideal) c arg1 harg1 arg4 arg5 x0) (ix3 0 i j) = gwK oneL (Gx x0) 6 i j := by
  have e : (kernelRun0_A.sl.v323 (F := Ideal) c arg1 harg1 arg4 arg5 x0) = k0_pay43 (kernelRun0_A.sl.r_6 (F := Ideal) c arg1 harg1 arg5 x0) (kernelRun0_A.sl.v148 (F := Ideal) c arg1 harg1 arg4 arg5 x0) := by
    unfold kernelRun0_A.sl.v323
    plane_read
  rw [e]
  exact f6 x0 x1 c arg1 harg1 arg2 harg2 arg3 harg3 arg4 harg4 arg5 harg5 arg6 harg6 i j

theorem v327_ix (i j : Fin 512) : (kernelRun0_A.sl.v327 (F := Ideal) c arg1 harg1 arg4 arg5 x0) (ix3 0 i j) = gwK oneL (Gx x0) 7 i j := by
  have e : (kernelRun0_A.sl.v327 (F := Ideal) c arg1 harg1 arg4 arg5 x0) = k0_pay46 (kernelRun0_A.sl.r_9 (F := Ideal) c arg1 harg1 arg4 arg5 x0) := by
    unfold kernelRun0_A.sl.v327
    plane_read
  rw [e]
  exact f7 x0 x1 c arg1 harg1 arg2 harg2 arg3 harg3 arg4 harg4 arg5 harg5 arg6 harg6 i j

/-! ## The gates' sum -/

theorem v167_ix (i j : Fin 512) : (kernelRun0_A.sl.v167 (F := Ideal) c arg1 harg1 arg4 arg5 arg6 x0) (ix2 i j) = ∑ k : Fin 8, gwK oneL (Gx x0) k i j := by
  unfold kernelRun0_A.sl.v167 kernelRun0_A.sl.HS2_1
  rw [View.readCov_cons_toLoadRect]
  unfold kernelRun0_A.sl.r_8 kernelRun0_A.sl.r_9 kernelRun0_A.sl.r_7 k0_pay47 k0_pay44 k0_pay35
  simp only [shapeCast_self, addf_apply, broadcast_apply, zero_lit,
    w0 x0 x1 c arg1 harg1 arg2 harg2 arg3 harg3 arg4 harg4 arg5 harg5 arg6 harg6, w1 x0 x1 c arg1 harg1 arg2 harg2 arg3 harg3 arg4 harg4 arg5 harg5 arg6 harg6, w2 x0 x1 c arg1 harg1 arg2 harg2 arg3 harg3 arg4 harg4 arg5 harg5 arg6 harg6, w3 x0 x1 c arg1 harg1 arg2 harg2 arg3 harg3 arg4 harg4 arg5 harg5 arg6 harg6,
    w4 x0 x1 c arg1 harg1 arg2 harg2 arg3 harg3 arg4 harg4 arg5 harg5 arg6 harg6, w5 x0 x1 c arg1 harg1 arg2 harg2 arg3 harg3 arg4 harg4 arg5 harg5 arg6 harg6, w6 x0 x1 c arg1 harg1 arg2 harg2 arg3 harg3 arg4 harg4 arg5 harg5 arg6 harg6, w7 x0 x1 c arg1 harg1 arg2 harg2 arg3 harg3 arg4 harg4 arg5 harg5 arg6 harg6]
  exact sum8_from_zero (fun k => gwK oneL (Gx x0) k i j)

end Cert.KernelIdeal.KWords

end
-- ==== Proof.KSteps.lean ====
/-
  The propagation as the kernel's body computes it: the staged image, `1 -` the gates' sum, and the four steps, each read at a
  pixel as `KStencil`'s `kstep` of the previous image; the stored block is `Stencil`'s result for the staged images.
-/
import proofs.«136062_j39565238731218_2_alg».proof.Proof.KWords

set_option maxRecDepth 16384

noncomputable section

namespace Cert.KernelIdeal.KWords

open Idealize.ShloMosaic Idealize.ShloMosaic.ValueIdx Idealize.ShloMosaic.TcCoe Idealize.ShloMosaic.Tactic
open Cert.KernelIdeal Cert.KernelIdeal.Gen Cert.Stencil Cert.PadShift Cert.KLayout Cert.KVec

variable (x0 : Vec Ideal S1x8x512x512 .f32) (x1 : Vec Ideal S1x1x512x512 .f32)
variable (c : Dev nD) (arg1 : Memref sig .tc .vmem S1x8x512x512 .f32) (harg1 : arg1.IsWhole) (arg2 : Memref sig .tc .vmem S1x1x512x512 .f32) (harg2 : arg2.IsWhole) (arg3 : Memref sig .tc .vmem S1x1x512x512 .f32) (harg3 : arg3.IsWhole) (arg4 : Memref sig .tc .vmem S8x512x512 .f32) (harg4 : arg4.IsWhole) (arg5 : Memref sig .tc .vmem S512x512 .f32) (harg5 : arg5.IsWhole) (arg6 : Memref sig .tc .vmem S512x512 .f32) (harg6 : arg6.IsWhole)
include c arg1 harg1 arg2 harg2 arg3 harg3 arg4 harg4 arg5 harg5 arg6 harg6 x0 x1

/-! ## The propagation -/

macro "rots" : tactic => `(tactic| repeat (first | rw [rot0_511] | rw [rot0_1] | rw [rot1_511] | rw [rot1_1]))

theorem raw_ix (i j : Fin 512) : k0_pay48 (View.readAt (Elt Ideal) arg2.view (Rect.unit (s := S1x1x512x512) ![0, 0, 0, 0] S1x1x512x512.size inb_S1x1x512x512_S1x1x512x512_0_0_0_0).toLoadRect (harg2.unread x1)) (ix2 i j) = Rx x1 i j := by
  unfold k0_pay48
  rw [cast_4to2]
  exact ldx x0 x1 c arg1 harg1 arg2 harg2 arg3 harg3 arg4 harg4 arg5 harg5 arg6 harg6 i j

theorem r10_ix (i j : Fin 512) : (kernelRun0_A.sl.r_10 (F := Ideal) c arg2 harg2 x1) (ix2 i j) = Rx x1 i j := by
  unfold kernelRun0_A.sl.r_10
  exact raw_ix x0 x1 c arg1 harg1 arg2 harg2 arg3 harg3 arg4 harg4 arg5 harg5 arg6 harg6 i j

variable (ha : ∀ i j, aw (Gx x0) i j ≠ 0)
include ha

/-- `1 -` the gates' sum. -/
theorem omg_ix (i j : Fin 512) : (kernelRun0_A.sl.r_11 (F := Ideal) c arg1 harg1 arg4 arg5 arg6 x0) (ix2 i j) = oneL - gs (Gx x0) i j := by
  unfold kernelRun0_A.sl.r_11 k0_pay49
  rw [subf_apply, broadcast_apply, v167_ix x0 x1 c arg1 harg1 arg2 harg2 arg3 harg3 arg4 harg4 arg5 harg5 arg6 harg6]
  show oneL - _ = _
  congr 1
  unfold gs
  exact Finset.sum_congr rfl fun k _ => gwK_eq oneL_eq (Gx x0) k i j (ha i j)

set_option maxHeartbeats 2000000 in
/-- The first step. -/
theorem cur1_ix (i j : Fin 512) :
    (k0_pay54 (kernelRun0_A.sl.r_10 (F := Ideal) c arg2 harg2 x1) (kernelRun0_A.sl.r_11 (F := Ideal) c arg1 harg1 arg4 arg5 arg6 x0) (kernelRun0_A.sl.r_12 (F := Ideal) c arg2 harg2 x1) (kernelRun0_A.sl.r_13 (F := Ideal) c arg1 harg1 arg2 harg2 arg4 arg5 x0 x1) (kernelRun0_A.sl.r_14 (F := Ideal) c arg1 harg1 arg4 arg5 x0) (kernelRun0_A.sl.r_15 (F := Ideal) c arg2 harg2 x1) (kernelRun0_A.sl.v190 (F := Ideal) c arg1 harg1 arg4 arg5 x0) (kernelRun0_A.sl.v195 (F := Ideal) c arg1 harg1 arg4 arg5 x0) (kernelRun0_A.sl.v200 (F := Ideal) c arg1 harg1 arg4 arg5 x0) (kernelRun0_A.sl.v204 (F := Ideal) c arg1 harg1 arg4 arg5 x0)) (ix2 i j)
      = kstep oneL (Gx x0) (Rx x1) (Rx x1) i j := by
  simp only [k0_pay54, kernelRun0_A.sl.r_12, kernelRun0_A.sl.r_13, kernelRun0_A.sl.r_14, kernelRun0_A.sl.r_15, k0_pay50, k0_pay51, k0_pay52, k0_pay53, mulf_apply, addf_apply, cast_3to2, cast_2to4]
  rots
  simp only [cast_3to2, cast_2to4, raw_ix x0 x1 c arg1 harg1 arg2 harg2 arg3 harg3 arg4 harg4 arg5 harg5 arg6 harg6, r10_ix x0 x1 c arg1 harg1 arg2 harg2 arg3 harg3 arg4 harg4 arg5 harg5 arg6 harg6, omg_ix x0 x1 c arg1 harg1 arg2 harg2 arg3 harg3 arg4 harg4 arg5 harg5 arg6 harg6 ha,
    v172_ix x0 x1 c arg1 harg1 arg2 harg2 arg3 harg3 arg4 harg4 arg5 harg5 arg6 harg6, v176_ix x0 x1 c arg1 harg1 arg2 harg2 arg3 harg3 arg4 harg4 arg5 harg5 arg6 harg6, v180_ix x0 x1 c arg1 harg1 arg2 harg2 arg3 harg3 arg4 harg4 arg5 harg5 arg6 harg6, v185_ix x0 x1 c arg1 harg1 arg2 harg2 arg3 harg3 arg4 harg4 arg5 harg5 arg6 harg6, v190_ix x0 x1 c arg1 harg1 arg2 harg2 arg3 harg3 arg4 harg4 arg5 harg5 arg6 harg6, v195_ix x0 x1 c arg1 harg1 arg2 harg2 arg3 harg3 arg4 harg4 arg5 harg5 arg6 harg6, v200_ix x0 x1 c arg1 harg1 arg2 harg2 arg3 harg3 arg4 harg4 arg5 harg5 arg6 harg6, v204_ix x0 x1 c arg1 harg1 arg2 harg2 arg3 harg3 arg4 harg4 arg5 harg5 arg6 harg6, v323_ix x0 x1 c arg1 harg1 arg2 harg2 arg3 harg3 arg4 harg4 arg5 harg5 arg6 harg6, v327_ix x0 x1 c arg1 harg1 arg2 harg2 arg3 harg3 arg4 harg4 arg5 harg5 arg6 harg6]
  rfl

set_option maxHeartbeats 2000000 in
/-- The second step. -/
theorem cur2_ix (i j : Fin 512) :
    (k0_pay58 (kernelRun0_A.sl.r_10 (F := Ideal) c arg2 harg2 x1) (kernelRun0_A.sl.r_11 (F := Ideal) c arg1 harg1 arg4 arg5 arg6 x0) (kernelRun0_A.sl.r_16 (F := Ideal) c arg1 harg1 arg2 harg2 arg4 arg5 arg6 x0 x1) (kernelRun0_A.sl.r_17 (F := Ideal) c arg1 harg1 arg2 harg2 arg4 arg5 arg6 x0 x1) (kernelRun0_A.sl.r_18 (F := Ideal) c arg1 harg1 arg2 harg2 arg4 arg5 arg6 x0 x1) (kernelRun0_A.sl.r_19 (F := Ideal) c arg1 harg1 arg2 harg2 arg4 arg5 arg6 x0 x1) (kernelRun0_A.sl.v180 (F := Ideal) c arg1 harg1 arg4 arg5 x0) (kernelRun0_A.sl.v185 (F := Ideal) c arg1 harg1 arg4 arg5 x0) (kernelRun0_A.sl.v190 (F := Ideal) c arg1 harg1 arg4 arg5 x0) (kernelRun0_A.sl.v195 (F := Ideal) c arg1 harg1 arg4 arg5 x0) (kernelRun0_A.sl.v200 (F := Ideal) c arg1 harg1 arg4 arg5 x0) (kernelRun0_A.sl.v204 (F := Ideal) c arg1 harg1 arg4 arg5 x0)) (ix2 i j)
      = kstep oneL (Gx x0) (Rx x1) (kstep oneL (Gx x0) (Rx x1) (Rx x1)) i j := by
  simp only [k0_pay58, kernelRun0_A.sl.r_16, kernelRun0_A.sl.r_17, kernelRun0_A.sl.r_18, kernelRun0_A.sl.r_19, k0_pay55, k0_pay56, k0_pay57, mulf_apply, addf_apply, cast_3to2, cast_2to4]
  rots
  simp only [cast_3to2, cast_2to4, raw_ix x0 x1 c arg1 harg1 arg2 harg2 arg3 harg3 arg4 harg4 arg5 harg5 arg6 harg6, r10_ix x0 x1 c arg1 harg1 arg2 harg2 arg3 harg3 arg4 harg4 arg5 harg5 arg6 harg6, omg_ix x0 x1 c arg1 harg1 arg2 harg2 arg3 harg3 arg4 harg4 arg5 harg5 arg6 harg6 ha,
    v172_ix x0 x1 c arg1 harg1 arg2 harg2 arg3 harg3 arg4 harg4 arg5 harg5 arg6 harg6, v176_ix x0 x1 c arg1 harg1 arg2 harg2 arg3 harg3 arg4 harg4 arg5 harg5 arg6 harg6, v180_ix x0 x1 c arg1 harg1 arg2 harg2 arg3 harg3 arg4 harg4 arg5 harg5 arg6 harg6, v185_ix x0 x1 c arg1 harg1 arg2 harg2 arg3 harg3 arg4 harg4 arg5 harg5 arg6 harg6, v190_ix x0 x1 c arg1 harg1 arg2 harg2 arg3 harg3 arg4 harg4 arg5 harg5 arg6 harg6, v195_ix x0 x1 c arg1 harg1 arg2 harg2 arg3 harg3 arg4 harg4 arg5 harg5 arg6 harg6, v200_ix x0 x1 c arg1 harg1 arg2 harg2 arg3 harg3 arg4 harg4 arg5 harg5 arg6 harg6, v204_ix x0 x1 c arg1 harg1 arg2 harg2 arg3 harg3 arg4 harg4 arg5 harg5 arg6 harg6, v323_ix x0 x1 c arg1 harg1 arg2 harg2 arg3 harg3 arg4 harg4 arg5 harg5 arg6 harg6, v327_ix x0 x1 c arg1 harg1 arg2 harg2 arg3 harg3 arg4 harg4 arg5 harg5 arg6 harg6, cur1_ix x0 x1 c arg1 harg1 arg2 harg2 arg3 harg3 arg4 harg4 arg5 harg5 arg6 harg6 ha]
  rfl

set_option maxHeartbeats 2000000 in
/-- The third step. -/
theorem cur3_ix (i j : Fin 512) :
    (k0_pay65 (kernelRun0_A.sl.r_10 (F := Ideal) c arg2 harg2 x1) (kernelRun0_A.sl.r_11 (F := Ideal) c arg1 harg1 arg4 arg5 arg6 x0) (kernelRun0_A.sl.r_24 (F := Ideal) c arg1 harg1 arg2 harg2 arg4 arg5 arg6 x0 x1) (kernelRun0_A.sl.r_25 (F := Ideal) c arg1 harg1 arg4 arg5 x0) (kernelRun0_A.sl.r_26 (F := Ideal) c arg1 harg1 arg2 harg2 arg4 arg5 arg6 x0 x1)) (ix2 i j)
      = kstep oneL (Gx x0) (Rx x1) (kstep oneL (Gx x0) (Rx x1) (kstep oneL (Gx x0) (Rx x1) (Rx x1))) i j := by
  simp only [k0_pay65, kernelRun0_A.sl.r_24, kernelRun0_A.sl.r_25, kernelRun0_A.sl.r_26, kernelRun0_A.sl.r_20, kernelRun0_A.sl.r_21, kernelRun0_A.sl.r_22, kernelRun0_A.sl.r_23, k0_pay62, k0_pay63, k0_pay64, k0_pay59, k0_pay60, k0_pay61, mulf_apply, addf_apply, cast_3to2, cast_2to4]
  rots
  simp only [cast_3to2, cast_2to4, raw_ix x0 x1 c arg1 harg1 arg2 harg2 arg3 harg3 arg4 harg4 arg5 harg5 arg6 harg6, r10_ix x0 x1 c arg1 harg1 arg2 harg2 arg3 harg3 arg4 harg4 arg5 harg5 arg6 harg6, omg_ix x0 x1 c arg1 harg1 arg2 harg2 arg3 harg3 arg4 harg4 arg5 harg5 arg6 harg6 ha,
    v172_ix x0 x1 c arg1 harg1 arg2 harg2 arg3 harg3 arg4 harg4 arg5 harg5 arg6 harg6, v176_ix x0 x1 c arg1 harg1 arg2 harg2 arg3 harg3 arg4 harg4 arg5 harg5 arg6 harg6, v180_ix x0 x1 c arg1 harg1 arg2 harg2 arg3 harg3 arg4 harg4 arg5 harg5 arg6 harg6, v185_ix x0 x1 c arg1 harg1 arg2 harg2 arg3 harg3 arg4 harg4 arg5 harg5 arg6 harg6, v190_ix x0 x1 c arg1 harg1 arg2 harg2 arg3 harg3 arg4 harg4 arg5 harg5 arg6 harg6, v195_ix x0 x1 c arg1 harg1 arg2 harg2 arg3 harg3 arg4 harg4 arg5 harg5 arg6 harg6, v200_ix x0 x1 c arg1 harg1 arg2 harg2 arg3 harg3 arg4 harg4 arg5 harg5 arg6 harg6, v204_ix x0 x1 c arg1 harg1 arg2 harg2 arg3 harg3 arg4 harg4 arg5 harg5 arg6 harg6, v323_ix x0 x1 c arg1 harg1 arg2 harg2 arg3 harg3 arg4 harg4 arg5 harg5 arg6 harg6, v327_ix x0 x1 c arg1 harg1 arg2 harg2 arg3 harg3 arg4 harg4 arg5 harg5 arg6 harg6, cur2_ix x0 x1 c arg1 harg1 arg2 harg2 arg3 harg3 arg4 harg4 arg5 harg5 arg6 harg6 ha]
  rfl

set_option maxHeartbeats 2000000 in
/-- The fourth step: what the body stores. -/
theorem fin_ix (i j : Fin 512) :
    (k0_pay1 (kernelRun0_A.sl.r_10 (F := Ideal) c arg2 harg2 x1) (kernelRun0_A.sl.r_11 (F := Ideal) c arg1 harg1 arg4 arg5 arg6 x0) (kernelRun0_A.sl.r_27 (F := Ideal) c arg1 harg1 arg2 harg2 arg4 arg5 arg6 x0 x1) (kernelRun0_A.sl.r_28 (F := Ideal) c arg1 harg1 arg2 harg2 arg4 arg5 arg6 x0 x1) (kernelRun0_A.sl.v323 (F := Ideal) c arg1 harg1 arg4 arg5 x0) (kernelRun0_A.sl.v327 (F := Ideal) c arg1 harg1 arg4 arg5 x0)) (ix4 0 0 i j)
      = kresult oneL (Gx x0) (Rx x1) i j := by
  simp only [k0_pay1, kernelRun0_A.sl.r_27, kernelRun0_A.sl.r_28, k0_pay66, k0_pay67, mulf_apply, addf_apply, cast_3to2, cast_2to4]
  rots
  simp only [cast_3to2, cast_2to4, raw_ix x0 x1 c arg1 harg1 arg2 harg2 arg3 harg3 arg4 harg4 arg5 harg5 arg6 harg6, r10_ix x0 x1 c arg1 harg1 arg2 harg2 arg3 harg3 arg4 harg4 arg5 harg5 arg6 harg6, omg_ix x0 x1 c arg1 harg1 arg2 harg2 arg3 harg3 arg4 harg4 arg5 harg5 arg6 harg6 ha,
    v172_ix x0 x1 c arg1 harg1 arg2 harg2 arg3 harg3 arg4 harg4 arg5 harg5 arg6 harg6, v176_ix x0 x1 c arg1 harg1 arg2 harg2 arg3 harg3 arg4 harg4 arg5 harg5 arg6 harg6, v180_ix x0 x1 c arg1 harg1 arg2 harg2 arg3 harg3 arg4 harg4 arg5 harg5 arg6 harg6, v185_ix x0 x1 c arg1 harg1 arg2 harg2 arg3 harg3 arg4 harg4 arg5 harg5 arg6 harg6, v190_ix x0 x1 c arg1 harg1 arg2 harg2 arg3 harg3 arg4 harg4 arg5 harg5 arg6 harg6, v195_ix x0 x1 c arg1 harg1 arg2 harg2 arg3 harg3 arg4 harg4 arg5 harg5 arg6 harg6, v200_ix x0 x1 c arg1 harg1 arg2 harg2 arg3 harg3 arg4 harg4 arg5 harg5 arg6 harg6, v204_ix x0 x1 c arg1 harg1 arg2 harg2 arg3 harg3 arg4 harg4 arg5 harg5 arg6 harg6, v323_ix x0 x1 c arg1 harg1 arg2 harg2 arg3 harg3 arg4 harg4 arg5 harg5 arg6 harg6, v327_ix x0 x1 c arg1 harg1 arg2 harg2 arg3 harg3 arg4 harg4 arg5 harg5 arg6 harg6, cur3_ix x0 x1 c arg1 harg1 arg2 harg2 arg3 harg3 arg4 harg4 arg5 harg5 arg6 harg6 ha]
  rfl

/-- What the body leaves in the output's staging buffer, at a pixel: `Stencil`'s result for the staged block. -/
theorem out_ix (t : grid0.Coords) (i j : Fin 512) :
    out0_A_2 (F := Ideal) c t arg1 harg1 arg2 harg2 arg3 harg3 arg4 harg4 arg5 harg5 arg6 harg6 x0 x1 (ix4 0 0 i j) = result oneL (Gx x0) (Rx x1) i j := by
  have e : out0_A_2 (F := Ideal) c t arg1 harg1 arg2 harg2 arg3 harg3 arg4 harg4 arg5 harg5 arg6 harg6 x0 x1 = k0_pay1 (kernelRun0_A.sl.r_10 (F := Ideal) c arg2 harg2 x1) (kernelRun0_A.sl.r_11 (F := Ideal) c arg1 harg1 arg4 arg5 arg6 x0) (kernelRun0_A.sl.r_27 (F := Ideal) c arg1 harg1 arg2 harg2 arg4 arg5 arg6 x0 x1) (kernelRun0_A.sl.r_28 (F := Ideal) c arg1 harg1 arg2 harg2 arg4 arg5 arg6 x0 x1) (kernelRun0_A.sl.v323 (F := Ideal) c arg1 harg1 arg4 arg5 x0) (kernelRun0_A.sl.v327 (F := Ideal) c arg1 harg1 arg4 arg5 x0) := by
    unfold out0_A_2
    rw [View.read_writes_eq_canon _ _ _ (cover0_A_2 c t arg1 harg1 arg2 harg2 arg3 harg3 arg4 harg4 arg5 harg5 arg6 harg6 x0 x1)]
    unfold kernelRun0_A
    dsimp only
    rw [View.canon_unit_zero hz4]
  rw [e, fin_ix x0 x1 c arg1 harg1 arg2 harg2 arg3 harg3 arg4 harg4 arg5 harg5 arg6 harg6 ha, kresult_eq oneL_eq (Gx x0) (Rx x1) ha]

end Cert.KernelIdeal.KWords

end
-- ==== Proof.PreRead.lean ====
/-
  What the precondition says of the guidance array: at every pixel of every image the sum of the absolute values of the eight
  shifted guidance planes — the reference's divisor — is positive, hence not zero. (The precondition's other two conjuncts,
  that the inputs are finite, are not needed: every step of the comparison holds on all extended reals.)
-/
import proofs.«136062_j39565238731218_2_alg».proof.Pre_finite_inputs
import Idealize.ShloMosaic.Lib.ReduceAll
import Idealize.ShloMosaic.Lib.Affine
import Idealize.ShloMosaic.Lib.IdealHost
import proofs.«136062_j39565238731218_2_alg».proof.Proof.PadShift
import proofs.«136062_j39565238731218_2_alg».proof.Proof.KStencil

set_option maxRecDepth 8192

noncomputable section

namespace Cert.PreRead

open Idealize.ShloMosaic Idealize.ShloMosaic.ValueIdx Cert.Stencil Cert.PadShift Cert.Pre_finite_inputs

variable [Cert.Pre_finite_inputs.Facts]
open Cert.Pre_finite_inputs.Facts

instance : Subsingleton S_.Idx := ⟨fun a b => funext fun d => d.elim0⟩

theorem cmp_ogt_one {x y : EReal} (h : Ideal.cmp .ogt x y = 1#1) : y < x := by
  unfold Ideal.cmp at h
  by_contra hn
  simp [hn] at h

/-- The guidance planes of image `b`. -/
def planes (X0 : FVec Ideal S16x8x512x512 .f32) (b : Fin 16) : Fin 8 → Img := fun k i j => X0 (ix4 b k i j)

/-- One term of the divisor: `|plane k shifted to (p, q)|`. -/
theorem gate_abs (X0 : FVec Ideal S16x8x512x512 .f32) (k : Nat) (hk : k < 8) (p q : Nat)
    (hsl : S16x8x512x512.Slices ![0, k, 0, 0] S16x1x512x512) (hs : S16x1x514x514.Slices ![0, 0, p, q] S16x1x512x512)
    (b : Fin 16) (i j : Fin 512) :
    Host.absf (extractStridedSlice S16x1x512x512 ![0, 0, p, q]
        (pad S16x1x514x514 ![0, 0, 1, 1] ![0, 0, 1, 1] ![0, 0, 0, 0] (extractStridedSlice S16x1x512x512 ![0, k, 0, 0] X0 hsl)
          (constant (F := Ideal) S_ .f32 0x00000000#32) pads_S16x1x512x512_S16x1x514x514_000_000_110_110 h_S_) hs) (ix4 b 0 i j)
      = eabs (zshift (planes X0 b ⟨k, hk⟩) p q i j) := by
  show eabs _ = _
  rw [pad_slice4_zshift _ _ _ _ (show constant (F := Ideal) S_ .f32 0x00000000#32 (Shape.Idx.first h_S_) = 0 from Ideal.ofBits_zero_f32)]
  congr 2
  funext i' j'
  exact extractStridedSlice_apply _ X0 hsl (ix4 b 0 i' j') (ix4 b ⟨k, hk⟩ i' j') (by
    intro a
    match a with
    | ⟨0, _⟩ => show b.val = 0 + b.val; omega
    | ⟨1, _⟩ => show k = k + 0; rfl
    | ⟨2, _⟩ => show i'.val = 0 + i'.val; omega
    | ⟨3, _⟩ => show j'.val = 0 + j'.val; omega)

/-- The precondition makes the divisor nonzero at every pixel. -/
theorem aw_ne_zero (X0 : FVec Ideal S16x8x512x512 .f32) (X1 : FVec Ideal S16x1x512x512 .f32)
    (h : Cert.Pre_finite_inputs.fn (F := Ideal) X0 X1 = fun _ => 1#1) (b : Fin 16) (i j : Fin 512) :
    aw (planes X0 b) i j ≠ 0 := by
  have h0 := congrFun h ix0
  dsimp only [fn, fn_part1, fn_part2] at h0
  have h1 := (IntOp.andi_eq_one.mp h0).2
  have h2 := Host.reduce_andi_all _ _ _ _ _ h1 (ix4 b 0 i j)
  have h3 := cmp_ogt_one h2
  rw [broadcastInDim_scalar_apply] at h3
  simp only [addf_apply,
    gate_abs X0 0 (by decide) 2 2 _ _ b i j,
    gate_abs X0 1 (by decide) 2 1 _ _ b i j,
    gate_abs X0 2 (by decide) 2 0 _ _ b i j,
    gate_abs X0 3 (by decide) 1 2 _ _ b i j,
    gate_abs X0 4 (by decide) 1 0 _ _ b i j,
    gate_abs X0 5 (by decide) 0 2 _ _ b i j,
    gate_abs X0 6 (by decide) 0 1 _ _ b i j,
    gate_abs X0 7 (by decide) 0 0 _ _ b i j] at h3
  have e := sum8 (fun k => eabs (sh (planes X0 b) k i j))
  have hz : (constant (F := Ideal) S_ .f32 0x00000000#32 ix0 : EReal) = 0 := Ideal.ofBits_zero_f32
  rw [hz] at h3
  have hpos : 0 < aw (planes X0 b) i j := by
    unfold aw
    rw [← e]
    exact h3
  exact ne_of_gt hpos

end Cert.PreRead

end
-- ==== Proof.KValue.lean ====
/-
  From blocks to the array: the kernel launches its body once per image `b` (grid point `b`), each point staging image `b`'s eight
  guidance planes and its input image whole and writing image `b` of the result back; the sixteen blocks tile the result array. So
  the result array holds, at `(b, 0, i, j)`, `Stencil`'s result for image `b` at pixel `(i, j)`.
-/
import proofs.«136062_j39565238731218_2_alg».proof.Proof.Gen.KernelIdeal.Value
import proofs.«136062_j39565238731218_2_alg».proof.Proof.KSteps
import proofs.«136062_j39565238731218_2_alg».proof.Proof.PreRead

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Gen Cert.KernelIdeal.Value Cert.KernelIdeal.KWords Cert.Stencil Cert.PreRead

variable (m : (ℓ : Loc nD τ sig) → Buf (Elt Ideal) ℓ) (ρ : Dev nD → PrngReg)

/-- The result array as a function of the two argument arrays. -/
def Gres (X0 : FVec Ideal S16x8x512x512 .f32) (X1 : FVec Ideal S16x1x512x512 .f32) : FVec Ideal S16x1x512x512 .f32 :=
  fun y => result oneL (planes X0 (y 0)) (fun i j => X1 (ix4 (y 0) 0 i j)) (y 2) (y 3)

/-- The printed index maps, decided over the grid: point `t` stages and writes back block `(t, 0, 0, 0)` of each array. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

theorem t_lt (t : Fin cfg0.N) : t.val < 16 := t.isLt

/-- The guidance block staged at point `t` is image `t`'s planes. -/
theorem Gx_iblk (c : Dev nD) (t : Fin cfg0.N) :
    Gx (iblk m c 0 t) = planes (V m c main_arg0) ⟨t.val, t_lt t⟩ := by
  obtain ⟨e0, e1, e2, e3, -⟩ := idx_facts t
  funext k i j
  show V m c main_arg0 (((cfg0.win 0).blk t).view.emb (ix4 0 k i j)) = V m c main_arg0 (ix4 ⟨t.val, t_lt t⟩ k i j)
  refine congrArg _ (funext fun a => Fin.ext ?_)
  match a with
  | ⟨0, _⟩ => show win0_0.index t (0 : Fin 4) * 1 + 1 * 0 = t.val; omega
  | ⟨1, _⟩ => show win0_0.index t (1 : Fin 4) * 8 + 1 * k.val = k.val; omega
  | ⟨2, _⟩ => show win0_0.index t (2 : Fin 4) * 512 + 1 * i.val = i.val; omega
  | ⟨3, _⟩ => show win0_0.index t (3 : Fin 4) * 512 + 1 * j.val = j.val; omega

/-- The input block staged at point `t` is image `t`. -/
theorem Rx_iblk (c : Dev nD) (t : Fin cfg0.N) :
    Rx (iblk m c 1 t) = fun i j => V m c main_arg1 (ix4 ⟨t.val, t_lt t⟩ 0 i j) := by
  obtain ⟨-, -, -, -, e0, e1, e2, e3, -⟩ := idx_facts t
  funext i j
  show V m c main_arg1 (((cfg0.win 1).blk t).view.emb (ix4 0 0 i j)) = V m c main_arg1 (ix4 ⟨t.val, t_lt t⟩ 0 i j)
  refine congrArg _ (funext fun a => Fin.ext ?_)
  match a with
  | ⟨0, _⟩ => show win0_1.index t (0 : Fin 4) * 1 + 1 * 0 = t.val; omega
  | ⟨1, _⟩ => show win0_1.index t (1 : Fin 4) * 1 + 1 * 0 = 0; omega
  | ⟨2, _⟩ => show win0_1.index t (2 : Fin 4) * 512 + 1 * i.val = i.val; omega
  | ⟨3, _⟩ => show win0_1.index t (3 : Fin 4) * 512 + 1 * j.val = j.val; omega

/-- An index of the result array is in point `t`'s block iff each coordinate is in the block's range on its axis. -/
theorem mem_blk (t : Fin cfg0.N) (i : S16x1x512x512.Idx) :
    i ∈ ((cfg0.win 2).blk t).view.set ↔ ∀ a : Fin 4, win0_2.index t a * S1x1x512x512.size a ≤ (i a).val ∧ (i a).val < win0_2.index t a * S1x1x512x512.size a + S1x1x512x512.size a := by
  show i ∈ ((View.whole main_v0).slice (win0_2.rect t)).set ↔ _
  rw [View.set_slice_whole, Rect.mem_set_unit]
  exact Iff.rfl

variable (hm : ∀ (c : Dev nD) (b : Fin 16) (i j : Fin 512), aw (planes (V m c main_arg0) b) i j ≠ 0)
include hm

/-- What point `t` writes back is block `t` of `Gres` of the argument arrays. -/
theorem flushed_eq (c : Dev nD) (t : Fin cfg0.N) :
    (dats m 0 c).flushed 2 t = ((cfg0.win 2).blk t).view.read (Elt Ideal) (Gres (V m c main_arg0) (V m c main_arg1)) := by
  rw [flushed2_A]
  obtain ⟨-, -, -, -, -, -, -, -, e0, e1, e2, e3⟩ := idx_facts t
  have key : ∀ y : S1x1x512x512.Idx,
      out0_A_2 (F := Ideal) c (grid0.coords t) (ms0_0 t) (hs0_0 t) (ms0_1 t) (hs0_1 t) (ms0_2 t) (hs0_2 t) scM0_0 (Memref.isWhole_whole _)
        scM0_1 (Memref.isWhole_whole _) scM0_2 (Memref.isWhole_whole _) (iblk m c 0 t) (iblk m c 1 t) y
      = Gres (V m c main_arg0) (V m c main_arg1) (((cfg0.win 2).blk t).view.emb y) := by
    intro y
    obtain ⟨i, j, rfl⟩ : ∃ i j : Fin 512, y = ix4 0 0 i j := ⟨y 2, y 3, by
      have h0 : y 0 = (0 : Fin 1) := Fin.ext (by have h : (y 0).val < 1 := (y 0).isLt; show (y 0).val = 0; omega)
      have h1 : y 1 = (0 : Fin 1) := Fin.ext (by have h : (y 1).val < 1 := (y 1).isLt; show (y 1).val = 0; omega)
      refine (eq_ix4 y).trans ?_
      rw [h0, h1]
      rfl⟩
    rw [out_ix (iblk m c 0 t) (iblk m c 1 t) c (ms0_0 t) (hs0_0 t) (ms0_1 t) (hs0_1 t) (ms0_2 t) (hs0_2 t) scM0_0 (Memref.isWhole_whole _)
      scM0_1 (Memref.isWhole_whole _) scM0_2 (Memref.isWhole_whole _)
      (by rw [Gx_iblk]; exact hm c _) (grid0.coords t) i j]
    rw [Gx_iblk, Rx_iblk]
    have h0 : (((cfg0.win 2).blk t).view.emb (ix4 0 0 i j)) 0 = ⟨t.val, t_lt t⟩ := Fin.ext (by
      show win0_2.index t (0 : Fin 4) * 1 + 1 * 0 = t.val; omega)
    have h2 : (((cfg0.win 2).blk t).view.emb (ix4 0 0 i j)) 2 = i := Fin.ext (by
      show win0_2.index t (2 : Fin 4) * 512 + 1 * i.val = i.val; omega)
    have h3 : (((cfg0.win 2).blk t).view.emb (ix4 0 0 i j)) 3 = j := Fin.ext (by
      show win0_2.index t (3 : Fin 4) * 512 + 1 * j.val = j.val; omega)
    unfold Gres
    rw [h0, h2, h3]
    rfl
  exact funext key

/-- The result array after the run. -/
theorem final (c : Dev nD) : (dats m 0 c).arrAt 2 cfg0.N = Gres (m ((c : Thread nD τ).loc main_arg0)) (m ((c : Thread nD τ).loc main_arg1)) := by
  refine (dats m 0 c).arrAt_eq_of_cover 2 (Gres (V m c main_arg0) (V m c main_arg1)) (fun t _ => flushed_eq m hm c t) ?_
  intro i
  have hi0 : (i 0).val < 16 := (i 0).isLt
  have hi1 : (i 1).val < 1 := (i 1).isLt
  have hi2 : (i 2).val < 512 := (i 2).isLt
  have hi3 : (i 3).val < 512 := (i 3).isLt
  refine ⟨⟨(i 0).val, hi0⟩, flush0_2 _, ?_⟩
  obtain ⟨-, -, -, -, -, -, -, -, e0', e1, e2, e3⟩ := idx_facts ⟨(i 0).val, hi0⟩
  have e0 : win0_2.index ⟨(i 0).val, hi0⟩ (0 : Fin 4) = (i 0).val := e0'
  clear e0'
  rw [mem_blk]
  intro a
  match a with
  | ⟨0, _⟩ => show win0_2.index ⟨(i 0).val, hi0⟩ (0 : Fin 4) * 1 ≤ (i 0).val ∧ (i 0).val < win0_2.index ⟨(i 0).val, hi0⟩ (0 : Fin 4) * 1 + 1; omega
  | ⟨1, _⟩ => show win0_2.index ⟨(i 0).val, hi0⟩ (1 : Fin 4) * 1 ≤ (i 1).val ∧ (i 1).val < win0_2.index ⟨(i 0).val, hi0⟩ (1 : Fin 4) * 1 + 1; omega
  | ⟨2, _⟩ => show win0_2.index ⟨(i 0).val, hi0⟩ (2 : Fin 4) * 512 ≤ (i 2).val ∧ (i 2).val < win0_2.index ⟨(i 0).val, hi0⟩ (2 : Fin 4) * 512 + 512; omega
  | ⟨3, _⟩ => show win0_2.index ⟨(i 0).val, hi0⟩ (3 : Fin 4) * 512 ≤ (i 3).val ∧ (i 3).val < win0_2.index ⟨(i 0).val, hi0⟩ (3 : Fin 4) * 512 + 512; omega

/-- The kernel's run: the result array at `Gres` of the argument arrays, the arguments unchanged. -/
theorem run : θ_run defs (onTc (τ := τ) (main (F := Ideal))) ⟨m, fun _ => 0, ρ⟩ fun r => ∀ c : Dev nD,
      r.2.mem ((c : Thread nD τ).loc main_v0) = Gres (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hm c), (h c).2⟩) (Value.run_blocks m ρ)

end Cert.KernelIdeal.KValue

end
-- ==== Proof.LibSsaLocal.lean ====
/-
  Straight lines of host operations that write every buffer once.

  A line of operations is run by folding each operation's result over a valuation of the buffers (`after`). When no
  later operation writes a buffer again, what the buffer holds at the end is what its own operation left there, and
  what an operand holds at the end is what it held when the operation read it. So at the end of such a line every
  buffer holds its operation's function of what the operands hold at the end — an equation per operation, each
  mentioning only that operation, however long the line and however often a value is used.

  `not_written` turns "no operation from position K on writes r" into a decidable statement about the list of the
  references the operations write, in order (each operation of Lib/StableHlo.lean writes exactly one).
-/
import Idealize.ShloMosaic.Lib.StableHlo.Run

noncomputable section

namespace Cert.LibSsaLocal

open Idealize.ShloMosaic Idealize.ShloMosaic.TcCoe Idealize.SL.Sem Idealize.ShloMosaic.StableHlo

variable {sig : RefSig} {τ : Topo} {Val : EltTy → Type}

/-- Running two lines one after the other. -/
theorem after_append (l₁ l₂ : List (HloOp τ sig Val)) (F : Valuation τ sig Val) :
    after (l₁ ++ l₂) F = after l₂ (after l₁ F) := by
  induction l₁ generalizing F with
  | nil => rfl
  | cons op l ih => rw [List.cons_append, after_cons, after_cons, ih]

/-- A line cut at any position. -/
theorem after_take_drop (ops : List (HloOp τ sig Val)) (K : Nat) (F : Valuation τ sig Val) :
    after ops F = after (ops.drop K) (after (ops.take K) F) := by
  rw [← after_append, List.take_append_drop]

/-- A buffer no operation writes from position `K` on ends at what it held after the first `K` operations. -/
theorem after_eq_take (ops : List (HloOp τ sig Val)) (K : Nat) (F : Valuation τ sig Val) (b : DevRef τ sig)
    (h : ∀ o ∈ ops.drop K, b ∉ o.writes) : after ops F b = after (ops.take K) F b := by
  rw [after_take_drop ops K F]
  exact after_of_forall_not_mem _ _ h

/-- A buffer written by the operation at position `K` and by none after it ends at that operation's result, computed
    from the valuation the first `K` operations leave. -/
theorem after_at (ops : List (HloOp τ sig Val)) (K : Nat) (op : HloOp τ sig Val)
    (hop : ops.drop K = op :: ops.drop (K + 1)) (F : Valuation τ sig Val) (y : DevRef τ sig)
    (hy : ∀ o ∈ ops.drop (K + 1), y ∉ o.writes) :
    after ops F y = op.result (after (ops.take K) F) y := by
  rw [after_take_drop ops K F, hop, after_cons]
  exact after_of_forall_not_mem _ _ hy

/-- When the operations write, in order, exactly the references `ws`, a reference absent from `ws` past position `K`
    is written by no operation from position `K` on. -/
theorem not_written (ops : List (HloOp τ sig Val)) (ws : List (Ref sig .tc))
    (hws : ops.map (fun o => o.writes) = ws.map (fun r => ({Proc.devRef .tc r} : Finset (DevRef τ sig))))
    (K : Nat) (r : Ref sig .tc) (h : r ∉ ws.drop K) : ∀ o ∈ ops.drop K, Proc.devRef .tc r ∉ o.writes := by
  intro o ho hmem
  have h1 : o.writes ∈ (ops.drop K).map (fun o => o.writes) := List.mem_map.mpr ⟨o, ho, rfl⟩
  rw [List.map_drop, hws, ← List.map_drop] at h1
  obtain ⟨r', hr', e⟩ := List.mem_map.mp h1
  rw [← e, Finset.mem_singleton] at hmem
  exact h (Proc.devRef_injective _ hmem ▸ hr')

end Cert.LibSsaLocal

end
-- ==== Proof.RefRun.lean ====
/-
  The reference program's run, stretch by stretch.

  Its 269 host operations are cut into five stretches: the gates (the eight shifted guidance planes, their normaliser,
  the quotient and the gates' sum), and the four propagation steps. Each stretch's result is ONE function of what the
  buffers it reads held before it — `GW`, `GS` for the gates, `STEP` for a propagation step, the same function all four
  times — so the program's result is `STEP` applied four times from the input image, with the gates computed once. (Written
  out over the arguments alone the result would repeat the first step 8^4 times.)
-/
import proofs.«136062_j39565238731218_2_alg».proof.Proof.RefRunOps
import proofs.«136062_j39565238731218_2_alg».proof.Proof.LibSsaLocal

set_option maxRecDepth 8192

noncomputable section

namespace Cert.ReferenceIdeal.RefRun

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-! ## The stretches' functions -/

/-- The padding value: the integer `0` converted. -/
def zpad : (⟨S_, .f32⟩ : BufTy).Contents (Elt F) := sitofp .f32 (constantI S_ 32 0#32)

/-- Guidance plane `k` shifted to a neighbour: the plane cut out, padded with zeros by one on each side of the image, and
    cut back at offsets `(p, q)`. -/
def gshift (k p q : Nat) (hk : S16x8x512x512.Slices ![0, k, 0, 0] S16x1x512x512) (hs : S16x514x514.Slices ![0, p, q] S16x512x512)
    (x0 : (⟨S16x8x512x512, .f32⟩ : BufTy).Contents (Elt F)) : (⟨S16x1x512x512, .f32⟩ : BufTy).Contents (Elt F) :=
  broadcastInDim S16x1x512x512 ![0, 2, 3] bcast_S16x512x512_S16x1x512x512_0_2_3
    (extractStridedSlice S16x512x512 ![0, p, q]
      (pad S16x514x514 ![0, 1, 1] ![0, 1, 1] ![0, 0, 0]
        (shapeCast _ (extractStridedSlice S16x1x512x512 ![0, k, 0, 0] x0 hk) shapeCasts_S16x1x512x512_S16x512x512)
        zpad pads_S16x512x512_S16x514x514_000_110_110 h_S_) hs)

/-- The eight shifted planes, stacked. -/
def gates0 (x0 : (⟨S16x8x512x512, .f32⟩ : BufTy).Contents (Elt F)) : (⟨S16x8x512x512, .f32⟩ : BufTy).Contents (Elt F) :=
  concatenate S16x8x512x512 1 [⟨S16x1x512x512, gshift 0 2 2 slices_S16x8x512x512_S16x1x512x512_0_0_0_0 slices_S16x514x514_S16x512x512_0_2_2 x0⟩,
    ⟨S16x1x512x512, gshift 1 2 1 slices_S16x8x512x512_S16x1x512x512_0_1_0_0 slices_S16x514x514_S16x512x512_0_2_1 x0⟩,
    ⟨S16x1x512x512, gshift 2 2 0 slices_S16x8x512x512_S16x1x512x512_0_2_0_0 slices_S16x514x514_S16x512x512_0_2_0 x0⟩,
    ⟨S16x1x512x512, gshift 3 1 2 slices_S16x8x512x512_S16x1x512x512_0_3_0_0 slices_S16x514x514_S16x512x512_0_1_2 x0⟩,
    ⟨S16x1x512x512, gshift 4 1 0 slices_S16x8x512x512_S16x1x512x512_0_4_0_0 slices_S16x514x514_S16x512x512_0_1_0 x0⟩,
    ⟨S16x1x512x512, gshift 5 0 2 slices_S16x8x512x512_S16x1x512x512_0_5_0_0 slices_S16x514x514_S16x512x512_0_0_2 x0⟩,
    ⟨S16x1x512x512, gshift 6 0 1 slices_S16x8x512x512_S16x1x512x512_0_6_0_0 slices_S16x514x514_S16x512x512_0_0_1 x0⟩,
    ⟨S16x1x512x512, gshift 7 0 0 slices_S16x8x512x512_S16x1x512x512_0_7_0_0 slices_S16x514x514_S16x512x512_0_0_0 x0⟩]
    concatenates_S16x1x512x512_S16x1x512x512_S16x1x512x512_S16x1x512x512_S16x1x512x512_S16x1x512x512_S16x1x512x512_S16x1x512x512_S16x8x512x512_d1

/-- The normaliser: the sum over the planes of their absolute values. -/
def absw (x0 : (⟨S16x8x512x512, .f32⟩ : BufTy).Contents (Elt F)) : (⟨S16x512x512, .f32⟩ : BufTy).Contents (Elt F) :=
  Host.reduceAdd (Host.absf (gates0 x0)) (constant S_ .f32 0x00000000#32) reducesTo_S16x8x512x512_S16x512x512_d1 h_S_

/-- The gates: the shifted planes over the normaliser. -/
def GW (x0 : (⟨S16x8x512x512, .f32⟩ : BufTy).Contents (Elt F)) : (⟨S16x8x512x512, .f32⟩ : BufTy).Contents (Elt F) :=
  Host.divf (gates0 x0) (broadcastInDim S16x8x512x512 ![0, 1, 2, 3] bcast_S16x1x512x512_S16x8x512x512_0_1_2_3
    (broadcastInDim S16x1x512x512 ![0, 2, 3] bcast_S16x512x512_S16x1x512x512_0_2_3 (absw x0)))

/-- The gates' sum. -/
def GS (gw : (⟨S16x8x512x512, .f32⟩ : BufTy).Contents (Elt F)) : (⟨S16x512x512, .f32⟩ : BufTy).Contents (Elt F) :=
  Host.reduceAdd gw (constant S_ .f32 0x00000000#32) reducesTo_S16x8x512x512_S16x512x512_d1 h_S_

/-- The current image shifted to a neighbour (padded by zeros, cut back at `(p, q)`), with a unit axis for the stack. -/
def cshift (p q : Nat) (hs : S16x1x514x514.Slices ![0, 0, p, q] S16x1x512x512) (cur : (⟨S16x1x512x512, .f32⟩ : BufTy).Contents (Elt F)) : (⟨S16x1x1x512x512, .f32⟩ : BufTy).Contents (Elt F) :=
  broadcastInDim S16x1x1x512x512 ![0, 2, 3, 4] bcast_S16x1x512x512_S16x1x1x512x512_0_2_3_4
    (extractStridedSlice S16x1x512x512 ![0, 0, p, q]
      (pad S16x1x514x514 ![0, 0, 1, 1] ![0, 0, 1, 1] ![0, 0, 0, 0] cur zpad pads_S16x1x512x512_S16x1x514x514_000_000_110_110 h_S_) hs)

/-- The eight shifted images, stacked. -/
def stack (cur : (⟨S16x1x512x512, .f32⟩ : BufTy).Contents (Elt F)) : (⟨S16x8x1x512x512, .f32⟩ : BufTy).Contents (Elt F) :=
  concatenate S16x8x1x512x512 1 [⟨S16x1x1x512x512, cshift 2 2 slices_S16x1x514x514_S16x1x512x512_0_0_2_2 cur⟩,
    ⟨S16x1x1x512x512, cshift 2 1 slices_S16x1x514x514_S16x1x512x512_0_0_2_1 cur⟩,
    ⟨S16x1x1x512x512, cshift 2 0 slices_S16x1x514x514_S16x1x512x512_0_0_2_0 cur⟩,
    ⟨S16x1x1x512x512, cshift 1 2 slices_S16x1x514x514_S16x1x512x512_0_0_1_2 cur⟩,
    ⟨S16x1x1x512x512, cshift 1 0 slices_S16x1x514x514_S16x1x512x512_0_0_1_0 cur⟩,
    ⟨S16x1x1x512x512, cshift 0 2 slices_S16x1x514x514_S16x1x512x512_0_0_0_2 cur⟩,
    ⟨S16x1x1x512x512, cshift 0 1 slices_S16x1x514x514_S16x1x512x512_0_0_0_1 cur⟩,
    ⟨S16x1x1x512x512, cshift 0 0 slices_S16x1x514x514_S16x1x512x512_0_0_0_0 cur⟩]
    concatenates_S16x1x1x512x512_S16x1x1x512x512_S16x1x1x512x512_S16x1x1x512x512_S16x1x1x512x512_S16x1x1x512x512_S16x1x1x512x512_S16x1x1x512x512_S16x8x1x512x512_d1

/-- The gated sum of the shifted images. -/
def ACC (gw : (⟨S16x8x512x512, .f32⟩ : BufTy).Contents (Elt F)) (cur : (⟨S16x1x512x512, .f32⟩ : BufTy).Contents (Elt F)) : (⟨S16x1x512x512, .f32⟩ : BufTy).Contents (Elt F) :=
  Host.reduceAdd (mulf (broadcastInDim S16x8x1x512x512 ![0, 1, 3, 4] bcast_S16x8x512x512_S16x8x1x512x512_0_1_3_4 gw) (stack cur))
    (constant S_ .f32 0x00000000#32) reducesTo_S16x8x1x512x512_S16x1x512x512_d1 h_S_

/-- `(1 - gates' sum) · raw`. -/
def BASE (gs : (⟨S16x512x512, .f32⟩ : BufTy).Contents (Elt F)) (raw : (⟨S16x1x512x512, .f32⟩ : BufTy).Contents (Elt F)) : (⟨S16x1x512x512, .f32⟩ : BufTy).Contents (Elt F) :=
  mulf (broadcastInDim S16x1x512x512 ![0, 2, 3] bcast_S16x512x512_S16x1x512x512_0_2_3
    (subf (broadcastInDim S16x512x512 ![] bcast_S_S16x512x512 (constant S_ .f32 0x3F800000#32)) gs)) raw

/-- One propagation step. -/
def STEP (gw : (⟨S16x8x512x512, .f32⟩ : BufTy).Contents (Elt F)) (gs : (⟨S16x512x512, .f32⟩ : BufTy).Contents (Elt F)) (raw cur : (⟨S16x1x512x512, .f32⟩ : BufTy).Contents (Elt F)) : (⟨S16x1x512x512, .f32⟩ : BufTy).Contents (Elt F) :=
  addf (BASE gs raw) (ACC gw cur)

/-! ## What each stretch leaves -/

theorem pre_gw (V : Valuation τ sig (Elt F)) :
    after (opsPre (F := F)) V (Proc.devRef .tc main_v45) = GW (V (Proc.devRef .tc main_arg0)) := by
  after_results_simp <;> rfl

theorem pre_gs (V : Valuation τ sig (Elt F)) :
    after (opsPre (F := F)) V (Proc.devRef .tc main_v46) = GS (GW (V (Proc.devRef .tc main_arg0))) := by
  after_results_simp <;> rfl

theorem pre_arg0 (V : Valuation τ sig (Elt F)) :
    after (opsPre (F := F)) V (Proc.devRef .tc main_arg0) = V (Proc.devRef .tc main_arg0) := by
  after_results_simp

theorem pre_arg1 (V : Valuation τ sig (Elt F)) :
    after (opsPre (F := F)) V (Proc.devRef .tc main_arg1) = V (Proc.devRef .tc main_arg1) := by
  after_results_simp

theorem it1_out (V : Valuation τ sig (Elt F)) :
    after (opsIt1 (F := F)) V (Proc.devRef .tc main_v79) = STEP (V (Proc.devRef .tc main_v45)) (V (Proc.devRef .tc main_v46)) (V (Proc.devRef .tc main_arg1)) (V (Proc.devRef .tc main_arg1)) := by
  after_results_simp <;> rfl

theorem it1_gw (V : Valuation τ sig (Elt F)) :
    after (opsIt1 (F := F)) V (Proc.devRef .tc main_v45) = V (Proc.devRef .tc main_v45) := by
  after_results_simp

theorem it1_gs (V : Valuation τ sig (Elt F)) :
    after (opsIt1 (F := F)) V (Proc.devRef .tc main_v46) = V (Proc.devRef .tc main_v46) := by
  after_results_simp

theorem it1_arg0 (V : Valuation τ sig (Elt F)) :
    after (opsIt1 (F := F)) V (Proc.devRef .tc main_arg0) = V (Proc.devRef .tc main_arg0) := by
  after_results_simp

theorem it1_arg1 (V : Valuation τ sig (Elt F)) :
    after (opsIt1 (F := F)) V (Proc.devRef .tc main_arg1) = V (Proc.devRef .tc main_arg1) := by
  after_results_simp

theorem it2_out (V : Valuation τ sig (Elt F)) :
    after (opsIt2 (F := F)) V (Proc.devRef .tc main_v112) = STEP (V (Proc.devRef .tc main_v45)) (V (Proc.devRef .tc main_v46)) (V (Proc.devRef .tc main_arg1)) (V (Proc.devRef .tc main_v79)) := by
  after_results_simp <;> rfl

theorem it2_gw (V : Valuation τ sig (Elt F)) :
    after (opsIt2 (F := F)) V (Proc.devRef .tc main_v45) = V (Proc.devRef .tc main_v45) := by
  after_results_simp

theorem it2_gs (V : Valuation τ sig (Elt F)) :
    after (opsIt2 (F := F)) V (Proc.devRef .tc main_v46) = V (Proc.devRef .tc main_v46) := by
  after_results_simp

theorem it2_arg0 (V : Valuation τ sig (Elt F)) :
    after (opsIt2 (F := F)) V (Proc.devRef .tc main_arg0) = V (Proc.devRef .tc main_arg0) := by
  after_results_simp

theorem it2_arg1 (V : Valuation τ sig (Elt F)) :
    after (opsIt2 (F := F)) V (Proc.devRef .tc main_arg1) = V (Proc.devRef .tc main_arg1) := by
  after_results_simp

theorem it3_out (V : Valuation τ sig (Elt F)) :
    after (opsIt3 (F := F)) V (Proc.devRef .tc main_v145) = STEP (V (Proc.devRef .tc main_v45)) (V (Proc.devRef .tc main_v46)) (V (Proc.devRef .tc main_arg1)) (V (Proc.devRef .tc main_v112)) := by
  after_results_simp <;> rfl

theorem it3_gw (V : Valuation τ sig (Elt F)) :
    after (opsIt3 (F := F)) V (Proc.devRef .tc main_v45) = V (Proc.devRef .tc main_v45) := by
  after_results_simp

theorem it3_gs (V : Valuation τ sig (Elt F)) :
    after (opsIt3 (F := F)) V (Proc.devRef .tc main_v46) = V (Proc.devRef .tc main_v46) := by
  after_results_simp

theorem it3_arg0 (V : Valuation τ sig (Elt F)) :
    after (opsIt3 (F := F)) V (Proc.devRef .tc main_arg0) = V (Proc.devRef .tc main_arg0) := by
  after_results_simp

theorem it3_arg1 (V : Valuation τ sig (Elt F)) :
    after (opsIt3 (F := F)) V (Proc.devRef .tc main_arg1) = V (Proc.devRef .tc main_arg1) := by
  after_results_simp

theorem it4_out (V : Valuation τ sig (Elt F)) :
    after (opsIt4 (F := F)) V (Proc.devRef .tc main_v178) = STEP (V (Proc.devRef .tc main_v45)) (V (Proc.devRef .tc main_v46)) (V (Proc.devRef .tc main_arg1)) (V (Proc.devRef .tc main_v145)) := by
  after_results_simp <;> rfl

theorem it4_gw (V : Valuation τ sig (Elt F)) :
    after (opsIt4 (F := F)) V (Proc.devRef .tc main_v45) = V (Proc.devRef .tc main_v45) := by
  after_results_simp

theorem it4_gs (V : Valuation τ sig (Elt F)) :
    after (opsIt4 (F := F)) V (Proc.devRef .tc main_v46) = V (Proc.devRef .tc main_v46) := by
  after_results_simp

theorem it4_arg0 (V : Valuation τ sig (Elt F)) :
    after (opsIt4 (F := F)) V (Proc.devRef .tc main_arg0) = V (Proc.devRef .tc main_arg0) := by
  after_results_simp

theorem it4_arg1 (V : Valuation τ sig (Elt F)) :
    after (opsIt4 (F := F)) V (Proc.devRef .tc main_arg1) = V (Proc.devRef .tc main_arg1) := by
  after_results_simp

/-! ## The whole line -/

/-- The result: four steps from the input image, the gates computed once. -/
theorem after_result (V : Valuation τ sig (Elt F)) :
    after (ops (F := F)) V (Proc.devRef .tc main_v178)
      = STEP (GW (V (Proc.devRef .tc main_arg0))) (GS (GW (V (Proc.devRef .tc main_arg0)))) (V (Proc.devRef .tc main_arg1))
          (STEP (GW (V (Proc.devRef .tc main_arg0))) (GS (GW (V (Proc.devRef .tc main_arg0)))) (V (Proc.devRef .tc main_arg1))
            (STEP (GW (V (Proc.devRef .tc main_arg0))) (GS (GW (V (Proc.devRef .tc main_arg0)))) (V (Proc.devRef .tc main_arg1))
              (STEP (GW (V (Proc.devRef .tc main_arg0))) (GS (GW (V (Proc.devRef .tc main_arg0)))) (V (Proc.devRef .tc main_arg1)) (V (Proc.devRef .tc main_arg1))))) := by
  show after (opsPre ++ (opsIt1 ++ (opsIt2 ++ (opsIt3 ++ opsIt4)))) V _ = _
  rw [Cert.LibSsaLocal.after_append, Cert.LibSsaLocal.after_append, Cert.LibSsaLocal.after_append, Cert.LibSsaLocal.after_append]
  rw [it4_out, it3_gw, it3_gs, it3_arg1, it3_out, it2_gw, it2_gs, it2_arg1, it2_out, it1_gw, it1_gs, it1_arg1, it1_out,
    pre_gw, pre_gs, pre_arg1]

theorem after_arg0 (V : Valuation τ sig (Elt F)) :
    after (ops (F := F)) V (Proc.devRef .tc main_arg0) = V (Proc.devRef .tc main_arg0) := by
  show after (opsPre ++ (opsIt1 ++ (opsIt2 ++ (opsIt3 ++ opsIt4)))) V _ = _
  rw [Cert.LibSsaLocal.after_append, Cert.LibSsaLocal.after_append, Cert.LibSsaLocal.after_append, Cert.LibSsaLocal.after_append]
  rw [it4_arg0, it3_arg0, it2_arg0, it1_arg0, pre_arg0]

theorem after_arg1 (V : Valuation τ sig (Elt F)) :
    after (ops (F := F)) V (Proc.devRef .tc main_arg1) = V (Proc.devRef .tc main_arg1) := by
  show after (opsPre ++ (opsIt1 ++ (opsIt2 ++ (opsIt3 ++ opsIt4)))) V _ = _
  rw [Cert.LibSsaLocal.after_append, Cert.LibSsaLocal.after_append, Cert.LibSsaLocal.after_append, Cert.LibSsaLocal.after_append]
  rw [it4_arg1, it3_arg1, it2_arg1, it1_arg1, pre_arg1]

end Cert.ReferenceIdeal.RefRun

end
-- ==== Proof.RefRead.lean ====
/-
  The reference's stretches read at a pixel of image `b`: its gates are `Stencil`'s gates of the image's guidance planes, their sum
  `Stencil`'s `gs`, and one propagation step `Stencil`'s `step` — a pad by zeros followed by a slice is the zero-padded shift, a
  stack of eight read at plane `k` is its `k`-th member, and the host's sum over the stacked axis is the sum over `Fin 8` from `0`.
-/
import proofs.«136062_j39565238731218_2_alg».proof.Proof.RefRun
import proofs.«136062_j39565238731218_2_alg».proof.Proof.PreRead
import Idealize.ShloMosaic.Lib.IdealHost
import Idealize.ShloMosaic.PureOps.Ideal.Laws

set_option maxRecDepth 8192

noncomputable section

namespace Cert.ReferenceIdeal.RefRead

open Cert.ReferenceIdeal Cert.ReferenceIdeal.Gen Cert.ReferenceIdeal.RefRun Idealize.ShloMosaic Idealize.ShloMosaic.ValueIdx
open Cert.Stencil Cert.PadShift Cert.PreRead

/-- The program's constant 1.0. -/
abbrev oneL : EReal := Ideal.ofBits .f32 0x3F800000#32

theorem zpad_first : zpad (F := Ideal) (Shape.Idx.first h_S_) = 0 := by
  show ((((0#32 : BitVec 32).toInt : ℤ) : ℝ) : EReal) = 0
  simp

/-- The host's sum over the plane axis of a `[16, 8, 512, 512]` array. -/
theorem reduce_d1_4 (y : FVec Ideal S16x8x512x512 .f32) (init : FVec Ideal S_ .f32) (b : Fin 16) (i j : Fin 512) :
    (Host.reduceAdd (F := Ideal) y init reducesTo_S16x8x512x512_S16x512x512_d1 h_S_ (ix3 b i j) : EReal)
      = (init (Shape.Idx.first h_S_) : EReal) + ∑ k : Fin 8, (y (ix4 b k i j) : EReal) := by
  simp only [Host.reduceAdd, Ideal.hostReduceAdd_def]
  rw [Ideal.hostReduceAdd_single reducesTo_S16x8x512x512_S16x512x512_d1 (by decide)]
  refine congrArg (_ + ·) (Finset.sum_congr rfl fun k _ => ?_)
  exact congrArg y (funext fun a => Fin.ext (by match a with | ⟨0, _⟩ => rfl | ⟨1, _⟩ => rfl | ⟨2, _⟩ => rfl | ⟨3, _⟩ => rfl))

/-- The host's sum over the plane axis of a `[16, 8, 1, 512, 512]` array. -/
theorem reduce_d1_5 (y : FVec Ideal S16x8x1x512x512 .f32) (init : FVec Ideal S_ .f32) (b : Fin 16) (i j : Fin 512) :
    (Host.reduceAdd (F := Ideal) y init reducesTo_S16x8x1x512x512_S16x1x512x512_d1 h_S_ (ix4 b 0 i j) : EReal)
      = (init (Shape.Idx.first h_S_) : EReal) + ∑ k : Fin 8, (y (ix5 b k 0 i j) : EReal) := by
  simp only [Host.reduceAdd, Ideal.hostReduceAdd_def]
  rw [Ideal.hostReduceAdd_single reducesTo_S16x8x1x512x512_S16x1x512x512_d1 (by decide)]
  refine congrArg (_ + ·) (Finset.sum_congr rfl fun k _ => ?_)
  exact congrArg y (funext fun a => Fin.ext (by match a with | ⟨0, _⟩ => rfl | ⟨1, _⟩ => rfl | ⟨2, _⟩ => rfl | ⟨3, _⟩ => rfl | ⟨4, _⟩ => rfl))

theorem up4_ix (y : (⟨S16x512x512, .f32⟩ : BufTy).Contents (Elt Ideal)) (b : Fin 16) (i j : Fin 512) :
    broadcastInDim S16x1x512x512 ![0, 2, 3] bcast_S16x512x512_S16x1x512x512_0_2_3 y (ix4 b 0 i j) = y (ix3 b i j) :=
  broadcastInDim_apply _ bcast_S16x512x512_S16x1x512x512_0_2_3 y (ix4 b 0 i j) (ix3 b i j) (fun a => match a with
    | ⟨0, _⟩ => by show b.val = if (16 : Nat) = 1 then 0 else b.val; rw [if_neg (by decide)]
    | ⟨1, _⟩ => by show i.val = if (512 : Nat) = 1 then 0 else i.val; rw [if_neg (by decide)]
    | ⟨2, _⟩ => by show j.val = if (512 : Nat) = 1 then 0 else j.val; rw [if_neg (by decide)])

theorem up8_ix (y : (⟨S16x1x512x512, .f32⟩ : BufTy).Contents (Elt Ideal)) (b : Fin 16) (k : Fin 8) (i j : Fin 512) :
    broadcastInDim S16x8x512x512 ![0, 1, 2, 3] bcast_S16x1x512x512_S16x8x512x512_0_1_2_3 y (ix4 b k i j) = y (ix4 b 0 i j) :=
  broadcastInDim_apply _ bcast_S16x1x512x512_S16x8x512x512_0_1_2_3 y (ix4 b k i j) (ix4 b 0 i j) (fun a => match a with
    | ⟨0, _⟩ => by show b.val = if (16 : Nat) = 1 then 0 else b.val; rw [if_neg (by decide)]
    | ⟨1, _⟩ => by show (0 : Nat) = if (1 : Nat) = 1 then 0 else k.val; rw [if_pos rfl]
    | ⟨2, _⟩ => by show i.val = if (512 : Nat) = 1 then 0 else i.val; rw [if_neg (by decide)]
    | ⟨3, _⟩ => by show j.val = if (512 : Nat) = 1 then 0 else j.val; rw [if_neg (by decide)])

theorem up5_ix (y : (⟨S16x1x512x512, .f32⟩ : BufTy).Contents (Elt Ideal)) (b : Fin 16) (i j : Fin 512) :
    broadcastInDim S16x1x1x512x512 ![0, 2, 3, 4] bcast_S16x1x512x512_S16x1x1x512x512_0_2_3_4 y (ix5 b 0 0 i j) = y (ix4 b 0 i j) :=
  broadcastInDim_apply _ bcast_S16x1x512x512_S16x1x1x512x512_0_2_3_4 y (ix5 b 0 0 i j) (ix4 b 0 i j) (fun a => match a with
    | ⟨0, _⟩ => by show b.val = if (16 : Nat) = 1 then 0 else b.val; rw [if_neg (by decide)]
    | ⟨1, _⟩ => by show (0 : Nat) = if (1 : Nat) = 1 then 0 else (0 : Nat); rw [if_pos rfl]
    | ⟨2, _⟩ => by show i.val = if (512 : Nat) = 1 then 0 else i.val; rw [if_neg (by decide)]
    | ⟨3, _⟩ => by show j.val = if (512 : Nat) = 1 then 0 else j.val; rw [if_neg (by decide)])

theorem gw5_ix (y : (⟨S16x8x512x512, .f32⟩ : BufTy).Contents (Elt Ideal)) (b : Fin 16) (k : Fin 8) (i j : Fin 512) :
    broadcastInDim S16x8x1x512x512 ![0, 1, 3, 4] bcast_S16x8x512x512_S16x8x1x512x512_0_1_3_4 y (ix5 b k 0 i j) = y (ix4 b k i j) :=
  broadcastInDim_apply _ bcast_S16x8x512x512_S16x8x1x512x512_0_1_3_4 y (ix5 b k 0 i j) (ix4 b k i j) (fun a => match a with
    | ⟨0, _⟩ => by show b.val = if (16 : Nat) = 1 then 0 else b.val; rw [if_neg (by decide)]
    | ⟨1, _⟩ => by show k.val = if (8 : Nat) = 1 then 0 else k.val; rw [if_neg (by decide)]
    | ⟨2, _⟩ => by show i.val = if (512 : Nat) = 1 then 0 else i.val; rw [if_neg (by decide)]
    | ⟨3, _⟩ => by show j.val = if (512 : Nat) = 1 then 0 else j.val; rw [if_neg (by decide)])

/-- A guidance plane shifted to a neighbour, at a pixel. -/
theorem gshift_ix (X0 : (⟨S16x8x512x512, .f32⟩ : BufTy).Contents (Elt Ideal)) (k : Nat) (hk8 : k < 8) (p q : Nat)
    (hk : S16x8x512x512.Slices ![0, k, 0, 0] S16x1x512x512) (hs : S16x514x514.Slices ![0, p, q] S16x512x512)
    (b : Fin 16) (i j : Fin 512) :
    gshift k p q hk hs X0 (ix4 b 0 i j) = zshift (planes X0 b ⟨k, hk8⟩) p q i j := by
  unfold gshift
  rw [up4_ix, pad_slice3_zshift _ _ _ _ zpad_first]
  congr 2
  funext i' j'
  refine (shapeCast_apply _ shapeCasts_S16x1x512x512_S16x512x512 (ix3 b i' j') (ix4 b 0 i' j') (by
    rw [Shape.rowMajor_val_four, Shape.rowMajor_val_three]
    show ((b.val * 1 + 0) * 512 + i'.val) * 512 + j'.val = (b.val * 512 + i'.val) * 512 + j'.val
    omega)).trans ?_
  exact extractStridedSlice_apply _ X0 hk (ix4 b 0 i' j') (ix4 b ⟨k, hk8⟩ i' j') (by
    intro a
    match a with
    | ⟨0, _⟩ => show b.val = 0 + b.val; omega
    | ⟨1, _⟩ => show k = k + 0; rfl
    | ⟨2, _⟩ => show i'.val = 0 + i'.val; omega
    | ⟨3, _⟩ => show j'.val = 0 + j'.val; omega)

/-- The stacked shifted planes at plane `k`. -/
theorem gates0_ix (X0 : (⟨S16x8x512x512, .f32⟩ : BufTy).Contents (Elt Ideal)) (b : Fin 16) (k : Fin 8) (i j : Fin 512) :
    gates0 X0 (ix4 b k i j) = sh (planes X0 b) k i j := by
  unfold gates0
  fin_cases k
  · exact (concatenate_apply_piece (t := S16x8x512x512) (1 : Fin 4) [⟨S16x1x512x512, gshift 0 2 2 slices_S16x8x512x512_S16x1x512x512_0_0_0_0 slices_S16x514x514_S16x512x512_0_2_2 X0⟩, ⟨S16x1x512x512, gshift 1 2 1 slices_S16x8x512x512_S16x1x512x512_0_1_0_0 slices_S16x514x514_S16x512x512_0_2_1 X0⟩, ⟨S16x1x512x512, gshift 2 2 0 slices_S16x8x512x512_S16x1x512x512_0_2_0_0 slices_S16x514x514_S16x512x512_0_2_0 X0⟩, ⟨S16x1x512x512, gshift 3 1 2 slices_S16x8x512x512_S16x1x512x512_0_3_0_0 slices_S16x514x514_S16x512x512_0_1_2 X0⟩, ⟨S16x1x512x512, gshift 4 1 0 slices_S16x8x512x512_S16x1x512x512_0_4_0_0 slices_S16x514x514_S16x512x512_0_1_0 X0⟩, ⟨S16x1x512x512, gshift 5 0 2 slices_S16x8x512x512_S16x1x512x512_0_5_0_0 slices_S16x514x514_S16x512x512_0_0_2 X0⟩, ⟨S16x1x512x512, gshift 6 0 1 slices_S16x8x512x512_S16x1x512x512_0_6_0_0 slices_S16x514x514_S16x512x512_0_0_1 X0⟩, ⟨S16x1x512x512, gshift 7 0 0 slices_S16x8x512x512_S16x1x512x512_0_7_0_0 slices_S16x514x514_S16x512x512_0_0_0 X0⟩]
      concatenates_S16x1x512x512_S16x1x512x512_S16x1x512x512_S16x1x512x512_S16x1x512x512_S16x1x512x512_S16x1x512x512_S16x1x512x512_S16x8x512x512_d1 (ix4 b (0 : Fin 8) i j) 0 (Nat.le_of_ble_eq_true rfl) S16x1x512x512 (gshift 0 2 2 slices_S16x8x512x512_S16x1x512x512_0_0_0_0 slices_S16x514x514_S16x512x512_0_2_2 X0) rfl rfl 0 rfl
      (ix4 b 0 i j) (fun a ha => by match a with | ⟨0, _⟩ => rfl | ⟨1, _⟩ => exact absurd rfl ha | ⟨2, _⟩ => rfl | ⟨3, _⟩ => rfl) rfl).trans
      (gshift_ix X0 0 (by decide) 2 2 _ _ b i j)
  · exact (concatenate_apply_piece (t := S16x8x512x512) (1 : Fin 4) [⟨S16x1x512x512, gshift 0 2 2 slices_S16x8x512x512_S16x1x512x512_0_0_0_0 slices_S16x514x514_S16x512x512_0_2_2 X0⟩, ⟨S16x1x512x512, gshift 1 2 1 slices_S16x8x512x512_S16x1x512x512_0_1_0_0 slices_S16x514x514_S16x512x512_0_2_1 X0⟩, ⟨S16x1x512x512, gshift 2 2 0 slices_S16x8x512x512_S16x1x512x512_0_2_0_0 slices_S16x514x514_S16x512x512_0_2_0 X0⟩, ⟨S16x1x512x512, gshift 3 1 2 slices_S16x8x512x512_S16x1x512x512_0_3_0_0 slices_S16x514x514_S16x512x512_0_1_2 X0⟩, ⟨S16x1x512x512, gshift 4 1 0 slices_S16x8x512x512_S16x1x512x512_0_4_0_0 slices_S16x514x514_S16x512x512_0_1_0 X0⟩, ⟨S16x1x512x512, gshift 5 0 2 slices_S16x8x512x512_S16x1x512x512_0_5_0_0 slices_S16x514x514_S16x512x512_0_0_2 X0⟩, ⟨S16x1x512x512, gshift 6 0 1 slices_S16x8x512x512_S16x1x512x512_0_6_0_0 slices_S16x514x514_S16x512x512_0_0_1 X0⟩, ⟨S16x1x512x512, gshift 7 0 0 slices_S16x8x512x512_S16x1x512x512_0_7_0_0 slices_S16x514x514_S16x512x512_0_0_0 X0⟩]
      concatenates_S16x1x512x512_S16x1x512x512_S16x1x512x512_S16x1x512x512_S16x1x512x512_S16x1x512x512_S16x1x512x512_S16x1x512x512_S16x8x512x512_d1 (ix4 b (1 : Fin 8) i j) 1 (Nat.le_of_ble_eq_true rfl) S16x1x512x512 (gshift 1 2 1 slices_S16x8x512x512_S16x1x512x512_0_1_0_0 slices_S16x514x514_S16x512x512_0_2_1 X0) rfl rfl 1 rfl
      (ix4 b 0 i j) (fun a ha => by match a with | ⟨0, _⟩ => rfl | ⟨1, _⟩ => exact absurd rfl ha | ⟨2, _⟩ => rfl | ⟨3, _⟩ => rfl) rfl).trans
      (gshift_ix X0 1 (by decide) 2 1 _ _ b i j)
  · exact (concatenate_apply_piece (t := S16x8x512x512) (1 : Fin 4) [⟨S16x1x512x512, gshift 0 2 2 slices_S16x8x512x512_S16x1x512x512_0_0_0_0 slices_S16x514x514_S16x512x512_0_2_2 X0⟩, ⟨S16x1x512x512, gshift 1 2 1 slices_S16x8x512x512_S16x1x512x512_0_1_0_0 slices_S16x514x514_S16x512x512_0_2_1 X0⟩, ⟨S16x1x512x512, gshift 2 2 0 slices_S16x8x512x512_S16x1x512x512_0_2_0_0 slices_S16x514x514_S16x512x512_0_2_0 X0⟩, ⟨S16x1x512x512, gshift 3 1 2 slices_S16x8x512x512_S16x1x512x512_0_3_0_0 slices_S16x514x514_S16x512x512_0_1_2 X0⟩, ⟨S16x1x512x512, gshift 4 1 0 slices_S16x8x512x512_S16x1x512x512_0_4_0_0 slices_S16x514x514_S16x512x512_0_1_0 X0⟩, ⟨S16x1x512x512, gshift 5 0 2 slices_S16x8x512x512_S16x1x512x512_0_5_0_0 slices_S16x514x514_S16x512x512_0_0_2 X0⟩, ⟨S16x1x512x512, gshift 6 0 1 slices_S16x8x512x512_S16x1x512x512_0_6_0_0 slices_S16x514x514_S16x512x512_0_0_1 X0⟩, ⟨S16x1x512x512, gshift 7 0 0 slices_S16x8x512x512_S16x1x512x512_0_7_0_0 slices_S16x514x514_S16x512x512_0_0_0 X0⟩]
      concatenates_S16x1x512x512_S16x1x512x512_S16x1x512x512_S16x1x512x512_S16x1x512x512_S16x1x512x512_S16x1x512x512_S16x1x512x512_S16x8x512x512_d1 (ix4 b (2 : Fin 8) i j) 2 (Nat.le_of_ble_eq_true rfl) S16x1x512x512 (gshift 2 2 0 slices_S16x8x512x512_S16x1x512x512_0_2_0_0 slices_S16x514x514_S16x512x512_0_2_0 X0) rfl rfl 2 rfl
      (ix4 b 0 i j) (fun a ha => by match a with | ⟨0, _⟩ => rfl | ⟨1, _⟩ => exact absurd rfl ha | ⟨2, _⟩ => rfl | ⟨3, _⟩ => rfl) rfl).trans
      (gshift_ix X0 2 (by decide) 2 0 _ _ b i j)
  · exact (concatenate_apply_piece (t := S16x8x512x512) (1 : Fin 4) [⟨S16x1x512x512, gshift 0 2 2 slices_S16x8x512x512_S16x1x512x512_0_0_0_0 slices_S16x514x514_S16x512x512_0_2_2 X0⟩, ⟨S16x1x512x512, gshift 1 2 1 slices_S16x8x512x512_S16x1x512x512_0_1_0_0 slices_S16x514x514_S16x512x512_0_2_1 X0⟩, ⟨S16x1x512x512, gshift 2 2 0 slices_S16x8x512x512_S16x1x512x512_0_2_0_0 slices_S16x514x514_S16x512x512_0_2_0 X0⟩, ⟨S16x1x512x512, gshift 3 1 2 slices_S16x8x512x512_S16x1x512x512_0_3_0_0 slices_S16x514x514_S16x512x512_0_1_2 X0⟩, ⟨S16x1x512x512, gshift 4 1 0 slices_S16x8x512x512_S16x1x512x512_0_4_0_0 slices_S16x514x514_S16x512x512_0_1_0 X0⟩, ⟨S16x1x512x512, gshift 5 0 2 slices_S16x8x512x512_S16x1x512x512_0_5_0_0 slices_S16x514x514_S16x512x512_0_0_2 X0⟩, ⟨S16x1x512x512, gshift 6 0 1 slices_S16x8x512x512_S16x1x512x512_0_6_0_0 slices_S16x514x514_S16x512x512_0_0_1 X0⟩, ⟨S16x1x512x512, gshift 7 0 0 slices_S16x8x512x512_S16x1x512x512_0_7_0_0 slices_S16x514x514_S16x512x512_0_0_0 X0⟩]
      concatenates_S16x1x512x512_S16x1x512x512_S16x1x512x512_S16x1x512x512_S16x1x512x512_S16x1x512x512_S16x1x512x512_S16x1x512x512_S16x8x512x512_d1 (ix4 b (3 : Fin 8) i j) 3 (Nat.le_of_ble_eq_true rfl) S16x1x512x512 (gshift 3 1 2 slices_S16x8x512x512_S16x1x512x512_0_3_0_0 slices_S16x514x514_S16x512x512_0_1_2 X0) rfl rfl 3 rfl
      (ix4 b 0 i j) (fun a ha => by match a with | ⟨0, _⟩ => rfl | ⟨1, _⟩ => exact absurd rfl ha | ⟨2, _⟩ => rfl | ⟨3, _⟩ => rfl) rfl).trans
      (gshift_ix X0 3 (by decide) 1 2 _ _ b i j)
  · exact (concatenate_apply_piece (t := S16x8x512x512) (1 : Fin 4) [⟨S16x1x512x512, gshift 0 2 2 slices_S16x8x512x512_S16x1x512x512_0_0_0_0 slices_S16x514x514_S16x512x512_0_2_2 X0⟩, ⟨S16x1x512x512, gshift 1 2 1 slices_S16x8x512x512_S16x1x512x512_0_1_0_0 slices_S16x514x514_S16x512x512_0_2_1 X0⟩, ⟨S16x1x512x512, gshift 2 2 0 slices_S16x8x512x512_S16x1x512x512_0_2_0_0 slices_S16x514x514_S16x512x512_0_2_0 X0⟩, ⟨S16x1x512x512, gshift 3 1 2 slices_S16x8x512x512_S16x1x512x512_0_3_0_0 slices_S16x514x514_S16x512x512_0_1_2 X0⟩, ⟨S16x1x512x512, gshift 4 1 0 slices_S16x8x512x512_S16x1x512x512_0_4_0_0 slices_S16x514x514_S16x512x512_0_1_0 X0⟩, ⟨S16x1x512x512, gshift 5 0 2 slices_S16x8x512x512_S16x1x512x512_0_5_0_0 slices_S16x514x514_S16x512x512_0_0_2 X0⟩, ⟨S16x1x512x512, gshift 6 0 1 slices_S16x8x512x512_S16x1x512x512_0_6_0_0 slices_S16x514x514_S16x512x512_0_0_1 X0⟩, ⟨S16x1x512x512, gshift 7 0 0 slices_S16x8x512x512_S16x1x512x512_0_7_0_0 slices_S16x514x514_S16x512x512_0_0_0 X0⟩]
      concatenates_S16x1x512x512_S16x1x512x512_S16x1x512x512_S16x1x512x512_S16x1x512x512_S16x1x512x512_S16x1x512x512_S16x1x512x512_S16x8x512x512_d1 (ix4 b (4 : Fin 8) i j) 4 (Nat.le_of_ble_eq_true rfl) S16x1x512x512 (gshift 4 1 0 slices_S16x8x512x512_S16x1x512x512_0_4_0_0 slices_S16x514x514_S16x512x512_0_1_0 X0) rfl rfl 4 rfl
      (ix4 b 0 i j) (fun a ha => by match a with | ⟨0, _⟩ => rfl | ⟨1, _⟩ => exact absurd rfl ha | ⟨2, _⟩ => rfl | ⟨3, _⟩ => rfl) rfl).trans
      (gshift_ix X0 4 (by decide) 1 0 _ _ b i j)
  · exact (concatenate_apply_piece (t := S16x8x512x512) (1 : Fin 4) [⟨S16x1x512x512, gshift 0 2 2 slices_S16x8x512x512_S16x1x512x512_0_0_0_0 slices_S16x514x514_S16x512x512_0_2_2 X0⟩, ⟨S16x1x512x512, gshift 1 2 1 slices_S16x8x512x512_S16x1x512x512_0_1_0_0 slices_S16x514x514_S16x512x512_0_2_1 X0⟩, ⟨S16x1x512x512, gshift 2 2 0 slices_S16x8x512x512_S16x1x512x512_0_2_0_0 slices_S16x514x514_S16x512x512_0_2_0 X0⟩, ⟨S16x1x512x512, gshift 3 1 2 slices_S16x8x512x512_S16x1x512x512_0_3_0_0 slices_S16x514x514_S16x512x512_0_1_2 X0⟩, ⟨S16x1x512x512, gshift 4 1 0 slices_S16x8x512x512_S16x1x512x512_0_4_0_0 slices_S16x514x514_S16x512x512_0_1_0 X0⟩, ⟨S16x1x512x512, gshift 5 0 2 slices_S16x8x512x512_S16x1x512x512_0_5_0_0 slices_S16x514x514_S16x512x512_0_0_2 X0⟩, ⟨S16x1x512x512, gshift 6 0 1 slices_S16x8x512x512_S16x1x512x512_0_6_0_0 slices_S16x514x514_S16x512x512_0_0_1 X0⟩, ⟨S16x1x512x512, gshift 7 0 0 slices_S16x8x512x512_S16x1x512x512_0_7_0_0 slices_S16x514x514_S16x512x512_0_0_0 X0⟩]
      concatenates_S16x1x512x512_S16x1x512x512_S16x1x512x512_S16x1x512x512_S16x1x512x512_S16x1x512x512_S16x1x512x512_S16x1x512x512_S16x8x512x512_d1 (ix4 b (5 : Fin 8) i j) 5 (Nat.le_of_ble_eq_true rfl) S16x1x512x512 (gshift 5 0 2 slices_S16x8x512x512_S16x1x512x512_0_5_0_0 slices_S16x514x514_S16x512x512_0_0_2 X0) rfl rfl 5 rfl
      (ix4 b 0 i j) (fun a ha => by match a with | ⟨0, _⟩ => rfl | ⟨1, _⟩ => exact absurd rfl ha | ⟨2, _⟩ => rfl | ⟨3, _⟩ => rfl) rfl).trans
      (gshift_ix X0 5 (by decide) 0 2 _ _ b i j)
  · exact (concatenate_apply_piece (t := S16x8x512x512) (1 : Fin 4) [⟨S16x1x512x512, gshift 0 2 2 slices_S16x8x512x512_S16x1x512x512_0_0_0_0 slices_S16x514x514_S16x512x512_0_2_2 X0⟩, ⟨S16x1x512x512, gshift 1 2 1 slices_S16x8x512x512_S16x1x512x512_0_1_0_0 slices_S16x514x514_S16x512x512_0_2_1 X0⟩, ⟨S16x1x512x512, gshift 2 2 0 slices_S16x8x512x512_S16x1x512x512_0_2_0_0 slices_S16x514x514_S16x512x512_0_2_0 X0⟩, ⟨S16x1x512x512, gshift 3 1 2 slices_S16x8x512x512_S16x1x512x512_0_3_0_0 slices_S16x514x514_S16x512x512_0_1_2 X0⟩, ⟨S16x1x512x512, gshift 4 1 0 slices_S16x8x512x512_S16x1x512x512_0_4_0_0 slices_S16x514x514_S16x512x512_0_1_0 X0⟩, ⟨S16x1x512x512, gshift 5 0 2 slices_S16x8x512x512_S16x1x512x512_0_5_0_0 slices_S16x514x514_S16x512x512_0_0_2 X0⟩, ⟨S16x1x512x512, gshift 6 0 1 slices_S16x8x512x512_S16x1x512x512_0_6_0_0 slices_S16x514x514_S16x512x512_0_0_1 X0⟩, ⟨S16x1x512x512, gshift 7 0 0 slices_S16x8x512x512_S16x1x512x512_0_7_0_0 slices_S16x514x514_S16x512x512_0_0_0 X0⟩]
      concatenates_S16x1x512x512_S16x1x512x512_S16x1x512x512_S16x1x512x512_S16x1x512x512_S16x1x512x512_S16x1x512x512_S16x1x512x512_S16x8x512x512_d1 (ix4 b (6 : Fin 8) i j) 6 (Nat.le_of_ble_eq_true rfl) S16x1x512x512 (gshift 6 0 1 slices_S16x8x512x512_S16x1x512x512_0_6_0_0 slices_S16x514x514_S16x512x512_0_0_1 X0) rfl rfl 6 rfl
      (ix4 b 0 i j) (fun a ha => by match a with | ⟨0, _⟩ => rfl | ⟨1, _⟩ => exact absurd rfl ha | ⟨2, _⟩ => rfl | ⟨3, _⟩ => rfl) rfl).trans
      (gshift_ix X0 6 (by decide) 0 1 _ _ b i j)
  · exact (concatenate_apply_piece (t := S16x8x512x512) (1 : Fin 4) [⟨S16x1x512x512, gshift 0 2 2 slices_S16x8x512x512_S16x1x512x512_0_0_0_0 slices_S16x514x514_S16x512x512_0_2_2 X0⟩, ⟨S16x1x512x512, gshift 1 2 1 slices_S16x8x512x512_S16x1x512x512_0_1_0_0 slices_S16x514x514_S16x512x512_0_2_1 X0⟩, ⟨S16x1x512x512, gshift 2 2 0 slices_S16x8x512x512_S16x1x512x512_0_2_0_0 slices_S16x514x514_S16x512x512_0_2_0 X0⟩, ⟨S16x1x512x512, gshift 3 1 2 slices_S16x8x512x512_S16x1x512x512_0_3_0_0 slices_S16x514x514_S16x512x512_0_1_2 X0⟩, ⟨S16x1x512x512, gshift 4 1 0 slices_S16x8x512x512_S16x1x512x512_0_4_0_0 slices_S16x514x514_S16x512x512_0_1_0 X0⟩, ⟨S16x1x512x512, gshift 5 0 2 slices_S16x8x512x512_S16x1x512x512_0_5_0_0 slices_S16x514x514_S16x512x512_0_0_2 X0⟩, ⟨S16x1x512x512, gshift 6 0 1 slices_S16x8x512x512_S16x1x512x512_0_6_0_0 slices_S16x514x514_S16x512x512_0_0_1 X0⟩, ⟨S16x1x512x512, gshift 7 0 0 slices_S16x8x512x512_S16x1x512x512_0_7_0_0 slices_S16x514x514_S16x512x512_0_0_0 X0⟩]
      concatenates_S16x1x512x512_S16x1x512x512_S16x1x512x512_S16x1x512x512_S16x1x512x512_S16x1x512x512_S16x1x512x512_S16x1x512x512_S16x8x512x512_d1 (ix4 b (7 : Fin 8) i j) 7 (Nat.le_of_ble_eq_true rfl) S16x1x512x512 (gshift 7 0 0 slices_S16x8x512x512_S16x1x512x512_0_7_0_0 slices_S16x514x514_S16x512x512_0_0_0 X0) rfl rfl 7 rfl
      (ix4 b 0 i j) (fun a ha => by match a with | ⟨0, _⟩ => rfl | ⟨1, _⟩ => exact absurd rfl ha | ⟨2, _⟩ => rfl | ⟨3, _⟩ => rfl) rfl).trans
      (gshift_ix X0 7 (by decide) 0 0 _ _ b i j)

theorem absw_ix (X0 : (⟨S16x8x512x512, .f32⟩ : BufTy).Contents (Elt Ideal)) (b : Fin 16) (i j : Fin 512) :
    absw X0 (ix3 b i j) = aw (planes X0 b) i j := by
  unfold absw
  rw [reduce_d1_4]
  show Ideal.ofBits .f32 0x00000000#32 + _ = _
  rw [Ideal.ofBits_zero_f32, zero_add]
  unfold aw
  refine Finset.sum_congr rfl fun k _ => ?_
  show eabs (gates0 X0 (ix4 b k i j)) = _
  rw [gates0_ix]

/-- The gates at a pixel. -/
theorem GW_ix (X0 : (⟨S16x8x512x512, .f32⟩ : BufTy).Contents (Elt Ideal)) (b : Fin 16) (k : Fin 8) (i j : Fin 512) :
    GW X0 (ix4 b k i j) = gw (planes X0 b) k i j := by
  unfold GW
  rw [hostDivf_apply, up8_ix, up4_ix, gates0_ix, absw_ix]
  rfl

/-- The gates' sum at a pixel. -/
theorem GS_ix (X0 : (⟨S16x8x512x512, .f32⟩ : BufTy).Contents (Elt Ideal)) (b : Fin 16) (i j : Fin 512) :
    GS (GW X0) (ix3 b i j) = gs (planes X0 b) i j := by
  unfold GS
  rw [reduce_d1_4]
  show Ideal.ofBits .f32 0x00000000#32 + _ = _
  rw [Ideal.ofBits_zero_f32, zero_add]
  unfold gs
  exact Finset.sum_congr rfl fun k _ => GW_ix X0 b k i j

/-- The current image shifted to a neighbour, at a pixel. -/
theorem cshift_ix (cur : (⟨S16x1x512x512, .f32⟩ : BufTy).Contents (Elt Ideal)) (p q : Nat) (hs : S16x1x514x514.Slices ![0, 0, p, q] S16x1x512x512)
    (b : Fin 16) (i j : Fin 512) :
    cshift p q hs cur (ix5 b 0 0 i j) = zshift (fun i j => cur (ix4 b 0 i j)) p q i j := by
  unfold cshift
  rw [up5_ix, pad_slice4_zshift _ _ _ _ zpad_first]

/-- The stacked shifted images at plane `k`. -/
theorem stack_ix (cur : (⟨S16x1x512x512, .f32⟩ : BufTy).Contents (Elt Ideal)) (b : Fin 16) (k : Fin 8) (i j : Fin 512) :
    stack cur (ix5 b k 0 i j) = zshift (fun i j => cur (ix4 b 0 i j)) (oa k) (ob k) i j := by
  unfold stack
  fin_cases k
  · exact (concatenate_apply_piece (t := S16x8x1x512x512) (1 : Fin 5) [⟨S16x1x1x512x512, cshift 2 2 slices_S16x1x514x514_S16x1x512x512_0_0_2_2 cur⟩, ⟨S16x1x1x512x512, cshift 2 1 slices_S16x1x514x514_S16x1x512x512_0_0_2_1 cur⟩, ⟨S16x1x1x512x512, cshift 2 0 slices_S16x1x514x514_S16x1x512x512_0_0_2_0 cur⟩, ⟨S16x1x1x512x512, cshift 1 2 slices_S16x1x514x514_S16x1x512x512_0_0_1_2 cur⟩, ⟨S16x1x1x512x512, cshift 1 0 slices_S16x1x514x514_S16x1x512x512_0_0_1_0 cur⟩, ⟨S16x1x1x512x512, cshift 0 2 slices_S16x1x514x514_S16x1x512x512_0_0_0_2 cur⟩, ⟨S16x1x1x512x512, cshift 0 1 slices_S16x1x514x514_S16x1x512x512_0_0_0_1 cur⟩, ⟨S16x1x1x512x512, cshift 0 0 slices_S16x1x514x514_S16x1x512x512_0_0_0_0 cur⟩]
      concatenates_S16x1x1x512x512_S16x1x1x512x512_S16x1x1x512x512_S16x1x1x512x512_S16x1x1x512x512_S16x1x1x512x512_S16x1x1x512x512_S16x1x1x512x512_S16x8x1x512x512_d1 (ix5 b (0 : Fin 8) 0 i j) 0 (Nat.le_of_ble_eq_true rfl) S16x1x1x512x512 (cshift 2 2 slices_S16x1x514x514_S16x1x512x512_0_0_2_2 cur) rfl rfl 0 rfl
      (ix5 b 0 0 i j) (fun a ha => by match a with | ⟨0, _⟩ => rfl | ⟨1, _⟩ => exact absurd rfl ha | ⟨2, _⟩ => rfl | ⟨3, _⟩ => rfl | ⟨4, _⟩ => rfl) rfl).trans
      (cshift_ix cur 2 2 _ b i j)
  · exact (concatenate_apply_piece (t := S16x8x1x512x512) (1 : Fin 5) [⟨S16x1x1x512x512, cshift 2 2 slices_S16x1x514x514_S16x1x512x512_0_0_2_2 cur⟩, ⟨S16x1x1x512x512, cshift 2 1 slices_S16x1x514x514_S16x1x512x512_0_0_2_1 cur⟩, ⟨S16x1x1x512x512, cshift 2 0 slices_S16x1x514x514_S16x1x512x512_0_0_2_0 cur⟩, ⟨S16x1x1x512x512, cshift 1 2 slices_S16x1x514x514_S16x1x512x512_0_0_1_2 cur⟩, ⟨S16x1x1x512x512, cshift 1 0 slices_S16x1x514x514_S16x1x512x512_0_0_1_0 cur⟩, ⟨S16x1x1x512x512, cshift 0 2 slices_S16x1x514x514_S16x1x512x512_0_0_0_2 cur⟩, ⟨S16x1x1x512x512, cshift 0 1 slices_S16x1x514x514_S16x1x512x512_0_0_0_1 cur⟩, ⟨S16x1x1x512x512, cshift 0 0 slices_S16x1x514x514_S16x1x512x512_0_0_0_0 cur⟩]
      concatenates_S16x1x1x512x512_S16x1x1x512x512_S16x1x1x512x512_S16x1x1x512x512_S16x1x1x512x512_S16x1x1x512x512_S16x1x1x512x512_S16x1x1x512x512_S16x8x1x512x512_d1 (ix5 b (1 : Fin 8) 0 i j) 1 (Nat.le_of_ble_eq_true rfl) S16x1x1x512x512 (cshift 2 1 slices_S16x1x514x514_S16x1x512x512_0_0_2_1 cur) rfl rfl 1 rfl
      (ix5 b 0 0 i j) (fun a ha => by match a with | ⟨0, _⟩ => rfl | ⟨1, _⟩ => exact absurd rfl ha | ⟨2, _⟩ => rfl | ⟨3, _⟩ => rfl | ⟨4, _⟩ => rfl) rfl).trans
      (cshift_ix cur 2 1 _ b i j)
  · exact (concatenate_apply_piece (t := S16x8x1x512x512) (1 : Fin 5) [⟨S16x1x1x512x512, cshift 2 2 slices_S16x1x514x514_S16x1x512x512_0_0_2_2 cur⟩, ⟨S16x1x1x512x512, cshift 2 1 slices_S16x1x514x514_S16x1x512x512_0_0_2_1 cur⟩, ⟨S16x1x1x512x512, cshift 2 0 slices_S16x1x514x514_S16x1x512x512_0_0_2_0 cur⟩, ⟨S16x1x1x512x512, cshift 1 2 slices_S16x1x514x514_S16x1x512x512_0_0_1_2 cur⟩, ⟨S16x1x1x512x512, cshift 1 0 slices_S16x1x514x514_S16x1x512x512_0_0_1_0 cur⟩, ⟨S16x1x1x512x512, cshift 0 2 slices_S16x1x514x514_S16x1x512x512_0_0_0_2 cur⟩, ⟨S16x1x1x512x512, cshift 0 1 slices_S16x1x514x514_S16x1x512x512_0_0_0_1 cur⟩, ⟨S16x1x1x512x512, cshift 0 0 slices_S16x1x514x514_S16x1x512x512_0_0_0_0 cur⟩]
      concatenates_S16x1x1x512x512_S16x1x1x512x512_S16x1x1x512x512_S16x1x1x512x512_S16x1x1x512x512_S16x1x1x512x512_S16x1x1x512x512_S16x1x1x512x512_S16x8x1x512x512_d1 (ix5 b (2 : Fin 8) 0 i j) 2 (Nat.le_of_ble_eq_true rfl) S16x1x1x512x512 (cshift 2 0 slices_S16x1x514x514_S16x1x512x512_0_0_2_0 cur) rfl rfl 2 rfl
      (ix5 b 0 0 i j) (fun a ha => by match a with | ⟨0, _⟩ => rfl | ⟨1, _⟩ => exact absurd rfl ha | ⟨2, _⟩ => rfl | ⟨3, _⟩ => rfl | ⟨4, _⟩ => rfl) rfl).trans
      (cshift_ix cur 2 0 _ b i j)
  · exact (concatenate_apply_piece (t := S16x8x1x512x512) (1 : Fin 5) [⟨S16x1x1x512x512, cshift 2 2 slices_S16x1x514x514_S16x1x512x512_0_0_2_2 cur⟩, ⟨S16x1x1x512x512, cshift 2 1 slices_S16x1x514x514_S16x1x512x512_0_0_2_1 cur⟩, ⟨S16x1x1x512x512, cshift 2 0 slices_S16x1x514x514_S16x1x512x512_0_0_2_0 cur⟩, ⟨S16x1x1x512x512, cshift 1 2 slices_S16x1x514x514_S16x1x512x512_0_0_1_2 cur⟩, ⟨S16x1x1x512x512, cshift 1 0 slices_S16x1x514x514_S16x1x512x512_0_0_1_0 cur⟩, ⟨S16x1x1x512x512, cshift 0 2 slices_S16x1x514x514_S16x1x512x512_0_0_0_2 cur⟩, ⟨S16x1x1x512x512, cshift 0 1 slices_S16x1x514x514_S16x1x512x512_0_0_0_1 cur⟩, ⟨S16x1x1x512x512, cshift 0 0 slices_S16x1x514x514_S16x1x512x512_0_0_0_0 cur⟩]
      concatenates_S16x1x1x512x512_S16x1x1x512x512_S16x1x1x512x512_S16x1x1x512x512_S16x1x1x512x512_S16x1x1x512x512_S16x1x1x512x512_S16x1x1x512x512_S16x8x1x512x512_d1 (ix5 b (3 : Fin 8) 0 i j) 3 (Nat.le_of_ble_eq_true rfl) S16x1x1x512x512 (cshift 1 2 slices_S16x1x514x514_S16x1x512x512_0_0_1_2 cur) rfl rfl 3 rfl
      (ix5 b 0 0 i j) (fun a ha => by match a with | ⟨0, _⟩ => rfl | ⟨1, _⟩ => exact absurd rfl ha | ⟨2, _⟩ => rfl | ⟨3, _⟩ => rfl | ⟨4, _⟩ => rfl) rfl).trans
      (cshift_ix cur 1 2 _ b i j)
  · exact (concatenate_apply_piece (t := S16x8x1x512x512) (1 : Fin 5) [⟨S16x1x1x512x512, cshift 2 2 slices_S16x1x514x514_S16x1x512x512_0_0_2_2 cur⟩, ⟨S16x1x1x512x512, cshift 2 1 slices_S16x1x514x514_S16x1x512x512_0_0_2_1 cur⟩, ⟨S16x1x1x512x512, cshift 2 0 slices_S16x1x514x514_S16x1x512x512_0_0_2_0 cur⟩, ⟨S16x1x1x512x512, cshift 1 2 slices_S16x1x514x514_S16x1x512x512_0_0_1_2 cur⟩, ⟨S16x1x1x512x512, cshift 1 0 slices_S16x1x514x514_S16x1x512x512_0_0_1_0 cur⟩, ⟨S16x1x1x512x512, cshift 0 2 slices_S16x1x514x514_S16x1x512x512_0_0_0_2 cur⟩, ⟨S16x1x1x512x512, cshift 0 1 slices_S16x1x514x514_S16x1x512x512_0_0_0_1 cur⟩, ⟨S16x1x1x512x512, cshift 0 0 slices_S16x1x514x514_S16x1x512x512_0_0_0_0 cur⟩]
      concatenates_S16x1x1x512x512_S16x1x1x512x512_S16x1x1x512x512_S16x1x1x512x512_S16x1x1x512x512_S16x1x1x512x512_S16x1x1x512x512_S16x1x1x512x512_S16x8x1x512x512_d1 (ix5 b (4 : Fin 8) 0 i j) 4 (Nat.le_of_ble_eq_true rfl) S16x1x1x512x512 (cshift 1 0 slices_S16x1x514x514_S16x1x512x512_0_0_1_0 cur) rfl rfl 4 rfl
      (ix5 b 0 0 i j) (fun a ha => by match a with | ⟨0, _⟩ => rfl | ⟨1, _⟩ => exact absurd rfl ha | ⟨2, _⟩ => rfl | ⟨3, _⟩ => rfl | ⟨4, _⟩ => rfl) rfl).trans
      (cshift_ix cur 1 0 _ b i j)
  · exact (concatenate_apply_piece (t := S16x8x1x512x512) (1 : Fin 5) [⟨S16x1x1x512x512, cshift 2 2 slices_S16x1x514x514_S16x1x512x512_0_0_2_2 cur⟩, ⟨S16x1x1x512x512, cshift 2 1 slices_S16x1x514x514_S16x1x512x512_0_0_2_1 cur⟩, ⟨S16x1x1x512x512, cshift 2 0 slices_S16x1x514x514_S16x1x512x512_0_0_2_0 cur⟩, ⟨S16x1x1x512x512, cshift 1 2 slices_S16x1x514x514_S16x1x512x512_0_0_1_2 cur⟩, ⟨S16x1x1x512x512, cshift 1 0 slices_S16x1x514x514_S16x1x512x512_0_0_1_0 cur⟩, ⟨S16x1x1x512x512, cshift 0 2 slices_S16x1x514x514_S16x1x512x512_0_0_0_2 cur⟩, ⟨S16x1x1x512x512, cshift 0 1 slices_S16x1x514x514_S16x1x512x512_0_0_0_1 cur⟩, ⟨S16x1x1x512x512, cshift 0 0 slices_S16x1x514x514_S16x1x512x512_0_0_0_0 cur⟩]
      concatenates_S16x1x1x512x512_S16x1x1x512x512_S16x1x1x512x512_S16x1x1x512x512_S16x1x1x512x512_S16x1x1x512x512_S16x1x1x512x512_S16x1x1x512x512_S16x8x1x512x512_d1 (ix5 b (5 : Fin 8) 0 i j) 5 (Nat.le_of_ble_eq_true rfl) S16x1x1x512x512 (cshift 0 2 slices_S16x1x514x514_S16x1x512x512_0_0_0_2 cur) rfl rfl 5 rfl
      (ix5 b 0 0 i j) (fun a ha => by match a with | ⟨0, _⟩ => rfl | ⟨1, _⟩ => exact absurd rfl ha | ⟨2, _⟩ => rfl | ⟨3, _⟩ => rfl | ⟨4, _⟩ => rfl) rfl).trans
      (cshift_ix cur 0 2 _ b i j)
  · exact (concatenate_apply_piece (t := S16x8x1x512x512) (1 : Fin 5) [⟨S16x1x1x512x512, cshift 2 2 slices_S16x1x514x514_S16x1x512x512_0_0_2_2 cur⟩, ⟨S16x1x1x512x512, cshift 2 1 slices_S16x1x514x514_S16x1x512x512_0_0_2_1 cur⟩, ⟨S16x1x1x512x512, cshift 2 0 slices_S16x1x514x514_S16x1x512x512_0_0_2_0 cur⟩, ⟨S16x1x1x512x512, cshift 1 2 slices_S16x1x514x514_S16x1x512x512_0_0_1_2 cur⟩, ⟨S16x1x1x512x512, cshift 1 0 slices_S16x1x514x514_S16x1x512x512_0_0_1_0 cur⟩, ⟨S16x1x1x512x512, cshift 0 2 slices_S16x1x514x514_S16x1x512x512_0_0_0_2 cur⟩, ⟨S16x1x1x512x512, cshift 0 1 slices_S16x1x514x514_S16x1x512x512_0_0_0_1 cur⟩, ⟨S16x1x1x512x512, cshift 0 0 slices_S16x1x514x514_S16x1x512x512_0_0_0_0 cur⟩]
      concatenates_S16x1x1x512x512_S16x1x1x512x512_S16x1x1x512x512_S16x1x1x512x512_S16x1x1x512x512_S16x1x1x512x512_S16x1x1x512x512_S16x1x1x512x512_S16x8x1x512x512_d1 (ix5 b (6 : Fin 8) 0 i j) 6 (Nat.le_of_ble_eq_true rfl) S16x1x1x512x512 (cshift 0 1 slices_S16x1x514x514_S16x1x512x512_0_0_0_1 cur) rfl rfl 6 rfl
      (ix5 b 0 0 i j) (fun a ha => by match a with | ⟨0, _⟩ => rfl | ⟨1, _⟩ => exact absurd rfl ha | ⟨2, _⟩ => rfl | ⟨3, _⟩ => rfl | ⟨4, _⟩ => rfl) rfl).trans
      (cshift_ix cur 0 1 _ b i j)
  · exact (concatenate_apply_piece (t := S16x8x1x512x512) (1 : Fin 5) [⟨S16x1x1x512x512, cshift 2 2 slices_S16x1x514x514_S16x1x512x512_0_0_2_2 cur⟩, ⟨S16x1x1x512x512, cshift 2 1 slices_S16x1x514x514_S16x1x512x512_0_0_2_1 cur⟩, ⟨S16x1x1x512x512, cshift 2 0 slices_S16x1x514x514_S16x1x512x512_0_0_2_0 cur⟩, ⟨S16x1x1x512x512, cshift 1 2 slices_S16x1x514x514_S16x1x512x512_0_0_1_2 cur⟩, ⟨S16x1x1x512x512, cshift 1 0 slices_S16x1x514x514_S16x1x512x512_0_0_1_0 cur⟩, ⟨S16x1x1x512x512, cshift 0 2 slices_S16x1x514x514_S16x1x512x512_0_0_0_2 cur⟩, ⟨S16x1x1x512x512, cshift 0 1 slices_S16x1x514x514_S16x1x512x512_0_0_0_1 cur⟩, ⟨S16x1x1x512x512, cshift 0 0 slices_S16x1x514x514_S16x1x512x512_0_0_0_0 cur⟩]
      concatenates_S16x1x1x512x512_S16x1x1x512x512_S16x1x1x512x512_S16x1x1x512x512_S16x1x1x512x512_S16x1x1x512x512_S16x1x1x512x512_S16x1x1x512x512_S16x8x1x512x512_d1 (ix5 b (7 : Fin 8) 0 i j) 7 (Nat.le_of_ble_eq_true rfl) S16x1x1x512x512 (cshift 0 0 slices_S16x1x514x514_S16x1x512x512_0_0_0_0 cur) rfl rfl 7 rfl
      (ix5 b 0 0 i j) (fun a ha => by match a with | ⟨0, _⟩ => rfl | ⟨1, _⟩ => exact absurd rfl ha | ⟨2, _⟩ => rfl | ⟨3, _⟩ => rfl | ⟨4, _⟩ => rfl) rfl).trans
      (cshift_ix cur 0 0 _ b i j)

/-- One propagation step at a pixel. -/
theorem STEP_ix (X0 : (⟨S16x8x512x512, .f32⟩ : BufTy).Contents (Elt Ideal)) (raw cur : (⟨S16x1x512x512, .f32⟩ : BufTy).Contents (Elt Ideal)) (b : Fin 16) (R C : Img)
    (hraw : ∀ i j, raw (ix4 b 0 i j) = R i j) (hcur : ∀ i j, cur (ix4 b 0 i j) = C i j) (i j : Fin 512) :
    STEP (GW X0) (GS (GW X0)) raw cur (ix4 b 0 i j) = step oneL (planes X0 b) R C i j := by
  unfold STEP BASE ACC
  rw [addf_apply, mulf_apply, up4_ix, subf_apply, broadcastInDim_scalar_apply, GS_ix, hraw, reduce_d1_5]
  have hc : (fun i j => cur (ix4 b 0 i j)) = C := funext fun i => funext fun j => hcur i j
  unfold step
  congr 1
  show Ideal.ofBits .f32 0x00000000#32 + _ = _
  rw [Ideal.ofBits_zero_f32, zero_add]
  refine Finset.sum_congr rfl fun k _ => ?_
  rw [mulf_apply, gw5_ix, GW_ix, stack_ix, hc]

end Cert.ReferenceIdeal.RefRead

end
-- ==== Proof.RefValue.lean ====
/-
  The reference's run and its value: every execution ends with the result array at four propagation steps from the input
  image — at `(b, 0, i, j)`, `Stencil`'s result for image `b` at pixel `(i, j)` — and the arguments unchanged.
-/
import proofs.«136062_j39565238731218_2_alg».proof.Proof.RefRead

set_option maxRecDepth 8192

noncomputable section

namespace Cert.ReferenceIdeal.RefValue

open Cert.ReferenceIdeal Cert.ReferenceIdeal.Gen Cert.ReferenceIdeal.RunP Cert.ReferenceIdeal.RefRun Cert.ReferenceIdeal.RefRead
open Idealize.ShloMosaic Idealize.ShloMosaic.ValueIdx Idealize.ShloMosaic.TcCoe Idealize.SL.Sem Idealize.ShloMosaic.StableHlo
open Cert.Stencil Cert.PreRead

/-- The result as a function of the two argument arrays: the gates once, four steps. -/
def RES (X0 : (⟨S16x8x512x512, .f32⟩ : BufTy).Contents (Elt Ideal)) (X1 : (⟨S16x1x512x512, .f32⟩ : BufTy).Contents (Elt Ideal)) : (⟨S16x1x512x512, .f32⟩ : BufTy).Contents (Elt Ideal) :=
  STEP (GW X0) (GS (GW X0)) X1 (STEP (GW X0) (GS (GW X0)) X1 (STEP (GW X0) (GS (GW X0)) X1 (STEP (GW X0) (GS (GW X0)) X1 X1)))

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v178) = RES (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v178).trans (after_result _),
      (h c main_arg0).trans (after_arg0 _),
      (h c main_arg1).trans (after_arg1 _)⟩)
    (run_seq scopedRefs_eq scopedSems_eq defs main (fun _ => ops) main_eq (fun _ => ops_sub) m ρ (fun _ => ops_fresh))

/-- The result at a pixel of image `b`. -/
theorem RES_ix (X0 : (⟨S16x8x512x512, .f32⟩ : BufTy).Contents (Elt Ideal)) (X1 : (⟨S16x1x512x512, .f32⟩ : BufTy).Contents (Elt Ideal)) (b : Fin 16) (i j : Fin 512) :
    RES X0 X1 (ix4 b 0 i j) = result oneL (planes X0 b) (fun i j => X1 (ix4 b 0 i j)) i j := by
  unfold RES result
  have hr : ∀ i j, X1 (ix4 b 0 i j) = (fun i j => X1 (ix4 b 0 i j)) i j := fun _ _ => rfl
  have h1 := fun i j => STEP_ix X0 X1 X1 b _ _ hr hr i j
  have h2 := fun i j => STEP_ix X0 X1 _ b _ _ hr h1 i j
  have h3 := fun i j => STEP_ix X0 X1 _ b _ _ hr h2 i j
  exact STEP_ix X0 X1 _ b _ _ hr h3 i j

end Cert.ReferenceIdeal.RefValue

end
-- ==== Proof.lean ====
/-
  The proof of `Cert.Claim`: the kernel and the reference compute, on the extended reals, the same 8-neighbour affinity
  propagation — the gates are the zero-padded shifts of the guidance planes divided by the sum of their absolute values, and four
  times the image becomes `(1 - Σ gates) · raw + Σ_k gate_k · (image shifted to neighbour k)` — wherever that sum is nonzero at every
  pixel (the precondition: where it is zero the reference divides `0 / 0`).

  The kernel multiplies by one reciprocal instead of dividing, rotates where the reference pads and slices (masking the wrap-around by
  the border indicators in the gates, and relying on the gates' zeros in the propagation), and adds its eight terms in order; each of these
  is an identity of the extended reals that needs no finiteness (`Stencil`, `KStencil`). `KWords` reads the body's stored value at a pixel,
  `KValue` assembles the sixteen blocks; `RefRun` runs the reference stretch by stretch and `RefRead` reads it at a pixel; `PreRead`
  reads the precondition. The three frames are the generated ones (the reference's: its run with the result dropped); the
  idealization rewrote nothing.
-/
import proofs.«136062_j39565238731218_2_alg».proof.Defs
import proofs.«136062_j39565238731218_2_alg».proof.Proof.Gen.Kernel
import proofs.«136062_j39565238731218_2_alg».proof.Proof.Gen.Kernel.Frame
import proofs.«136062_j39565238731218_2_alg».proof.Proof.Gen.KernelIdeal
import proofs.«136062_j39565238731218_2_alg».proof.Proof.Gen.KernelIdeal.Frame
import proofs.«136062_j39565238731218_2_alg».proof.Proof.Gen.ReferenceIdeal
import proofs.«136062_j39565238731218_2_alg».proof.Proof.Gen.Pre_finite_inputs
import proofs.«136062_j39565238731218_2_alg».proof.Proof.KValue
import proofs.«136062_j39565238731218_2_alg».proof.Proof.RefValue
import Idealize.ShloMosaic.Adequacy
import Idealize.ShloMosaic.Init

set_option maxRecDepth 8192

noncomputable section

namespace Cert.Proof

open Idealize.ShloMosaic Idealize.ShloMosaic.ValueIdx Idealize.SL.Sem Cert.Stencil Cert.PreRead

/-- The two programs' results are one function of the argument arrays. -/
theorem res_eq (X0 : FVec Ideal Cert.KernelIdeal.S16x8x512x512 .f32) (X1 : FVec Ideal Cert.KernelIdeal.S16x1x512x512 .f32) :
    Cert.ReferenceIdeal.RefValue.RES X0 X1 = Cert.KernelIdeal.KValue.Gres X0 X1 := by
  funext y
  have h1 : y 1 = (0 : Fin 1) := Fin.ext (by have h : (y 1).val < 1 := (y 1).isLt; show (y 1).val = 0; omega)
  obtain ⟨b, i, j, rfl⟩ : ∃ (b : Fin 16) (i j : Fin 512), y = ix4 b 0 i j :=
    ⟨y 0, y 2, y 3, (eq_ix4 y).trans (congrArg (fun z => ix4 (y 0) z (y 2) (y 3)) h1)⟩
  exact Cert.ReferenceIdeal.RefValue.RES_ix X0 X1 b i j

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

theorem algebraic : Cert.algebraic_KernelIdeal_ReferenceIdeal := by
  intro m ρ m' ρ' hpre hagree
  have hm : ∀ (c : Dev Cert.KernelIdeal.nD) (b : Fin 16) (i j : Fin 512),
      aw (planes (Cert.KernelIdeal.Gen.V m c Cert.KernelIdeal.main_arg0) b) i j ≠ 0 :=
    fun c b i j => aw_ne_zero _ _ (hpre c) b i j
  refine ⟨fun c => Cert.KernelIdeal.KValue.Gres (m ((c.tc : Thread _ _).loc Cert.KernelIdeal.main_arg0)) (m ((c.tc : Thread _ _).loc Cert.KernelIdeal.main_arg1)),
    Cert.KernelIdeal.KValue.run m ρ hm, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact res_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
